-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x768 : Shape := ⟨2, ![2048, 768]⟩
abbrev S2048 : Shape := ⟨1, ![2048]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel

variable [Facts]

def fn {F : FTy → Type} [FloatOps F] (main_arg0 : FVec F S2048x768 .f32) (main_arg1 : FVec F S2048x768 .f32) (main_arg2 : IVec S2048 32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  main_v8
-- ==== Kernel.lean ====
abbrev S2048x768 : Shape := ⟨2, ![2048, 768]⟩
abbrev S2048 : Shape := ⟨1, ![2048]⟩
abbrev S_ : Shape := ⟨0, ![]⟩
abbrev S2048x1 : Shape := ⟨2, ![2048, 1]⟩
abbrev S4096x768 : Shape := ⟨2, ![4096, 768]⟩
abbrev S4096 : Shape := ⟨1, ![4096]⟩
abbrev S4096x1 : Shape := ⟨2, ![4096, 1]⟩
abbrev S1x4096 : Shape := ⟨2, ![1, 4096]⟩
abbrev S512x768 : Shape := ⟨2, ![512, 768]⟩
abbrev S1024x768 : Shape := ⟨2, ![1024, 768]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 76
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048, .i32⟩
  | .hbm, ⟨3, _⟩ => ⟨S2048x768, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x768, .f32⟩
  | .hbm, ⟨22, _⟩ => ⟨S2048x768, .f32⟩
  | .hbm, ⟨23, _⟩ => ⟨S4096x768, .f32⟩
  | .hbm, ⟨24, _⟩ => ⟨S4096x768, .bf16⟩
  | .hbm, ⟨25, _⟩ => ⟨S4096, .i32⟩
  | .hbm, ⟨26, _⟩ => ⟨S4096x1, .i32⟩
  | .hbm, ⟨27, _⟩ => ⟨S1x4096, .i32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S4096, .f32⟩
  | .hbm, ⟨38, _⟩ => ⟨S2048x768, .f32⟩
  | .hbm, ⟨39, _⟩ => ⟨S2048x768, .f32⟩
  | .hbm, ⟨40, _⟩ => ⟨S2048x768, .f32⟩
  | .hbm, ⟨41, _⟩ => ⟨S_, .f32⟩
  | .hbm, ⟨42, _⟩ => ⟨S2048, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S1024x768, .bf16⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S2048x768_S2048_d1 : S2048x768.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x768_0_1 : S2048x1.BroadcastsInDim S2048x768 (![0, 1] : Fin 2 → Fin S2048x768.rank)
  concatenates_S2048x768_S2048x768_S4096x768_d0 : Shape.Concatenates [S2048x768, S2048x768] S4096x768 0
  bitsLt_bf16_f32 : FTy.bits .bf16 < FTy.bits .f32
  concatenates_S2048_S2048_S4096_d0 : Shape.Concatenates [S2048, S2048] S4096 0
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S4096x1_S4096 : S4096x1.ShapeCasts S4096
  reducesTo_S4096x768_S4096_d1 : S4096x768.ReducesTo [1] S4096
  slices_S4096x768_S2048x768_0_0 : S4096x768.Slices ![0, 0] S2048x768
  slices_S4096x768_S2048x768_2048_0 : S4096x768.Slices ![2048, 0] S2048x768
  bcast_S_S4096 : S_.BroadcastsInDim S4096 (![] : Fin 0 → Fin S4096.rank)
  reducesTo_S4096_S_d0 : S4096.ReducesTo [0] S_
  dot_S512x768_S1024x768_S512x1024_1_1_0_0_n_n_wf : DotDims.WF S512x768 S1024x768 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .bf16 = 32 ∨ (Rect.block (s := S4096x768) S512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S4096x768.size a
  hwx0_1 : ∀ i : grid0.Coords, EltTy.bits .bf16 = 32 ∨ (Rect.block (s := S4096x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .i32 = 32 ∨ (Rect.block (s := S1x4096) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)

variable [Facts₀]

def dot_S512x768_S1024x768_S512x1024_1_1_0_0_n_n : DotDims S512x768 S1024x768 S512x1024 where
  lhsContracting := [1]
  rhsContracting := [1]
  lhsNonContracting := [0]
  rhsNonContracting := [0]
  lhsBatch := []
  rhsBatch := []
  wf := dot_S512x768_S1024x768_S512x1024_1_1_0_0_n_n_wf

abbrev win0_0 : Pipeline.Window sig grid0 :=
  Pipeline.Window.ofSpec (Memref.whole main_v11) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x768 : Shape := ⟨2, ![2048, 768]⟩
abbrev S2048 : Shape := ⟨1, ![2048]⟩
abbrev S_ : Shape := ⟨0, ![]⟩
abbrev S2048x1 : Shape := ⟨2, ![2048, 1]⟩
abbrev S4096x768 : Shape := ⟨2, ![4096, 768]⟩
abbrev S768x4096 : Shape := ⟨2, ![768, 4096]⟩
abbrev S4096x4096 : Shape := ⟨2, ![4096, 4096]⟩
abbrev S2048x2 : Shape := ⟨2, ![2048, 2]⟩
abbrev S4096 : Shape := ⟨1, ![4096]⟩
abbrev S4096x1 : Shape := ⟨2, ![4096, 1]⟩
abbrev S1x4096 : Shape := ⟨2, ![1, 4096]⟩

abbrev nBuf : Space → Nat
  | .hbm => 136
  | .vmem => 0
  | .smem => 0
  | _ => 0

abbrev hbmTy0_0 (i : Nat) : BufTy := match i % 128 with
  | 0 => ⟨S2048x768, .f32⟩
  | 1 => ⟨S2048x768, .f32⟩
  | 2 => ⟨S2048, .i32⟩
  | 3 => ⟨S2048x768, .f32⟩
  | 4 => ⟨S_, .f32⟩
  | 5 => ⟨S2048, .f32⟩
  | 6 => ⟨S2048x1, .f32⟩
  | 7 => ⟨S2048x1, .f32⟩
  | 8 => ⟨S_, .f32⟩
  | 9 => ⟨S2048x1, .f32⟩
  | 10 => ⟨S2048x1, .f32⟩
  | 11 => ⟨S2048x768, .f32⟩
  | 12 => ⟨S2048x768, .f32⟩
  | 13 => ⟨S2048x768, .f32⟩
  | 14 => ⟨S_, .f32⟩
  | 15 => ⟨S2048, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x768, .f32⟩
  | 22 => ⟨S2048x768, .f32⟩
  | 23 => ⟨S4096x768, .f32⟩
  | 24 => ⟨S768x4096, .f32⟩
  | 25 => ⟨S4096x4096, .f32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .i1⟩
  | 32 => ⟨S4096x4096, .f32⟩
  | 33 => ⟨S2048, .i32⟩
  | 34 => ⟨S2048, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S2048x1, .i32⟩
  | 54 => ⟨S2048x2, .i32⟩
  | 55 => ⟨S2048, .f32⟩
  | 56 => ⟨S2048, .i32⟩
  | 57 => ⟨S2048, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S2048x1, .i32⟩
  | 77 => ⟨S2048x2, .i32⟩
  | 78 => ⟨S2048, .f32⟩
  | 79 => ⟨S4096, .f32⟩
  | 80 => ⟨S_, .f32⟩
  | 81 => ⟨S4096, .f32⟩
  | 82 => ⟨S4096, .f32⟩
  | 83 => ⟨S4096, .f32⟩
  | 84 => ⟨S_, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S4096x4096, .f32⟩
  | 92 => ⟨S_, .f32⟩
  | 93 => ⟨S4096, .f32⟩
  | 94 => ⟨S4096, .f32⟩
  | 95 => ⟨S4096, .f32⟩
  | 96 => ⟨S4096, .f32⟩
  | 97 => ⟨S_, .f32⟩
  | 98 => ⟨S_, .f32⟩
  | 99 => ⟨S_, .f32⟩
  | 100 => ⟨S_, .f32⟩
  | 101 => ⟨S4096, .i32⟩
  | 102 => ⟨S4096x1, .i32⟩
  | 103 => ⟨S1x4096, .i32⟩
  | 104 => ⟨S4096x4096, .i32⟩
  | 105 => ⟨S4096x4096, .i32⟩
  | 106 => ⟨S4096x4096, .i1⟩
  | 107 => ⟨S4096x4096, .f32⟩
  | 108 => ⟨S4096x4096, .f32⟩
  | 109 => ⟨S4096x4096, .f32⟩
  | 110 => ⟨S_, .f32⟩
  | 111 => ⟨S4096x4096, .f32⟩
  | 112 => ⟨S4096x4096, .f32⟩
  | 113 => ⟨S4096x4096, .f32⟩
  | 114 => ⟨S_, .f32⟩
  | 115 => ⟨S4096x4096, .f32⟩
  | 116 => ⟨S4096x4096, .f32⟩
  | 117 => ⟨S4096x4096, .f32⟩
  | 118 => ⟨S_, .f32⟩
  | 119 => ⟨S4096x4096, .f32⟩
  | 120 => ⟨S4096x4096, .f32⟩
  | 121 => ⟨S4096x4096, .f32⟩
  | 122 => ⟨S_, .f32⟩
  | 123 => ⟨S4096, .f32⟩
  | 124 => ⟨S4096x1, .f32⟩
  | 125 => ⟨S4096x4096, .f32⟩
  | 126 => ⟨S4096x4096, .f32⟩
  | 127 => ⟨S4096x4096, .f32⟩
  | _ => ⟨S2048x768, .f32⟩

abbrev hbmTy0_1 (i : Nat) : BufTy := match i % 128 with
  | 0 => ⟨S4096x4096, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call2_v0 : Ref sig .tc := ⟨.hbm, 33, rfl⟩
abbrev main_call2_v1 : Ref sig .tc := ⟨.hbm, 34, rfl⟩
abbrev main_call2_c : Ref sig .tc := ⟨.hbm, 35, rfl⟩
abbrev main_call2_v2 : Ref sig .tc := ⟨.hbm, 36, rfl⟩
abbrev main_call2_v3 : Ref sig .tc := ⟨.hbm, 37, rfl⟩
abbrev main_call2_c_0 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c_2 : Ref sig .tc := ⟨.hbm, 45, rfl⟩
abbrev main_call2_v9 : Ref sig .tc := ⟨.hbm, 46, rfl⟩
abbrev main_call2_v10 : Ref sig .tc := ⟨.hbm, 47, rfl⟩
abbrev main_call2_c_3 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_v15 : Ref sig .tc := ⟨.hbm, 53, rfl⟩
abbrev main_call2_v16 : Ref sig .tc := ⟨.hbm, 54, rfl⟩
abbrev main_v19 : Ref sig .tc := ⟨.hbm, 55, rfl⟩
abbrev main_call3_v0 : Ref sig .tc := ⟨.hbm, 56, rfl⟩
abbrev main_call3_v1 : Ref sig .tc := ⟨.hbm, 57, rfl⟩
abbrev main_call3_c : Ref sig .tc := ⟨.hbm, 58, rfl⟩
abbrev main_call3_v2 : Ref sig .tc := ⟨.hbm, 59, rfl⟩
abbrev main_call3_v3 : Ref sig .tc := ⟨.hbm, 60, rfl⟩
abbrev main_call3_c_0 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c_2 : Ref sig .tc := ⟨.hbm, 68, rfl⟩
abbrev main_call3_v9 : Ref sig .tc := ⟨.hbm, 69, rfl⟩
abbrev main_call3_v10 : Ref sig .tc := ⟨.hbm, 70, rfl⟩
abbrev main_call3_c_3 : Ref sig .tc := ⟨.hbm, 71, rfl⟩
abbrev main_call3_v11 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_call3_v15 : Ref sig .tc := ⟨.hbm, 76, rfl⟩
abbrev main_call3_v16 : Ref sig .tc := ⟨.hbm, 77, rfl⟩
abbrev main_v20 : Ref sig .tc := ⟨.hbm, 78, rfl⟩
abbrev main_v21 : Ref sig .tc := ⟨.hbm, 79, rfl⟩
abbrev main_cst_1 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_2 : Ref sig .tc := ⟨.hbm, 84, rfl⟩
abbrev main_v25 : Ref sig .tc := ⟨.hbm, 85, rfl⟩
abbrev main_v26 : Ref sig .tc := ⟨.hbm, 86, rfl⟩
abbrev main_cst_3 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_4 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_5 : Ref sig .tc := ⟨.hbm, 97, rfl⟩
abbrev main_v35 : Ref sig .tc := ⟨.hbm, 98, rfl⟩
abbrev main_cst_6 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_cst_7 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_cst_8 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_cst_9 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_cst_10 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_cst_11 : Ref sig .tc := ⟨.hbm, 129, rfl⟩
abbrev main_v61 : Ref sig .tc := ⟨.hbm, 130, rfl⟩
abbrev main_cst_12 : Ref sig .tc := ⟨.hbm, 131, rfl⟩
abbrev main_v62 : Ref sig .tc := ⟨.hbm, 132, rfl⟩
abbrev main_cst_13 : Ref sig .tc := ⟨.hbm, 133, rfl⟩
abbrev main_v63 : Ref sig .tc := ⟨.hbm, 134, rfl⟩
abbrev main_v64 : Ref sig .tc := ⟨.hbm, 135, rfl⟩

abbrev nD : Nat := 1
abbrev τ : Topo := Topo.v7x

variable {F : FTy → Type} [FloatOps F]

class Facts₀ : Prop where
  reducesTo_S2048x768_S2048_d1 : S2048x768.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x768_0_1 : S2048x1.BroadcastsInDim S2048x768 (![0, 1] : Fin 2 → Fin S2048x768.rank)
  concatenates_S2048x768_S2048x768_S4096x768_d0 : Shape.Concatenates [S2048x768, S2048x768] S4096x768 0
  transposes_S4096x768_S768x4096_1_0 : S4096x768.Transposes [1, 0] S768x4096
  bcast_S_S4096x4096 : S_.BroadcastsInDim S4096x4096 (![] : Fin 0 → Fin S4096x4096.rank)
  bcast_S_S2048 : S_.BroadcastsInDim S2048 (![] : Fin 0 → Fin S2048.rank)
  concatenates_S2048x1_S2048x1_S2048x2_d1 : Shape.Concatenates [S2048x1, S2048x1] S2048x2 1
  concatenates_S2048_S2048_S4096_d0 : Shape.Concatenates [S2048, S2048] S4096 0
  bcast_S_S4096 : S_.BroadcastsInDim S4096 (![] : Fin 0 → Fin S4096.rank)
  reducesTo_S4096x4096_S4096_d1 : S4096x4096.ReducesTo [1] S4096
  reducesTo_S4096_S_d0 : S4096.ReducesTo [0] S_
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  dot_S4096x768_S768x4096_S4096x4096_1_0_0_1_n_n_wf : DotDims.WF S4096x768 S768x4096 S4096x4096 [1] [0] [0] [1] [] []
  gather_S4096x4096_S2048x2_S2048_n_01_n_n_01_1_11_wf : GatherDims.WF S4096x4096 S2048x2 S2048 [] [0, 1] [] [0, 1] [] 1 ![1, 1]

variable [Facts₀]

def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf
def gather_S4096x4096_S2048x2_S2048_n_01_n_n_01_1_11 : GatherDims S4096x4096 S2048x2 S2048 where
  offsetDims := []
  collapsedSliceDims := [0, 1]
  operandBatchingDims := []
  startIndicesBatchingDims := []
  startIndexMap := [0, 1]
  indexVectorDim := 1
  sliceSizes := ![1, 1]
  wf := gather_S4096x4096_S2048x2_S2048_n_01_n_n_01_1_11_wf

class Facts : Prop extends Facts₀ where

variable [Facts]
-- ==== Proof.LibSharedFrame.lean ====
/-
  The frame run of a pipeline kernel whose windows may SHARE ARRAYS (one array handed to the kernel through
  several input windows), for a body that carries a scratch buffer between grid points.

  The library's frame run with a tracking invariant takes the layout bundled with the windows' arrays pairwise
  distinct, and uses that distinctness in one place only: to turn the buffers behind the arrays, each whole at the
  full share, into the proof data's arrays at entry. Here that entailment is an argument (`hsplit`), and the layout
  is given by its fields with the distinctness left out.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

/-- A buffer held at the full share is the same buffer held twice, at the left and at the right half of the full
    share, at the same contents (on any set of elements `I`). -/
theorem pointsTo_fullShare_halves {Ix : Type} [DecidableEq Ix] {Name : Type} [DecidableEq Name] {U : Type} [URA U] {Lvl : Type}
    (ℓ : Loc nD τ sig) (I : Finset (Idx ℓ)) (f : Buf Val ℓ) :
    (ℓ ↦[I]{fullShare} f : sProp (MT nD τ sig Ix Val Name U Lvl))
      ⊣⊢ iprop((ℓ ↦[I]{fullShare.left} f) ∗ ℓ ↦[I]{fullShare.right} f) :=
  pointsTo_share (PosShare.mem_left_op_right fullShare)

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (hne : ∀ w : Fin (cfgs p).W, 0 < ((cfgs p).spec w).block.numel)
  (harr : ∀ w : Fin (cfgs p).W, ((cfgs p).spec w).arr.IsWhole)
  (hstage : ∀ (w : Fin (cfgs p).W) (s : Fin ((cfgs p).spec w).nbuf), (((cfgs p).spec w).stage s).IsWhole)
  (defs₀ : Defs nD τ sig Val Λ₀) (𝒱₀ : Variants)

local notation "cfg" => cfgs p
local notation "𝔻" => Pipeline.defs (fun q => Cfg.toPCfg (Val := Val) (cfgs q)) defs₀

include hinj hw hne harr hstage in
/-- THE FRAME RUN with a TRACKING invariant for a kernel whose windows may SHARE ARRAYS. As the library's
    `θ_run_frame_track`: one region on a static grid, no semaphore or transfer of the kernel's own, the proof data's
    `Φ` any invariant stated point by point (what the body carries in its scratch), entered from the class invariant
    `ΦA` before point 0 (`hin`) and returned to it after the last point (`hout`). In place of the bundled layout it
    takes the layout's fields without the arrays' distinctness (`hinj`: the staging cells pairwise distinct; `hw`:
    arrays unscoped, staging buffers and semaphores scoped and distinct; `hne`: no block empty; `harr`, `hstage`:
    every array and staging memref a whole buffer), and in place of "every window holds its array at the full share,
    at the entry contents" the entailment `hsplit`: the DISTINCT buffers behind the arrays, each whole at the full share
    at the region-entry contents `V c`, yield the proof data's arrays at entry — an array read through several input
    windows dealt among them by shares the data's `q` names. Concludes `FramePost`: every window's array holds the
    data's `arrAt w N` (windows on one array read the same final contents), every bypassing buffer its entry contents. -/
theorem θ_run_frame_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (V c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2.2⟩)

end SharedFrame

end Pipeline

end Idealize.ShloMosaic

end
-- ==== Proof.LibSharedFrameAround.lean ====
/-
  The frame run of a pipeline kernel whose windows may SHARE ARRAYS, for an entry computation that goes on AFTER
  its region with straight lines of host operations.

  The library's frame run around a region ("host lines, region, host lines") takes the layout bundled with the
  windows' arrays pairwise distinct, and uses that distinctness in two places: to turn the buffers behind the arrays,
  each whole at the full share, into the proof data's arrays at the region's entry, and, at the region's exit, to turn
  the proof data's arrays back into whole buffers the later lines may read. Here both are arguments: the entry
  entailment (`hsplit`), and at the exit the pair `hjoin` / `hsplitN` between the proof data's arrays after the
  last grid point and the distinct buffers behind them at the exit contents `Wx`.
-/
import Idealize.ShloMosaic.Lib.Pipeline.FrameSuffix
import proofs.«106012_j6571299963520_2_alg».proof.Proof.LibSharedFrame

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrameAround

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (hne : ∀ w : Fin (cfgs p).W, 0 < ((cfgs p).spec w).block.numel)
  (harr : ∀ w : Fin (cfgs p).W, ((cfgs p).spec w).arr.IsWhole)
  (hstage : ∀ (w : Fin (cfgs p).W) (s : Fin ((cfgs p).spec w).nbuf), (((cfgs p).spec w).stage s).IsWhole)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

/-- THE LINES AFTER THE REGION when windows may share arrays: from the region's exit — the boundary, the proof
    data's arrays `A`, the bypassing buffers at the entry contents `V` — the lines run within all the unscoped
    buffers (`hsub`), writing no buffer behind an array (`hkeep`), and hand back `A` and the bypassing buffers at
    the lines' `StableHlo.after` from the exit contents `Wx`. `A` is any proposition that is, both ways, the distinct
    buffers behind the arrays, each whole at the full share, at `Wx` (`hjoin`, `hsplitN`); the exit contents agree with
    the entry contents on the bypassing buffers (`hWx`). -/
theorem tail_seqs_shared (hunsc : ∀ w, (arrRef (cfg).spec w).isScoped = false)
    (c : Dev nD) (V Wx : Valuation τ sig Val) (A : sProp 𝕄)
    (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hjoin : A ⊢ (arrBufs (cfg).spec c (fun b => Wx (Proc.devRef .tc b)) : sProp 𝕄))
    (hsplitN : (arrBufs (cfg).spec c (fun b => Wx (Proc.devRef .tc b)) : sProp 𝕄) ⊢ A)
    (hWx : ∀ b ∈ restRefs sig (cfg).spec, Wx (Proc.devRef .tc b) = V (Proc.devRef .tc b))
    (Q' : PUnit → sProp 𝕄) :
    iprop((iprop(A ∗ unscopedRest (cfg).spec c (fun b => StableHlo.after opss.flatten Wx (Proc.devRef .tc b))) -∗ Q' ⟨⟩)
        ∗ boundary (c.tc : Thread nD τ) ∗ A ∗ unscopedRest (cfg).spec c (fun b => V (Proc.devRef .tc b)))
      ⊢ wp frame (wpE 𝔻 𝕍 (c.tc : Thread nD τ) none) Set.univ (chain (opss.map StableHlo.seq)) Q' := by
  classical
  -- the bypassing buffers hold the same at the entry and at the exit contents
  have hZ : (unscopedRest (cfg).spec c (fun b => V (Proc.devRef .tc b)) : sProp 𝕄)
      = unscopedRest (cfg).spec c (fun b => Wx (Proc.devRef .tc b)) := by
    unfold unscopedRest
    exact bigSep_congr fun b hb => by beta_reduce; rw [hWx b hb]
  -- all the unscoped buffers held at a valuation are the buffers behind the arrays and the bypassing ones
  have hheld : ∀ Wv : Valuation τ sig Val, (StableHlo.held (c.tc : Thread nD τ) (ucRefs τ sig) Wv : sProp 𝕄)
      = iprop((arrBufs (cfg).spec c (fun b => Wv (Proc.devRef .tc b)) : sProp 𝕄)
          ∗ unscopedRest (cfg).spec c (fun b => Wv (Proc.devRef .tc b))) := fun Wv =>
    (unscopedBufs_held (Ix := Unit) (Name := ℕ) (U := UR sig nD τ) (Lvl := ℕ) c Wv).symm.trans
      (unscopedBufs_split₀ cfgs p hunsc c _)
  -- no line writes a buffer behind an array
  have harr' : (arrBufs (cfg).spec c (fun b => StableHlo.after opss.flatten Wx (Proc.devRef .tc b)) : sProp 𝕄)
      = arrBufs (cfg).spec c (fun b => Wx (Proc.devRef .tc b)) := by
    unfold arrBufs
    exact bigSep_congr fun b hb => by
      obtain ⟨w, -, rfl⟩ := Finset.mem_image.mp hb
      beta_reduce
      rw [StableHlo.after_of_forall_not_mem _ _ fun op hop => ?_]
      obtain ⟨ops, hops, hop⟩ := List.mem_flatten.mp hop
      exact hkeep ops hops op hop w
  rw [← List.append_nil (opss.map StableHlo.seq), hZ]
  iintro ⟨Hk, Hb, HA, HZ⟩
  iapply (wp_seqs_then (fun q => Cfg.toPCfg (Val := Val) (cfgs q)) defs₀ 𝒱₀ c (ucRefs τ sig) [] opss hsub hfresh Wx) $$ [Hb HA HZ]
  · rw [hheld Wx]
    isplitl [Hb]; · iexact Hb
    isplitl [HA]; · iapply hjoin; iexact HA
    iexact HZ
  iintro Hb
  rw [chain_nil, wp_pure, hheld, harr']
  imodintro
  iapply Hk
  icases Hb with ⟨-, HA, HZ⟩
  isplitl [HA]; · iapply hsplitN; iexact HA
  iexact HZ

include hinj hw hne harr hstage in
/-- THE FRAME RUN with a TRACKING invariant, for a kernel whose windows may SHARE ARRAYS and an entry computation
    that continues after the region with the host lines `opss`. As the library's `θ_run_frame_around_track`, with the
    layout given by its fields without the arrays' distinctness (as in `θ_run_frame_track_shared`), the entry entailment
    `hsplit` from the distinct buffers behind the arrays at the region-entry contents `V₀ c`, and at the exit the two
    entailments `hjoin` / `hsplitN` between the proof data's arrays after the last point and those buffers at the exit
    contents `Wx c` (which agree with `V₀ c` on every bypassing buffer: `hWx`). The lines run within the unscoped buffers
    (`hsub`), make no fresh buffer (`hfresh`) and write no buffer behind an array (`hkeep`). Concludes `FramePost` at the
    contents after the lines from `Wx c`. -/
theorem θ_run_frame_around_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => Wx c (Proc.devRef .tc b)) : sProp 𝕄))
    (hsplitN : ∀ c, (arrBufs (cfg).spec c (fun b => Wx c (Proc.devRef .tc b)) : sProp 𝕄) ⊢ (dats p c).arrays ((dats p c).arrAt · (cfg).N))
    (hWx : ∀ c, ∀ b ∈ restRefs sig (cfg).spec, Wx c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g)
      (FramePost cfgs dats p (fun c b => StableHlo.after opss.flatten (Wx c) (Proc.devRef .tc b))) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (Wx c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (htail := fun c Q' => tail_seqs_shared cfgs p defs₀ 𝒱₀ hw.arr_unscoped c (V₀ c) (Wx c) _ opss hsub hfresh hkeep
      (hjoin c) (hsplitN c) (hWx c) Q')
    (QY := fun c s => ∀ b ∈ restRefs sig (cfg).spec,
      s.mem ((c.tc : Thread nD τ).loc b) = StableHlo.after opss.flatten (Wx c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (Wx c) (Proc.devRef .tc b)) s')
      isplitl [HU] <;> iassumption)
    (hQ := fun s h c => ⟨(h c).1, (h c).2.2⟩)

end SharedFrameAround

end Pipeline

end Idealize.ShloMosaic

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.KBFrameRuns.lean ====
/-
  What the runs of the similarity kernel's frame share: the entry computation around the one region (the lines
  normalising and stacking the embeddings before it, the lines assembling the loss after it), the blocks the
  region's windows show the body, and the body's one branch — "is this the first column block of the row block?" —
  decided over the 8 × 4 grid.
-/
import proofs.«106012_j6571299963520_2_alg».proof.Proof.Gen.Kernel.Launch
import proofs.«106012_j6571299963520_2_alg».proof.Proof.Gen.Kernel.Skeleton
import proofs.«106012_j6571299963520_2_alg».proof.Proof.Gen.Kernel.Points
import proofs.«106012_j6571299963520_2_alg».proof.Proof.LibSharedFrameAround
import proofs.«106012_j6571299963520_2_alg».proof.Proof.LibHostRead
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry computation around the region -/

/-- The buffers' contents when the region is entered: after the lines that normalise the two views' embeddings,
    stack them, and lay the class ids out as a column and as a row. -/
abbrev V0 (c : Dev nD) : Valuation τ sig (Elt F) :=
  StableHlo.after (List.flatten [hostOps0, hostOps0_1, hostOps0_2, hostOps0_3]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry computation is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The lines after the region touch unscoped buffers only. -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The buffers the 45 lines after the region write, in order: one each. -/
abbrev tailW : List (Ref sig .tc) := [main_v16, main_v17, main_v18, main_v19, main_v20, main_cst_1, main_v21, main_v22, main_v23, main_v24, main_cst_2, main_v25, main_v26, main_cst_3, main_v27, main_v28, main_v29, main_v30, main_v31, main_cst_4, main_v32, main_v33, main_v34, main_v35, main_v36, main_cst_5, main_v37, main_cst_6, main_v38, main_cst_7, main_v39, main_v40, main_v41, main_v42, main_cst_8, main_v43, main_v44, main_v45, main_cst_9, main_v46, main_cst_10, main_v47, main_cst_11, main_v48, main_v49]
theorem tail_aligned : LibHostRead.Aligned (hostOps1 : List (HloOp τ sig (Elt F))) tailW :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩
/-- None of the region's arrays is written by a line after the region. -/
theorem arr_not_tailW : ∀ w : Fin 7, Pipeline.arrRef spec0 w ∉ tailW := by decide
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  obtain ⟨y, hy, e⟩ := tail_aligned.writes_of_mem op hop
  rw [e, Finset.mem_singleton] at hmem
  exact arr_not_tailW w (Proc.devRef_injective _ hmem ▸ hy)

theorem V_main_arg0 (c : Dev nD) : V m c main_arg0 = m ((c : Thread nD τ).loc main_arg0) := by
  dsimp only [V, V0]; simp only [hostOps0, hostOps0_1, hostOps0_2, hostOps0_3, List.flatten_cons, List.flatten_nil, List.append_nil, List.cons_append, List.nil_append]; after_results <;> rfl
theorem V_main_arg1 (c : Dev nD) : V m c main_arg1 = m ((c : Thread nD τ).loc main_arg1) := by
  dsimp only [V, V0]; simp only [hostOps0, hostOps0_1, hostOps0_2, hostOps0_3, List.flatten_cons, List.flatten_nil, List.append_nil, List.cons_append, List.nil_append]; after_results <;> rfl
theorem V_main_arg2 (c : Dev nD) : V m c main_arg2 = m ((c : Thread nD τ).loc main_arg2) := by
  dsimp only [V, V0]; simp only [hostOps0, hostOps0_1, hostOps0_2, hostOps0_3, List.flatten_cons, List.flatten_nil, List.append_nil, List.cons_append, List.nil_append]; after_results <;> rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window whose
    index does not move with the column coordinate is fetched once per row block and kept). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- "This is the first column block": the accumulators are reset there. -/
abbrev cond0_0 (i : grid0.Coords) : Prop := (Scalar.cmpi .ne (Scalar.extui (Scalar.cmpi .eq (BitVec.ofNat 32 (i 1).val) 0#32)) 0#32) = 1#1
/-- It holds at the points ≡ 0 (mod 4): the grid is 8 row blocks by 4 column blocks, column index innermost. -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is ever idle. -/
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The staging memrefs the body is called with -/

/-- One staging buffer of each accumulator window, through which its contents are stated. -/
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view
abbrev VO0_6 : View sig .tc .vmem S512x1 .f32 := (Memref.whole cc0_stg6_0 : Memref sig .tc .vmem S512x1 .f32).view
abbrev ms0_0 (t : Fin cfg0.N) : Memref sig .tc .vmem S512x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)

end Cert.Kernel.Frm

end
-- ==== Proof.KBFrameRunA.lean ====
/-
  The body's run at a FIRST column block: the three accumulators are reset to zero, then the block's row sums are
  added. What each accumulator's staging buffer ends with is found by the run, as the list of its stores.
-/
import proofs.«106012_j6571299963520_2_alg».proof.Proof.KBFrameRuns

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first column block, on whole staging memrefs — the four inputs at their blocks, the accumulators at anything —
    the body runs to the continuation holding the inputs as they were and each accumulator with its stores written. -/
noncomputable def kernelRun0_A (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__sim_reduce_kernel i arg2 harg2 arg3 harg3 arg4 harg4 arg5 harg5 arg6 harg6 arg7 harg7 arg8 harg8) K } := by
  refine ⟨?_, ?_, ?_, fun E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.Kernel.Frm

end
-- ==== Proof.KBFrameRunB.lean ====
/-
  The body's run at a LATER column block: the block's row sums are added to what the accumulators hold from the
  column block before. What each accumulator's staging buffer ends with is found by the run, as the list of its stores.
-/
import proofs.«106012_j6571299963520_2_alg».proof.Proof.KBFrameRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later column block, on whole staging memrefs — the four inputs at their blocks, the accumulators at their
    running contents `xo·` — the body runs to the continuation holding the inputs as they were and each accumulator with
    its store written. -/
noncomputable def kernelRun0_B (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__sim_reduce_kernel i arg2 harg2 arg3 harg3 arg4 harg4 arg5 harg5 arg6 harg6 arg7 harg7 arg8 harg8) K } := by
  refine ⟨?_, ?_, ?_, fun E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.Kernel.Frm

end
-- ==== Proof.KBFrame.lean ====
/-
  The frame of the similarity kernel's program: what the three accumulators hold after each grid point (reset at a
  first column block, added to at the later ones), the region's proof data — the stacked embeddings are read through
  TWO windows, as row block and as column block, so each holds half of that array —, the body's obligation at every
  point, and the run of the whole entry computation.
-/
import proofs.«106012_j6571299963520_2_alg».proof.Proof.KBFrameRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first column block accumulator 0's stores cover its block. -/
theorem cover0_A_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S512x1.size (by sl_kernel_rfl) y

/-- What a first column block leaves in accumulator 0's staging buffer: its stores read back. -/
def out0_A_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

/-- At a later column block accumulator 0's store covers its block. -/
theorem cover0_B_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) (y : S512x1.Idx) :
    ∃ pc ∈ (kernelRun0_B c i arg2 harg2 arg3 harg3 arg4 harg4 arg5 harg5 arg6 harg6 arg7 harg7 arg8 harg8 hc0 x0 x1 x2 x3 xo4 xo5 xo6).1, y ∈ pc.1.set :=
  View.cover_of_tiledL (kernelRun0_B c i arg2 harg2 arg3 harg3 arg4 harg4 arg5 harg5 arg6 harg6 arg7 harg7 arg8 harg8 hc0 x0 x1 x2 x3 xo4 xo5 xo6).1 S512x1.size (by sl_kernel_rfl) y

/-- What a later column block leaves in accumulator 0's staging buffer: its store read back. -/
def out0_B_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xo4 xo5 xo6).1)

/-- At a first column block accumulator 1's stores cover its block. -/
theorem cover0_A_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S512x1.size (by sl_kernel_rfl) y

/-- What a first column block leaves in accumulator 1's staging buffer: its stores read back. -/
def out0_A_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) : Vec F S512x1 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

/-- At a later column block accumulator 1's store covers its block. -/
theorem cover0_B_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) (y : S512x1.Idx) :
    ∃ pc ∈ (kernelRun0_B c i arg2 harg2 arg3 harg3 arg4 harg4 arg5 harg5 arg6 harg6 arg7 harg7 arg8 harg8 hc0 x0 x1 x2 x3 xo4 xo5 xo6).2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.1 S512x1.size (by sl_kernel_rfl) y

/-- What a later column block leaves in accumulator 1's staging buffer: its store read back. -/
def out0_B_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) : Vec F S512x1 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xo4 xo5 xo6).2.1)

/-- At a first column block accumulator 2's stores cover its block. -/
theorem cover0_A_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S512x1.size (by sl_kernel_rfl) y

/-- What a first column block leaves in accumulator 2's staging buffer: its stores read back. -/
def out0_A_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) : Vec F S512x1 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3).2.2.1)

/-- At a later column block accumulator 2's store covers its block. -/
theorem cover0_B_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) (y : S512x1.Idx) :
    ∃ pc ∈ (kernelRun0_B c i arg2 harg2 arg3 harg3 arg4 harg4 arg5 harg5 arg6 harg6 arg7 harg7 arg8 harg8 hc0 x0 x1 x2 x3 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.2.1 S512x1.size (by sl_kernel_rfl) y

/-- What a later column block leaves in accumulator 2's staging buffer: its store read back. -/
def out0_B_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) : Vec F S512x1 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 xo4 xo5 xo6).2.2.1)

/-! ## What the accumulators hold after each point -/

/-- The accumulation: after the body at position `n` the three accumulators' staging buffers hold what the case the
    position is in leaves — at a later column block over what the position before left (the buffers are not written
    back in between: the block index moves with the row block only). -/
def outsAt0 (c : Dev nD) : (n : ℕ) → n < cfg0.N → Vec F S512x1 .f32 × Vec F S512x1 .f32 × Vec F S512x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at a point each input's buffer at its block and the
    accumulators' at `outsAt0`; the stacked embeddings held half through the row window and half through the column
    window, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later column block an accumulator's current staging buffer holds what the body left at the point before: it
    was not written back in between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point: the inputs' memrefs hold their blocks; at a first column block the reset run applies, at a
    later one the accumulating run over what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 32 := lt_of_lt_of_eq t.isLt (show cfg0.N = 32 from N_0)
  by_cases h0 : t.val % 4 = 0
  · rw [outsAt0_A m c t h0]
    dsimp only
    unfold out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [outsAt0_B m c t h0]
    dsimp only
    simp only [before0_4_B m c t h0, before0_5_B m c t h0, before0_6_B m c t h0]
    unfold out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays behind the windows: six buffers for seven windows -/

/-- The seven windows' arrays are six distinct buffers: the stacked embeddings are read through windows 0 and 1. -/
theorem arrBufs0_eq (c : Dev nD) (X : (b : Ref sig .tc) → Buf (Elt F) ((c : Thread nD τ).loc b)) :
    (Pipeline.arrBufs spec0 c X : sProp 𝕄)
      = iprop(((((c : Thread nD τ).loc main_v11) ↦{fullShare} X main_v11 : sProp 𝕄)) ∗ ((((c : Thread nD τ).loc main_v13) ↦{fullShare} X main_v13 : sProp 𝕄)) ∗ ((((c : Thread nD τ).loc main_v14) ↦{fullShare} X main_v14 : sProp 𝕄)) ∗ ((((c : Thread nD τ).loc main_v15_0) ↦{fullShare} X main_v15_0 : sProp 𝕄)) ∗ ((((c : Thread nD τ).loc main_v15_1) ↦{fullShare} X main_v15_1 : sProp 𝕄)) ∗ ((((c : Thread nD τ).loc main_v15_2) ↦{fullShare} X main_v15_2 : sProp 𝕄))) := by
  unfold Pipeline.arrBufs
  exact (bigSep_eq_bigSepL_of_eq [main_v11, main_v13, main_v14, main_v15_0, main_v15_1, main_v15_2] (by decide) (by decide) _).trans rfl

/-- The proof data's arrays, window by window, each at its share. -/
theorem arrays0_eq (c : Dev nD) (Fw : (w : Fin cfg0.W) → Buf (Elt F) ((cfg0.win w).arr.view.loc (c : Thread nD τ))) :
    (dats m 0 c).arrays Fw = bigSep Finset.univ fun w => ((((c : Thread nD τ).loc (Pipeline.arrRef spec0 w)) ↦{(dats m 0 c).share w} Fw w : sProp 𝕄)) := by
  unfold Dat.arrays
  exact bigSep_congr fun w _ => by rw [(arr_whole0 w).set_eq_univ]

/-- The same as a chain: the stacked embeddings' buffer held in two halves, every other array whole. -/
theorem arrays0_chain (c : Dev nD) (X : (b : Ref sig .tc) → Buf (Elt F) ((c : Thread nD τ).loc b)) :
    (dats m 0 c).arrays (fun w => X (Pipeline.arrRef spec0 w))
      = iprop(((((c : Thread nD τ).loc main_v11) ↦{fullShare.left} X main_v11 : sProp 𝕄)) ∗ ((((c : Thread nD τ).loc main_v11) ↦{fullShare.right} X main_v11 : sProp 𝕄)) ∗ ((((c : Thread nD τ).loc main_v13) ↦{fullShare} X main_v13 : sProp 𝕄)) ∗ ((((c : Thread nD τ).loc main_v14) ↦{fullShare} X main_v14 : sProp 𝕄)) ∗ ((((c : Thread nD τ).loc main_v15_0) ↦{fullShare} X main_v15_0 : sProp 𝕄)) ∗ ((((c : Thread nD τ).loc main_v15_1) ↦{fullShare} X main_v15_1 : sProp 𝕄)) ∗ ((((c : Thread nD τ).loc main_v15_2) ↦{fullShare} X main_v15_2 : sProp 𝕄))) :=
  (arrays0_eq m c _).trans ((bigSep_W0 _).trans rfl)

/-- The buffers behind the arrays, whole at contents `X`, are the proof data's arrays at any contents that agree with
    `X` window by window: the stacked embeddings' buffer is dealt in two halves. -/
theorem arrays_of_bufs (c : Dev nD) (X : (b : Ref sig .tc) → Buf (Elt F) ((c : Thread nD τ).loc b))
    (Fw : (w : Fin cfg0.W) → Buf (Elt F) ((cfg0.win w).arr.view.loc (c : Thread nD τ)))
    (hF : ∀ w, Fw w = X (Pipeline.arrRef spec0 w)) :
    (Pipeline.arrBufs spec0 c X : sProp 𝕄) ⊢ (dats m 0 c).arrays Fw := by
  obtain rfl : Fw = fun w => X (Pipeline.arrRef spec0 w) := funext hF
  refine (Entails.of_eq (arrBufs0_eq c X)).trans (.trans ?_ (Entails.of_eq (arrays0_chain m c X).symm))
  iintro ⟨H11, H13, H14, H150, H151, H152⟩
  icases (pointsTo_fullShare_halves _ _ _).1 $$ H11 with ⟨Hl, Hr⟩
  isplitl [Hl]; · iexact Hl
  isplitl [Hr]; · iexact Hr
  isplitl [H13]; · iexact H13
  isplitl [H14]; · iexact H14
  isplitl [H150]; · iexact H150
  isplitl [H151]; · iexact H151
  iexact H152

/-- And back. -/
theorem bufs_of_arrays (c : Dev nD) (X : (b : Ref sig .tc) → Buf (Elt F) ((c : Thread nD τ).loc b))
    (Fw : (w : Fin cfg0.W) → Buf (Elt F) ((cfg0.win w).arr.view.loc (c : Thread nD τ)))
    (hF : ∀ w, Fw w = X (Pipeline.arrRef spec0 w)) :
    (dats m 0 c).arrays Fw ⊢ (Pipeline.arrBufs spec0 c X : sProp 𝕄) := by
  obtain rfl : Fw = fun w => X (Pipeline.arrRef spec0 w) := funext hF
  refine (Entails.of_eq (arrays0_chain m c X)).trans (.trans ?_ (Entails.of_eq (arrBufs0_eq c X).symm))
  iintro ⟨Hl, Hr, H13, H14, H150, H151, H152⟩
  isplitl [Hl Hr]
  · iapply (pointsTo_fullShare_halves _ _ _).2; isplitl [Hl]; · iexact Hl
    iexact Hr
  isplitl [H13]; · iexact H13
  isplitl [H14]; · iexact H14
  isplitl [H150]; · iexact H150
  isplitl [H151]; · iexact H151
  iexact H152

/-! ## The buffers' contents when the region is left -/

/-- The region-exit contents: the arrays at what the write-backs leave, every other buffer as the region found it. -/
abbrev Wx (c : Dev nD) : Valuation τ sig (Elt F) :=
  Pipeline.withArrays spec0 c (V0 m c) fun w => (dats m 0 c).arrAt w cfg0.N

/-- The override reads an array's contents off ANY window on that array when the windows on one array agree. -/
theorem withArrays_arr_of_agree {gr : Nat} {W : Nat} (win : Fin W → Pipeline.WinSpec sig gr) (c : Dev nD) (Vv : Valuation τ sig (Elt F))
    (A : (w : Fin W) → Buf (Elt F) ((win w).arr.view.loc (c.tc : Thread nD τ))) (w : Fin W)
    (hc : ∀ w' (e : Proc.devRef .tc (Pipeline.arrRef win w') = Proc.devRef (τ := τ) .tc (Pipeline.arrRef win w)),
      cast (congrArg (fun b' : DevRef τ sig => b'.ty.Contents (Elt F)) e) (A w') = A w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact hc _ h.choose_spec

/-- An input array is never written: after all the points it holds what the region found. -/
theorem arrAt_in0 (c : Dev nD) (n : Nat) : (dats m 0 c).arrAt 0 n = V m c main_v11 := ((dats m 0 c).arrAt_in 0 rfl n).trans (A_eq m c 0)
theorem arrAt_in1 (c : Dev nD) (n : Nat) : (dats m 0 c).arrAt 1 n = V m c main_v11 := ((dats m 0 c).arrAt_in 1 rfl n).trans (A_eq m c 1)
theorem arrAt_in2 (c : Dev nD) (n : Nat) : (dats m 0 c).arrAt 2 n = V m c main_v13 := ((dats m 0 c).arrAt_in 2 rfl n).trans (A_eq m c 2)
theorem arrAt_in3 (c : Dev nD) (n : Nat) : (dats m 0 c).arrAt 3 n = V m c main_v14 := ((dats m 0 c).arrAt_in 3 rfl n).trans (A_eq m c 3)

/-- Two windows on one array are the same window, or the row and column windows on the stacked embeddings. -/
theorem arrRef_eq_cases : ∀ w w' : Fin 7, Pipeline.arrRef spec0 w' = Pipeline.arrRef spec0 w →
    w' = w ∨ (w' = 0 ∧ w = 1) ∨ (w' = 1 ∧ w = 0) := by decide

/-- The exit contents at each window's array. -/
theorem Wx_arr (c : Dev nD) (w : Fin cfg0.W) : Wx m c (Proc.devRef .tc (Pipeline.arrRef spec0 w)) = (dats m 0 c).arrAt w cfg0.N := by
  refine withArrays_arr_of_agree spec0 c (V0 m c) _ w fun w' e => ?_
  have hne : Pipeline.arrRef spec0 w' = Pipeline.arrRef spec0 w := Proc.devRef_injective _ e
  refine cast_eq_iff_heq.mpr ?_
  rcases arrRef_eq_cases w w' hne with rfl | ⟨rfl, rfl⟩ | ⟨rfl, rfl⟩
  · exact HEq.rfl
  · exact heq_of_eq ((arrAt_in0 m c _).trans (arrAt_in1 m c _).symm)
  · exact heq_of_eq ((arrAt_in1 m c _).trans (arrAt_in0 m c _).symm)

/-- The exit contents at a buffer that is no window's array: as the region found it. -/
theorem Wx_rest (c : Dev nD) : ∀ b ∈ Pipeline.restRefs sig spec0, Wx m c (Proc.devRef .tc b) = V0 m c (Proc.devRef .tc b) := by
  intro b hb
  refine Pipeline.withArrays_of_ne spec0 c (V0 m c) _ b fun w e => ?_
  simp only [Pipeline.restRefs, Finset.mem_sdiff, Finset.mem_filter, Finset.mem_image, Finset.mem_univ, true_and] at hb
  exact hb.2 ⟨w, e⟩

/-! ## The run and the frame -/

set_option backward.isDefEq.respectTransparency.types false in
/-- Every weakly fair execution of the entry computation terminates, and every final state has every array of the
    region at what the write-backs leave and every other unscoped buffer as the lines after the region leave it. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none)
    (hsplit := fun c => arrays_of_bufs m c _ _ fun w => A_eq m c w)
    (hjoin := fun c => bufs_of_arrays m c _ _ fun w => (Wx_arr m c w).symm)
    (hsplitN := fun c => arrays_of_bufs m c _ _ fun w => (Wx_arr m c w).symm)
    (hWx := fun c => Wx_rest m c)
    (hin := fun _ => .rfl) (hout := fun _ => .rfl)

/-- The frame: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    have hk : ∀ b : Ref sig .tc, b ∈ Pipeline.restRefs sig spec0 → b ∉ tailW →
        StableHlo.after (List.flatten [hostOps1]) (Wx m c) (Proc.devRef .tc b) = V m c b := fun b hb hw => by
      rw [show List.flatten [hostOps1 (F := F)] = hostOps1 from by simp only [List.flatten_cons, List.flatten_nil, List.append_nil],
        LibHostRead.after_of_not_written tail_aligned hw, Wx_rest m c b hb]
    exact ⟨((h c).2 main_arg0 (by decide)).trans ((hk main_arg0 (by decide) (by decide)).trans (V_main_arg0 m c)),
      ((h c).2 main_arg1 (by decide)).trans ((hk main_arg1 (by decide) (by decide)).trans (V_main_arg1 m c)),
      ((h c).2 main_arg2 (by decide)).trans ((hk main_arg2 (by decide) (by decide)).trans (V_main_arg2 m c))⟩) (run_main m ρ)

end Cert.Kernel.Frm

end
-- ==== Proof.KIFrameRuns.lean ====
/-
  What the runs of the similarity kernel's frame share: the entry computation around the one region (the lines
  normalising and stacking the embeddings before it, the lines assembling the loss after it), the blocks the
  region's windows show the body, and the body's one branch — "is this the first column block of the row block?" —
  decided over the 8 × 4 grid.
-/
import proofs.«106012_j6571299963520_2_alg».proof.Proof.Gen.KernelIdeal.Launch
import proofs.«106012_j6571299963520_2_alg».proof.Proof.Gen.KernelIdeal.Skeleton
import proofs.«106012_j6571299963520_2_alg».proof.Proof.Gen.KernelIdeal.Points
import proofs.«106012_j6571299963520_2_alg».proof.Proof.LibSharedFrameAround
import proofs.«106012_j6571299963520_2_alg».proof.Proof.LibHostRead
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry computation around the region -/

/-- The buffers' contents when the region is entered: after the lines that normalise the two views' embeddings,
    stack them, and lay the class ids out as a column and as a row. -/
abbrev V0 (c : Dev nD) : Valuation τ sig (Elt F) :=
  StableHlo.after (List.flatten [hostOps0, hostOps0_1, hostOps0_2, hostOps0_3]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry computation is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The lines after the region touch unscoped buffers only. -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The buffers the 45 lines after the region write, in order: one each. -/
abbrev tailW : List (Ref sig .tc) := [main_v16, main_v17, main_v18, main_v19, main_v20, main_cst_1, main_v21, main_v22, main_v23, main_v24, main_cst_2, main_v25, main_v26, main_cst_3, main_v27, main_v28, main_v29, main_v30, main_v31, main_cst_4, main_v32, main_v33, main_v34, main_v35, main_v36, main_cst_5, main_v37, main_cst_6, main_v38, main_cst_7, main_v39, main_v40, main_v41, main_v42, main_cst_8, main_v43, main_v44, main_v45, main_cst_9, main_v46, main_cst_10, main_v47, main_cst_11, main_v48, main_v49]
theorem tail_aligned : LibHostRead.Aligned (hostOps1 : List (HloOp τ sig (Elt F))) tailW :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩
/-- None of the region's arrays is written by a line after the region. -/
theorem arr_not_tailW : ∀ w : Fin 7, Pipeline.arrRef spec0 w ∉ tailW := by decide
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  obtain ⟨y, hy, e⟩ := tail_aligned.writes_of_mem op hop
  rw [e, Finset.mem_singleton] at hmem
  exact arr_not_tailW w (Proc.devRef_injective _ hmem ▸ hy)

theorem V_main_arg0 (c : Dev nD) : V m c main_arg0 = m ((c : Thread nD τ).loc main_arg0) := by
  dsimp only [V, V0]; simp only [hostOps0, hostOps0_1, hostOps0_2, hostOps0_3, List.flatten_cons, List.flatten_nil, List.append_nil, List.cons_append, List.nil_append]; after_results <;> rfl
theorem V_main_arg1 (c : Dev nD) : V m c main_arg1 = m ((c : Thread nD τ).loc main_arg1) := by
  dsimp only [V, V0]; simp only [hostOps0, hostOps0_1, hostOps0_2, hostOps0_3, List.flatten_cons, List.flatten_nil, List.append_nil, List.cons_append, List.nil_append]; after_results <;> rfl
theorem V_main_arg2 (c : Dev nD) : V m c main_arg2 = m ((c : Thread nD τ).loc main_arg2) := by
  dsimp only [V, V0]; simp only [hostOps0, hostOps0_1, hostOps0_2, hostOps0_3, List.flatten_cons, List.flatten_nil, List.append_nil, List.cons_append, List.nil_append]; after_results <;> rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window whose
    index does not move with the column coordinate is fetched once per row block and kept). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- "This is the first column block": the accumulators are reset there. -/
abbrev cond0_0 (i : grid0.Coords) : Prop := (Scalar.cmpi .ne (Scalar.extui (Scalar.cmpi .eq (BitVec.ofNat 32 (i 1).val) 0#32)) 0#32) = 1#1
/-- It holds at the points ≡ 0 (mod 4): the grid is 8 row blocks by 4 column blocks, column index innermost. -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is ever idle. -/
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The staging memrefs the body is called with -/

/-- One staging buffer of each accumulator window, through which its contents are stated. -/
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view
abbrev VO0_6 : View sig .tc .vmem S512x1 .f32 := (Memref.whole cc0_stg6_0 : Memref sig .tc .vmem S512x1 .f32).view
abbrev ms0_0 (t : Fin cfg0.N) : Memref sig .tc .vmem S512x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)

end Cert.KernelIdeal.Frm

end
-- ==== Proof.KIFrameRunA.lean ====
/-
  The body's run at a FIRST column block: the three accumulators are reset to zero, then the block's row sums are
  added. What each accumulator's staging buffer ends with is found by the run, as the list of its stores.
-/
import proofs.«106012_j6571299963520_2_alg».proof.Proof.KIFrameRuns

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first column block, on whole staging memrefs — the four inputs at their blocks, the accumulators at anything —
    the body runs to the continuation holding the inputs as they were and each accumulator with its stores written. -/
noncomputable def kernelRun0_A (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__sim_reduce_kernel i arg2 harg2 arg3 harg3 arg4 harg4 arg5 harg5 arg6 harg6 arg7 harg7 arg8 harg8) K } := by
  refine ⟨?_, ?_, ?_, fun E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.KernelIdeal.Frm

end
-- ==== Proof.KIFrameRunB.lean ====
/-
  The body's run at a LATER column block: the block's row sums are added to what the accumulators hold from the
  column block before. What each accumulator's staging buffer ends with is found by the run, as the list of its stores.
-/
import proofs.«106012_j6571299963520_2_alg».proof.Proof.KIFrameRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later column block, on whole staging memrefs — the four inputs at their blocks, the accumulators at their
    running contents `xo·` — the body runs to the continuation holding the inputs as they were and each accumulator with
    its store written. -/
noncomputable def kernelRun0_B (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) :
    Σ' (L4 : List (View.Piece (Elt F) S512x1 .f32)) (L5 : List (View.Piece (Elt F) S512x1 .f32)), { L6 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__sim_reduce_kernel i arg2 harg2 arg3 harg3 arg4 harg4 arg5 harg5 arg6 harg6 arg7 harg7 arg8 harg8) K } := by
  refine ⟨?_, ?_, ?_, fun E K => ?run⟩
  case run =>
    simp only [cc0__sim_reduce_kernel_eq_skeleton]; unfold cc0__sim_reduce_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact H6

end Cert.KernelIdeal.Frm

end
-- ==== Proof.KIFrame.lean ====
/-
  The frame of the similarity kernel's program: what the three accumulators hold after each grid point (reset at a
  first column block, added to at the later ones), the region's proof data — the stacked embeddings are read through
  TWO windows, as row block and as column block, so each holds half of that array —, the body's obligation at every
  point, and the run of the whole entry computation.
-/
import proofs.«106012_j6571299963520_2_alg».proof.Proof.KIFrameRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first column block accumulator 0's stores cover its block. -/
theorem cover0_A_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S512x1.size (by sl_kernel_rfl) y

/-- What a first column block leaves in accumulator 0's staging buffer: its stores read back. -/
def out0_A_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

/-- At a later column block accumulator 0's store covers its block. -/
theorem cover0_B_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) (y : S512x1.Idx) :
    ∃ pc ∈ (kernelRun0_B c i arg2 harg2 arg3 harg3 arg4 harg4 arg5 harg5 arg6 harg6 arg7 harg7 arg8 harg8 hc0 x0 x1 x2 x3 xo4 xo5 xo6).1, y ∈ pc.1.set :=
  View.cover_of_tiledL (kernelRun0_B c i arg2 harg2 arg3 harg3 arg4 harg4 arg5 harg5 arg6 harg6 arg7 harg7 arg8 harg8 hc0 x0 x1 x2 x3 xo4 xo5 xo6).1 S512x1.size (by sl_kernel_rfl) y

/-- What a later column block leaves in accumulator 0's staging buffer: its store read back. -/
def out0_B_4 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xo4 xo5 xo6).1)

/-- At a first column block accumulator 1's stores cover its block. -/
theorem cover0_A_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S512x1.size (by sl_kernel_rfl) y

/-- What a first column block leaves in accumulator 1's staging buffer: its stores read back. -/
def out0_A_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) : Vec F S512x1 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

/-- At a later column block accumulator 1's store covers its block. -/
theorem cover0_B_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) (y : S512x1.Idx) :
    ∃ pc ∈ (kernelRun0_B c i arg2 harg2 arg3 harg3 arg4 harg4 arg5 harg5 arg6 harg6 arg7 harg7 arg8 harg8 hc0 x0 x1 x2 x3 xo4 xo5 xo6).2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.1 S512x1.size (by sl_kernel_rfl) y

/-- What a later column block leaves in accumulator 1's staging buffer: its store read back. -/
def out0_B_5 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) : Vec F S512x1 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xo4 xo5 xo6).2.1)

/-- At a first column block accumulator 2's stores cover its block. -/
theorem cover0_A_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) (y : S512x1.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S512x1.size (by sl_kernel_rfl) y

/-- What a first column block leaves in accumulator 2's staging buffer: its stores read back. -/
def out0_A_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) : Vec F S512x1 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3).2.2.1)

/-- At a later column block accumulator 2's store covers its block. -/
theorem cover0_B_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) (y : S512x1.Idx) :
    ∃ pc ∈ (kernelRun0_B c i arg2 harg2 arg3 harg3 arg4 harg4 arg5 harg5 arg6 harg6 arg7 harg7 arg8 harg8 hc0 x0 x1 x2 x3 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.2.1 S512x1.size (by sl_kernel_rfl) y

/-- What a later column block leaves in accumulator 2's staging buffer: its store read back. -/
def out0_B_6 (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) : Vec F S512x1 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 xo4 xo5 xo6).2.2.1)

/-! ## What the accumulators hold after each point -/

/-- The accumulation: after the body at position `n` the three accumulators' staging buffers hold what the case the
    position is in leaves — at a later column block over what the position before left (the buffers are not written
    back in between: the block index moves with the row block only). -/
def outsAt0 (c : Dev nD) : (n : ℕ) → n < cfg0.N → Vec F S512x1 .f32 × Vec F S512x1 .f32 × Vec F S512x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at a point each input's buffer at its block and the
    accumulators' at `outsAt0`; the stacked embeddings held half through the row window and half through the column
    window, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later column block an accumulator's current staging buffer holds what the body left at the point before: it
    was not written back in between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point: the inputs' memrefs hold their blocks; at a first column block the reset run applies, at a
    later one the accumulating run over what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 32 := lt_of_lt_of_eq t.isLt (show cfg0.N = 32 from N_0)
  by_cases h0 : t.val % 4 = 0
  · rw [outsAt0_A m c t h0]
    dsimp only
    unfold out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [outsAt0_B m c t h0]
    dsimp only
    simp only [before0_4_B m c t h0, before0_5_B m c t h0, before0_6_B m c t h0]
    unfold out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays behind the windows: six buffers for seven windows -/

/-- The seven windows' arrays are six distinct buffers: the stacked embeddings are read through windows 0 and 1. -/
theorem arrBufs0_eq (c : Dev nD) (X : (b : Ref sig .tc) → Buf (Elt F) ((c : Thread nD τ).loc b)) :
    (Pipeline.arrBufs spec0 c X : sProp 𝕄)
      = iprop(((((c : Thread nD τ).loc main_v11) ↦{fullShare} X main_v11 : sProp 𝕄)) ∗ ((((c : Thread nD τ).loc main_v13) ↦{fullShare} X main_v13 : sProp 𝕄)) ∗ ((((c : Thread nD τ).loc main_v14) ↦{fullShare} X main_v14 : sProp 𝕄)) ∗ ((((c : Thread nD τ).loc main_v15_0) ↦{fullShare} X main_v15_0 : sProp 𝕄)) ∗ ((((c : Thread nD τ).loc main_v15_1) ↦{fullShare} X main_v15_1 : sProp 𝕄)) ∗ ((((c : Thread nD τ).loc main_v15_2) ↦{fullShare} X main_v15_2 : sProp 𝕄))) := by
  unfold Pipeline.arrBufs
  exact (bigSep_eq_bigSepL_of_eq [main_v11, main_v13, main_v14, main_v15_0, main_v15_1, main_v15_2] (by decide) (by decide) _).trans rfl

/-- The proof data's arrays, window by window, each at its share. -/
theorem arrays0_eq (c : Dev nD) (Fw : (w : Fin cfg0.W) → Buf (Elt F) ((cfg0.win w).arr.view.loc (c : Thread nD τ))) :
    (dats m 0 c).arrays Fw = bigSep Finset.univ fun w => ((((c : Thread nD τ).loc (Pipeline.arrRef spec0 w)) ↦{(dats m 0 c).share w} Fw w : sProp 𝕄)) := by
  unfold Dat.arrays
  exact bigSep_congr fun w _ => by rw [(arr_whole0 w).set_eq_univ]

/-- The same as a chain: the stacked embeddings' buffer held in two halves, every other array whole. -/
theorem arrays0_chain (c : Dev nD) (X : (b : Ref sig .tc) → Buf (Elt F) ((c : Thread nD τ).loc b)) :
    (dats m 0 c).arrays (fun w => X (Pipeline.arrRef spec0 w))
      = iprop(((((c : Thread nD τ).loc main_v11) ↦{fullShare.left} X main_v11 : sProp 𝕄)) ∗ ((((c : Thread nD τ).loc main_v11) ↦{fullShare.right} X main_v11 : sProp 𝕄)) ∗ ((((c : Thread nD τ).loc main_v13) ↦{fullShare} X main_v13 : sProp 𝕄)) ∗ ((((c : Thread nD τ).loc main_v14) ↦{fullShare} X main_v14 : sProp 𝕄)) ∗ ((((c : Thread nD τ).loc main_v15_0) ↦{fullShare} X main_v15_0 : sProp 𝕄)) ∗ ((((c : Thread nD τ).loc main_v15_1) ↦{fullShare} X main_v15_1 : sProp 𝕄)) ∗ ((((c : Thread nD τ).loc main_v15_2) ↦{fullShare} X main_v15_2 : sProp 𝕄))) :=
  (arrays0_eq m c _).trans ((bigSep_W0 _).trans rfl)

/-- The buffers behind the arrays, whole at contents `X`, are the proof data's arrays at any contents that agree with
    `X` window by window: the stacked embeddings' buffer is dealt in two halves. -/
theorem arrays_of_bufs (c : Dev nD) (X : (b : Ref sig .tc) → Buf (Elt F) ((c : Thread nD τ).loc b))
    (Fw : (w : Fin cfg0.W) → Buf (Elt F) ((cfg0.win w).arr.view.loc (c : Thread nD τ)))
    (hF : ∀ w, Fw w = X (Pipeline.arrRef spec0 w)) :
    (Pipeline.arrBufs spec0 c X : sProp 𝕄) ⊢ (dats m 0 c).arrays Fw := by
  obtain rfl : Fw = fun w => X (Pipeline.arrRef spec0 w) := funext hF
  refine (Entails.of_eq (arrBufs0_eq c X)).trans (.trans ?_ (Entails.of_eq (arrays0_chain m c X).symm))
  iintro ⟨H11, H13, H14, H150, H151, H152⟩
  icases (pointsTo_fullShare_halves _ _ _).1 $$ H11 with ⟨Hl, Hr⟩
  isplitl [Hl]; · iexact Hl
  isplitl [Hr]; · iexact Hr
  isplitl [H13]; · iexact H13
  isplitl [H14]; · iexact H14
  isplitl [H150]; · iexact H150
  isplitl [H151]; · iexact H151
  iexact H152

/-- And back. -/
theorem bufs_of_arrays (c : Dev nD) (X : (b : Ref sig .tc) → Buf (Elt F) ((c : Thread nD τ).loc b))
    (Fw : (w : Fin cfg0.W) → Buf (Elt F) ((cfg0.win w).arr.view.loc (c : Thread nD τ)))
    (hF : ∀ w, Fw w = X (Pipeline.arrRef spec0 w)) :
    (dats m 0 c).arrays Fw ⊢ (Pipeline.arrBufs spec0 c X : sProp 𝕄) := by
  obtain rfl : Fw = fun w => X (Pipeline.arrRef spec0 w) := funext hF
  refine (Entails.of_eq (arrays0_chain m c X)).trans (.trans ?_ (Entails.of_eq (arrBufs0_eq c X).symm))
  iintro ⟨Hl, Hr, H13, H14, H150, H151, H152⟩
  isplitl [Hl Hr]
  · iapply (pointsTo_fullShare_halves _ _ _).2; isplitl [Hl]; · iexact Hl
    iexact Hr
  isplitl [H13]; · iexact H13
  isplitl [H14]; · iexact H14
  isplitl [H150]; · iexact H150
  isplitl [H151]; · iexact H151
  iexact H152

/-! ## The buffers' contents when the region is left -/

/-- The region-exit contents: the arrays at what the write-backs leave, every other buffer as the region found it. -/
abbrev Wx (c : Dev nD) : Valuation τ sig (Elt F) :=
  Pipeline.withArrays spec0 c (V0 m c) fun w => (dats m 0 c).arrAt w cfg0.N

/-- The override reads an array's contents off ANY window on that array when the windows on one array agree. -/
theorem withArrays_arr_of_agree {gr : Nat} {W : Nat} (win : Fin W → Pipeline.WinSpec sig gr) (c : Dev nD) (Vv : Valuation τ sig (Elt F))
    (A : (w : Fin W) → Buf (Elt F) ((win w).arr.view.loc (c.tc : Thread nD τ))) (w : Fin W)
    (hc : ∀ w' (e : Proc.devRef .tc (Pipeline.arrRef win w') = Proc.devRef (τ := τ) .tc (Pipeline.arrRef win w)),
      cast (congrArg (fun b' : DevRef τ sig => b'.ty.Contents (Elt F)) e) (A w') = A w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact hc _ h.choose_spec

/-- An input array is never written: after all the points it holds what the region found. -/
theorem arrAt_in0 (c : Dev nD) (n : Nat) : (dats m 0 c).arrAt 0 n = V m c main_v11 := ((dats m 0 c).arrAt_in 0 rfl n).trans (A_eq m c 0)
theorem arrAt_in1 (c : Dev nD) (n : Nat) : (dats m 0 c).arrAt 1 n = V m c main_v11 := ((dats m 0 c).arrAt_in 1 rfl n).trans (A_eq m c 1)
theorem arrAt_in2 (c : Dev nD) (n : Nat) : (dats m 0 c).arrAt 2 n = V m c main_v13 := ((dats m 0 c).arrAt_in 2 rfl n).trans (A_eq m c 2)
theorem arrAt_in3 (c : Dev nD) (n : Nat) : (dats m 0 c).arrAt 3 n = V m c main_v14 := ((dats m 0 c).arrAt_in 3 rfl n).trans (A_eq m c 3)

/-- Two windows on one array are the same window, or the row and column windows on the stacked embeddings. -/
theorem arrRef_eq_cases : ∀ w w' : Fin 7, Pipeline.arrRef spec0 w' = Pipeline.arrRef spec0 w →
    w' = w ∨ (w' = 0 ∧ w = 1) ∨ (w' = 1 ∧ w = 0) := by decide

/-- The exit contents at each window's array. -/
theorem Wx_arr (c : Dev nD) (w : Fin cfg0.W) : Wx m c (Proc.devRef .tc (Pipeline.arrRef spec0 w)) = (dats m 0 c).arrAt w cfg0.N := by
  refine withArrays_arr_of_agree spec0 c (V0 m c) _ w fun w' e => ?_
  have hne : Pipeline.arrRef spec0 w' = Pipeline.arrRef spec0 w := Proc.devRef_injective _ e
  refine cast_eq_iff_heq.mpr ?_
  rcases arrRef_eq_cases w w' hne with rfl | ⟨rfl, rfl⟩ | ⟨rfl, rfl⟩
  · exact HEq.rfl
  · exact heq_of_eq ((arrAt_in0 m c _).trans (arrAt_in1 m c _).symm)
  · exact heq_of_eq ((arrAt_in1 m c _).trans (arrAt_in0 m c _).symm)

/-- The exit contents at a buffer that is no window's array: as the region found it. -/
theorem Wx_rest (c : Dev nD) : ∀ b ∈ Pipeline.restRefs sig spec0, Wx m c (Proc.devRef .tc b) = V0 m c (Proc.devRef .tc b) := by
  intro b hb
  refine Pipeline.withArrays_of_ne spec0 c (V0 m c) _ b fun w e => ?_
  simp only [Pipeline.restRefs, Finset.mem_sdiff, Finset.mem_filter, Finset.mem_image, Finset.mem_univ, true_and] at hb
  exact hb.2 ⟨w, e⟩

/-! ## The run and the frame -/

set_option backward.isDefEq.respectTransparency.types false in
/-- Every weakly fair execution of the entry computation terminates, and every final state has every array of the
    region at what the write-backs leave and every other unscoped buffer as the lines after the region leave it. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none)
    (hsplit := fun c => arrays_of_bufs m c _ _ fun w => A_eq m c w)
    (hjoin := fun c => bufs_of_arrays m c _ _ fun w => (Wx_arr m c w).symm)
    (hsplitN := fun c => arrays_of_bufs m c _ _ fun w => (Wx_arr m c w).symm)
    (hWx := fun c => Wx_rest m c)
    (hin := fun _ => .rfl) (hout := fun _ => .rfl)

/-- The frame: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    have hk : ∀ b : Ref sig .tc, b ∈ Pipeline.restRefs sig spec0 → b ∉ tailW →
        StableHlo.after (List.flatten [hostOps1]) (Wx m c) (Proc.devRef .tc b) = V m c b := fun b hb hw => by
      rw [show List.flatten [hostOps1 (F := F)] = hostOps1 from by simp only [List.flatten_cons, List.flatten_nil, List.append_nil],
        LibHostRead.after_of_not_written tail_aligned hw, Wx_rest m c b hb]
    exact ⟨((h c).2 main_arg0 (by decide)).trans ((hk main_arg0 (by decide) (by decide)).trans (V_main_arg0 m c)),
      ((h c).2 main_arg1 (by decide)).trans ((hk main_arg1 (by decide) (by decide)).trans (V_main_arg1 m c)),
      ((h c).2 main_arg2 (by decide)).trans ((hk main_arg2 (by decide) (by decide)).trans (V_main_arg2 m c))⟩) (run_main m ρ)

end Cert.KernelIdeal.Frm

end
-- ==== Proof.Spec.lean ====
/-
  The two losses as functions of REAL data: `R i d` is the unit-normalised embedding of sample `i`
  (4096 samples: the two augmented views stacked, 768 features), `cls i` its predicted class.

  `sim i j = ∑ d, R i d * R j d` is the cosine similarity.  Sample `k` and its other view are the pair
  `lo k'`, `hi k'` with `k' = fold k`.

  `kLoss` is the arrangement that keeps, per row, three running sums over all columns — of `exp (2·sim)`,
  of `sim` over the same-class columns, of `exp (2·sim)` with the same-class columns counted as 1 — and
  corrects the diagonal and the positive pair afterwards, with `-log (eᵃ / d)` expanded to `-a + log d`.
  `rLoss` is the textbook arrangement over the whole similarity matrix with the masks `1 - eye`,
  `same - eye`, `1 - same` multiplied in.  `c` is the balance coefficient.
-/
import Mathlib

noncomputable section

namespace Cert.Spec

/-- Sample `k'` of the first view, and of the second view, among the 4096 stacked samples. -/
def lo (k : Fin 2048) : Fin 4096 := ⟨k.val, by omega⟩
def hi (k : Fin 2048) : Fin 4096 := ⟨k.val + 2048, by omega⟩
/-- The position of a stacked sample within its view. -/
def fold (k : Fin 4096) : Fin 2048 := ⟨k.val % 2048, Nat.mod_lt _ (by norm_num)⟩

variable (R : Fin 4096 → Fin 768 → ℝ) (cls : Fin 4096 → BitVec 32) (c : ℝ)

/-- Cosine similarity of two normalised samples. -/
def sim (i j : Fin 4096) : ℝ := ∑ d : Fin 768, R i d * R j d

/-! ### The running-sums arrangement -/

def expsum (k : Fin 4096) : ℝ := ∑ j : Fin 4096, Real.exp (sim R k j * 2)
def samesim (k : Fin 4096) : ℝ := ∑ j : Fin 4096, if cls k = cls j then sim R k j else 0
def denv (k : Fin 4096) : ℝ := ∑ j : Fin 4096, if cls k = cls j then 1 else Real.exp (sim R k j * 2)
/-- The positive-pair similarity, computed once per pair and used for both members. -/
def posK (k : Fin 4096) : ℝ := sim R (lo (fold k)) (hi (fold k))

def kLoss1 : ℝ :=
  (∑ k : Fin 4096, (-(posK R k / (1/2)) + Real.log (expsum R k - Real.exp (sim R k k / (1/2))))) / 8192
def kLoss2 : ℝ :=
  (∑ k : Fin 4096, (-((samesim R cls k - sim R k k) / (1/2)) + 4096 * Real.log (denv R cls k))) / 8192
def kLoss : ℝ := kLoss1 R + c * kLoss2 R cls

/-! ### The whole-matrix arrangement -/

def eye (k j : Fin 4096) : ℝ := if k = j then 1 else 0
def sameF (k j : Fin 4096) : ℝ := if cls k = cls j then 1 else 0
/-- The positive-pair similarity read off the two off-diagonals of the similarity matrix. -/
def posR (k : Fin 4096) : ℝ :=
  if k.val < 2048 then sim R (lo (fold k)) (hi (fold k)) else sim R (hi (fold k)) (lo (fold k))
def denomR (k : Fin 4096) : ℝ := ∑ j : Fin 4096, (1 - eye k j) * Real.exp (sim R k j / (1/2))
def denVR (k : Fin 4096) : ℝ := ∑ j : Fin 4096, Real.exp ((1 - sameF cls k j) * sim R k j / (1/2))

def rLoss1 : ℝ :=
  (∑ k : Fin 4096, -Real.log (Real.exp (posR R k / (1/2)) / denomR R k)) / 8192
def rLoss2 : ℝ :=
  (∑ k : Fin 4096, ∑ j : Fin 4096,
      -Real.log (Real.exp ((sameF cls k j - eye k j) * sim R k j / (1/2)) / denVR R cls k)) / 8192
def rLoss : ℝ := rLoss1 R + c * rLoss2 R cls

end Cert.Spec

end
-- ==== Proof.Consts.lean ====
/-
  The float constants the two programs spell, as the extended reals their patterns denote: zero, one half, one,
  two, 4096, 8192, the balance coefficient (the single-precision number nearest 0.01) and the normalisation floor
  (the single-precision number nearest 1e-12). Only the value of the first six, and that the last two are a real
  and a positive real, matter to the comparison.
-/
import Idealize.ShloMosaic.PureOps.Ideal

noncomputable section

namespace Cert.Consts

open Idealize.ShloMosaic

/-- The balance coefficient: the single-precision number nearest to 0.01. -/
def c01 : ℝ := 10737418 * (2 : ℝ) ^ (-30 : Int)
/-- The normalisation floor: the single-precision number nearest to 1e-12. -/
def eps : ℝ := 9223372 * (2 : ℝ) ^ (-63 : Int)

theorem eps_pos : 0 < eps := by unfold eps; positivity

theorem ofBits_zero : Ideal.ofBits .f32 0x00000000#32 = 0 := by
  simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_c01 : Ideal.ofBits .f32 0x3C23D70A#32 = ((c01 : ℝ) : EReal) := by
  simp [Ideal.ofBits, Ideal.ieee, c01, -EReal.coe_mul]

theorem ofBits_eps : Ideal.ofBits .f32 0x2B8CBCCC#32 = ((eps : ℝ) : EReal) := by
  simp [Ideal.ofBits, Ideal.ieee, eps, -EReal.coe_mul]

end Cert.Consts

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«106012_j6571299963520_2_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.RefValueA.lean ====
/-
  The similarity matrix and the two 0/1 masks of the reference, read entry by entry as real numbers.

  With the stacked normalised embeddings equal to the reals `R`, entry `(k, j)` of the matrix product of the stack
  with its transpose is the real `sim R k j = ∑ d, R k d * R j d`. The identity mask is the indicator of `k = j`
  (row number against column number, as 32-bit words: both are below 4096, so the words agree exactly when the
  numbers do). The class vector of the stack is the class vector of one view laid out twice, so sample `k` has the
  class of position `k mod 2048`; the same-class mask is the indicator of equal classes.
-/
import proofs.«106012_j6571299963520_2_alg».proof.Proof.Gen.ReferenceIdeal.Read
import proofs.«106012_j6571299963520_2_alg».proof.Proof.Spec
import proofs.«106012_j6571299963520_2_alg».proof.Proof.Consts
import proofs.«106012_j6571299963520_2_alg».proof.Proof.LibFinite
import proofs.«106012_j6571299963520_2_alg».proof.Proof.LibFiniteOps

noncomputable section

namespace Cert.RefValue

open Cert.ReferenceIdeal Cert.ReferenceIdeal.Read Idealize.ShloMosaic

/-- A one-bit comparison word converted to a float is the indicator of the equality, as a real. -/
theorem uitofp_cmpi_eq (x y : BitVec 32) :
    FloatOps.uitofp (F := Ideal) .f32 (IntOp.cmpi .eq x y) = (((if x = y then 1 else 0 : ℝ)) : EReal) := by
  show ((((IntOp.cmpi .eq x y).toNat : ℝ)) : EReal) = _
  by_cases h : x = y
  · simp [IntOp.cmpi, h]
  · simp [IntOp.cmpi, h]

/-- Two numbers below 2³² are equal exactly when their 32-bit words are. -/
theorem ofNat32_inj {a b : Nat} (ha : a < 4096) (hb : b < 4096) : BitVec.ofNat 32 a = BitVec.ofNat 32 b ↔ a = b := by
  constructor
  · intro h
    have := congrArg BitVec.toNat h
    simp only [BitVec.toNat_ofNat] at this
    omega
  · intro h; rw [h]

/-- Entry `(k, j)` of the similarity matrix is the real `sim R k j`. -/
theorem sim_apply (x0 x1 : (⟨S2048x768, .f32⟩ : BufTy).Contents (Elt Ideal)) (R : Fin 4096 → Fin 768 → ℝ)
    (hR : ∀ (p : Fin 4096) (d : Fin 768), val_main_v10 (F := Ideal) x0 x1 (ValueIdx.ix2 p d) = ((R p d : ℝ) : EReal))
    (k j : Fin 4096) :
    val_main_v12 (F := Ideal) x0 x1 (ValueIdx.ix2 k j) = ((Cert.Spec.sim R k j : ℝ) : EReal) := by
  rw [val_main_v12_apply]
  unfold Cert.Spec.sim
  rw [LibFinite.coe_finset_sum]
  refine Finset.sum_congr rfl fun d _ => ?_
  rw [val_main_v11_apply]
  have e1 : lidx_main_v12 (ValueIdx.ix2 k j) d = ValueIdx.ix2 k d :=
    funext fun a => Fin.ext (by match a with | ⟨0, _⟩ => rfl | ⟨1, _⟩ => rfl)
  have e2 : idx_main_v11 (ridx_main_v12 (ValueIdx.ix2 k j) d) = ValueIdx.ix2 j d :=
    funext fun a => Fin.ext (by match a with | ⟨0, _⟩ => rfl | ⟨1, _⟩ => rfl)
  rw [e1, e2, hR, hR, EReal.coe_mul]

/-- Entry `(k, j)` of the identity mask is the indicator of `k = j`. -/
theorem eye_apply (k j : Fin 4096) :
    val_main_v18 (F := Ideal) (ValueIdx.ix2 k j) = ((Cert.Spec.eye k j : ℝ) : EReal) := by
  rw [val_main_v18_apply, val_main_v17_apply, val_main_v16_apply, val_main_v13_apply, val_main_v14_apply,
    val_main_v15_apply, val_main_c_apply, uitofp_cmpi_eq]
  unfold Cert.Spec.eye
  have e : (IntOp.addi (BitVec.ofNat 32 ((ValueIdx.ix2 k j : S4096x4096.Idx) 0).val) 0#32
      = BitVec.ofNat 32 ((ValueIdx.ix2 k j : S4096x4096.Idx) 1).val) ↔ k = j := by
    show (BitVec.ofNat 32 k.val + 0#32 = BitVec.ofNat 32 j.val) ↔ k = j
    rw [BitVec.add_zero, ofNat32_inj k.isLt j.isLt]
    exact Fin.val_inj
  by_cases h : k = j
  · rw [if_pos (e.mpr h), if_pos h]
  · rw [if_neg (fun h' => h (e.mp h')), if_neg h]

end Cert.RefValue

end
-- ==== Proof.RefValueB.lean ====
/-
  The class vector of the stacked samples and the same-class mask.

  The class vector of the 4096 stacked samples is the class vector of one view laid out twice: sample `k` has the
  class at position `k mod 2048`. The same-class mask compares the class of the row's sample with the class of the
  column's sample, and is the indicator of their equality.
-/
import proofs.«106012_j6571299963520_2_alg».proof.Proof.Gen.ReferenceIdeal.Read
import proofs.«106012_j6571299963520_2_alg».proof.Proof.Spec
import proofs.«106012_j6571299963520_2_alg».proof.Proof.Consts
import proofs.«106012_j6571299963520_2_alg».proof.Proof.LibFinite
import proofs.«106012_j6571299963520_2_alg».proof.Proof.LibFiniteOps
import proofs.«106012_j6571299963520_2_alg».proof.Proof.RefValueA

noncomputable section

namespace Cert.RefValue

open Cert.ReferenceIdeal Cert.ReferenceIdeal.Read Idealize.ShloMosaic

/-- The class of stacked sample `k`: the class at position `k mod 2048` of one view. -/
def cls (x2 : (⟨S2048, .i32⟩ : BufTy).Contents (Elt Ideal)) (k : Fin 4096) : BitVec 32 :=
  x2 (ValueIdx.ix1 (Cert.Spec.fold k))

/-- The doubled class vector at sample `k`. -/
theorem cls_apply (x2 : (⟨S2048, .i32⟩ : BufTy).Contents (Elt Ideal)) (k : Fin 4096) :
    val_main_v37 (F := Ideal) x2 (ValueIdx.ix1 k) = cls x2 k := by
  unfold val_main_v37 cls
  by_cases hk : k.val < 2048
  · refine concatenate_pair_apply_left 0 x2 x2 _ (ValueIdx.ix1 k) rfl (ValueIdx.ix1 (Cert.Spec.fold k)) (fun b => ?_)
    match b with
    | ⟨0, _⟩ => show k.val % 2048 = k.val; omega
  · refine concatenate_pair_apply_right 0 x2 x2 _ (ValueIdx.ix1 k) rfl rfl (ValueIdx.ix1 (Cert.Spec.fold k))
      (fun b hb => ?_) ?_
    · match b with
      | ⟨0, _⟩ => exact absurd rfl hb
    · show k.val % 2048 + 2048 = k.val
      have := k.isLt; omega

/-- Entry `(k, j)` of the same-class mask is the indicator of equal classes. -/
theorem same_apply (x2 : (⟨S2048, .i32⟩ : BufTy).Contents (Elt Ideal)) (k j : Fin 4096) :
    val_main_v43 (F := Ideal) x2 (ValueIdx.ix2 k j) = ((Cert.Spec.sameF (cls x2) k j : ℝ) : EReal) := by
  rw [val_main_v43_apply, val_main_v42_apply, val_main_v40_apply, val_main_v41_apply, val_main_v38_apply,
    val_main_v39_apply, uitofp_cmpi_eq]
  have e1 : idx_main_v38 (idx_main_v40 (ValueIdx.ix2 k j)) = ValueIdx.ix1 k :=
    funext fun a => Fin.ext (by match a with | ⟨0, _⟩ => rfl)
  have e2 : idx_main_v39 (idx_main_v41 (ValueIdx.ix2 k j)) = ValueIdx.ix1 j :=
    funext fun a => Fin.ext (by match a with | ⟨0, _⟩ => rfl)
  rw [e1, e2, cls_apply, cls_apply]
  rfl

end Cert.RefValue

end
-- ==== Proof.KPrefix.lean ====
/-
  What the region finds in its three input arrays, at the ideal instance: the stacked, row-normalised embeddings
  (the very term the reference computes), and the class ids laid out as a column and as a row.
-/
import proofs.«106012_j6571299963520_2_alg».proof.Proof.KIFrame
import proofs.«106012_j6571299963520_2_alg».proof.Proof.RefValueB
import Idealize.ShloMosaic.Lib.Pipeline.Value
import Idealize.ShloMosaic.Lib.ValueIdx
import Idealize.ShloMosaic.Lib.StableHlo.Run

noncomputable section

namespace Cert.KPrefix

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 4000000 in
/-- The stacked embeddings the region reads are the reference's stacked embeddings: the same lines computed them,
    and the change of float format in between is the identity on extended reals. -/
theorem V_v11 (c : Dev nD) :
    (V (F := Ideal) m c main_v11 : S4096x768.Idx → EReal)
      = Cert.ReferenceIdeal.Read.val_main_v10 (F := Ideal) (m ((c : Thread nD τ).loc main_arg0)) (m ((c : Thread nD τ).loc main_arg1)) := by
  show StableHlo.after (List.flatten [hostOps0, hostOps0_1, hostOps0_2, hostOps0_3]) (fun b => m (c, b)) (Proc.devRef .tc _) = _
  simp only [hostOps0, hostOps0_1, hostOps0_2, hostOps0_3, List.flatten_cons, List.flatten_nil, List.append_nil, List.cons_append, List.nil_append]
  after_results
  rfl

set_option maxHeartbeats 4000000 in
/-- The class column is the doubled class vector re-laid as [4096, 1]. -/
theorem V_v13 (c : Dev nD) :
    (V (F := Ideal) m c main_v13 : S4096x1.Idx → BitVec 32)
      = shapeCast S4096x1 (Cert.ReferenceIdeal.Read.val_main_v37 (F := Ideal) (m ((c : Thread nD τ).loc main_arg2))) Facts₀.shapeCasts_S4096_S4096x1 := by
  show StableHlo.after (List.flatten [hostOps0, hostOps0_1, hostOps0_2, hostOps0_3]) (fun b => m (c, b)) (Proc.devRef .tc _) = _
  simp only [hostOps0, hostOps0_1, hostOps0_2, hostOps0_3, List.flatten_cons, List.flatten_nil, List.append_nil, List.cons_append, List.nil_append]
  after_results
  rfl

set_option maxHeartbeats 4000000 in
/-- The class row is the doubled class vector re-laid as [1, 4096]. -/
theorem V_v14 (c : Dev nD) :
    (V (F := Ideal) m c main_v14 : S1x4096.Idx → BitVec 32)
      = shapeCast S1x4096 (Cert.ReferenceIdeal.Read.val_main_v37 (F := Ideal) (m ((c : Thread nD τ).loc main_arg2))) Facts₀.shapeCasts_S4096_S1x4096 := by
  show StableHlo.after (List.flatten [hostOps0, hostOps0_1, hostOps0_2, hostOps0_3]) (fun b => m (c, b)) (Proc.devRef .tc _) = _
  simp only [hostOps0, hostOps0_1, hostOps0_2, hostOps0_3, List.flatten_cons, List.flatten_nil, List.append_nil, List.cons_append, List.nil_append]
  after_results
  rfl

theorem V_v13_apply (c : Dev nD) (k : Fin 4096) :
    (V (F := Ideal) m c main_v13 : S4096x1.Idx → BitVec 32) (ValueIdx.ix2 k 0) = Cert.RefValue.cls (m ((c : Thread nD τ).loc main_arg2)) k := by
  rw [V_v13, shapeCast_apply _ _ (ValueIdx.ix2 k 0) (ValueIdx.ix1 k) (by
    rw [Shape.rowMajor_val_two, Shape.rowMajor_val_one]; simp [ValueIdx.ix2, ValueIdx.ix1]), Cert.RefValue.cls_apply]

theorem V_v14_apply (c : Dev nD) (k : Fin 4096) :
    (V (F := Ideal) m c main_v14 : S1x4096.Idx → BitVec 32) (ValueIdx.ix2 0 k) = Cert.RefValue.cls (m ((c : Thread nD τ).loc main_arg2)) k := by
  rw [V_v14, shapeCast_apply _ _ (ValueIdx.ix2 0 k) (ValueIdx.ix1 k) (by
    rw [Shape.rowMajor_val_two, Shape.rowMajor_val_one]; simp [ValueIdx.ix2, ValueIdx.ix1]), Cert.RefValue.cls_apply]

end Cert.KPrefix

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.KPay.lean ====
/-
  The three values the kernel body stores, read index by index over the extended reals.

  One grid step holds a [512, 768] block of rows, a [1024, 768] block of columns, the rows' classes as a [512, 1]
  column and the columns' classes as a [1, 1024] row. The body forms the [512, 1024] block of inner products
  s(r, q) = ∑ d, A(r, d) · B(q, d), compares classes entrywise, and adds to each of three [512, 1] accumulators a sum
  over the 1024 columns: of exp(2 · s), of s where the classes agree (zero elsewhere), and of one where the classes
  agree (exp(2 · s) elsewhere). On the first step of a row of the grid the accumulators are set to zero.

  First each stored value is read at (r, 0) for arbitrary extended-real data; then, for real data, as the coercion of
  a real number.
-/
import proofs.«106012_j6571299963520_2_alg».proof.Proof.Gen.KernelIdeal.Skeleton
import proofs.«106012_j6571299963520_2_alg».proof.Proof.LibMatmulABt
import proofs.«106012_j6571299963520_2_alg».proof.Proof.LibKeepdims
import proofs.«106012_j6571299963520_2_alg».proof.Proof.LibFinite
import proofs.«106012_j6571299963520_2_alg».proof.Proof.Consts

noncomputable section

namespace Cert.KPay

open Cert.KernelIdeal Cert.KernelIdeal.Gen Idealize.ShloMosaic Idealize.ShloMosaic.ValueIdx
open scoped BigOperators

/-! ## Over arbitrary extended-real data -/

/-- The block of inner products at (r, q): row r of the left block against row q of the right one. -/
theorem pay5_apply (x0 : Vec Ideal S512x768 .bf16) (x1 : Vec Ideal S1024x768 .bf16) (r : Fin 512) (q : Fin 1024) :
    k0_pay5 (F := Ideal) x0 x1 (ix2 r q) = ∑ d : Fin 768, x0 (ix2 r d) * x1 (ix2 q d) := by
  unfold k0_pay5
  simp only [shapeCast_self]
  exact Cert.LibMatmulABt.matmul_zero_abt dot_S512x768_S1024x768_S512x1024_1_1_0_0_n_n_wf
    (φ₁ := .bf16) (φ₂ := .bf16) x0 x1 r q

/-- The class comparison at (r, q) is the bit of "row r's class is column q's class". -/
theorem pay6_apply (x2 : Vec Ideal S512x1 .i32) (x3 : Vec Ideal S1x1024 .i32) (r : Fin 512) (q : Fin 1024) :
    k0_pay6 (F := Ideal) x2 x3 (ix2 r q) = IntOp.cmpi .eq (x2 (ix2 r 0)) (x3 (ix2 0 q)) := by
  unfold k0_pay6
  simp only [shapeCast_self]
  show IntOp.cmpi .eq (broadcastTo S512x1024 x2 broadcasts_S512x1_S512x1024 (ix2 r q))
    (broadcastTo S512x1024 x3 broadcasts_S1x1024_S512x1024 (ix2 r q)) = _
  rw [Cert.LibKeepdims.broadcastTo_a1_ab_apply, broadcastTo_1b_ab_apply]

/-- The exponential block at (r, q). -/
theorem pay7_apply (x0 : Vec Ideal S512x768 .bf16) (x1 : Vec Ideal S1024x768 .bf16) (r : Fin 512) (q : Fin 1024) :
    k0_pay7 (F := Ideal) x0 x1 (ix2 r q)
      = Ideal.exp ((∑ d : Fin 768, x0 (ix2 r d) * x1 (ix2 q d)) * Ideal.ofBits .f32 0x40000000#32) := by
  unfold k0_pay7
  show Ideal.exp (k0_pay5 (F := Ideal) x0 x1 (ix2 r q) * Ideal.ofBits .f32 0x40000000#32) = _
  rw [pay5_apply]

/-- An accumulator plus the sum of a [512, 1024] block along its rows, kept as a column, at (r, 0). -/
theorem accum_apply (acc : Vec Ideal S512x1 .f32) (v : FVec Ideal S512x1024 .f32) (r : Fin 512) :
    addf (shapeCast S512x1 acc shapeCasts_S512x1_S512x1)
        (shapeCast S512x1 (multiReduction (F := Ideal) .add [1] S512 v 0x00000000#32 reduces_S512x1024_S512 (.inl rfl) rfl)
          shapeCasts_S512_S512x1) (ix2 r 0)
      = acc (ix2 r 0) + ∑ q : Fin 1024, v (ix2 r q) := by
  rw [addf_apply, shapeCast_self]
  refine congrArg (acc (ix2 r 0) + ·) ?_
  refine (Cert.LibKeepdims.shapeCast_a_a1_apply _ shapeCasts_S512_S512x1 r 0).trans ?_
  exact Cert.LibKeepdims.multiReduction_add_row v 0x00000000#32 reduces_S512x1024_S512 (.inl rfl) rfl r

/-- The first stored value at (r, 0): the accumulator plus the row's sum of the exponential block. -/
theorem pay8_apply (x0 : Vec Ideal S512x768 .bf16) (x1 : Vec Ideal S1024x768 .bf16) (acc : Vec Ideal S512x1 .f32)
    (r : Fin 512) :
    k0_pay8 (F := Ideal) x0 x1 acc (ix2 r 0)
      = acc (ix2 r 0) + ∑ q : Fin 1024, k0_pay7 (F := Ideal) x0 x1 (ix2 r q) := by
  unfold k0_pay8
  exact accum_apply acc (k0_pay7 (F := Ideal) x0 x1) r

/-- The second stored value at (r, 0): the accumulator plus the row's sum of the inner products whose classes agree. -/
theorem pay9_apply (x0 : Vec Ideal S512x768 .bf16) (x1 : Vec Ideal S1024x768 .bf16) (x2 : Vec Ideal S512x1 .i32)
    (x3 : Vec Ideal S1x1024 .i32) (acc : Vec Ideal S512x1 .f32) (r : Fin 512) :
    k0_pay9 (F := Ideal) x0 x1 x2 x3 acc (ix2 r 0)
      = acc (ix2 r 0) + ∑ q : Fin 1024, Scalar.select (k0_pay6 (F := Ideal) x2 x3 (ix2 r q))
          (k0_pay5 (F := Ideal) x0 x1 (ix2 r q)) (Ideal.ofBits .f32 0x00000000#32) := by
  unfold k0_pay9
  exact accum_apply acc _ r

/-- The third stored value at (r, 0), for any mask and any block: the accumulator plus the row's sum of one where the
    mask is set and of the block's entry elsewhere. -/
theorem pay1_apply (m : IVec S512x1024 1) (v : FVec Ideal S512x1024 .f32) (acc : Vec Ideal S512x1 .f32) (r : Fin 512) :
    k0_pay1 (F := Ideal) m v acc (ix2 r 0)
      = acc (ix2 r 0) + ∑ q : Fin 1024, Scalar.select (m (ix2 r q)) (Ideal.ofBits .f32 0x3F800000#32) (v (ix2 r q)) := by
  unfold k0_pay1
  exact accum_apply acc _ r

/-- A choice on the bit of an equality test is the choice on the equality. -/
theorem select_cmpi_eq {α : Type} (u w : BitVec 32) (a b : α) :
    Scalar.select (IntOp.cmpi .eq u w) a b = if u = w then a else b := by
  by_cases h : u = w
  · rw [if_pos h, IntOp.cmpi_eq.mpr h]; exact select_one a b
  · rw [if_neg h, eq_zero_of_ne_one (fun h1 => h (IntOp.cmpi_eq.mp h1))]; exact select_zero a b

/-! ## Over real data -/

section Real
variable (x0 : Vec Ideal S512x768 .bf16) (x1 : Vec Ideal S1024x768 .bf16)
  (x2 : Vec Ideal S512x1 .i32) (x3 : Vec Ideal S1x1024 .i32) (acc : Vec Ideal S512x1 .f32)
  (A : Fin 512 → Fin 768 → ℝ) (B : Fin 1024 → Fin 768 → ℝ) (a : Fin 512 → ℝ)

/-- For real blocks the inner product at (r, q) is the real one. -/
theorem pay5_real (hA : ∀ r d, x0 (ix2 r d) = ((A r d : ℝ) : EReal)) (hB : ∀ q d, x1 (ix2 q d) = ((B q d : ℝ) : EReal))
    (r : Fin 512) (q : Fin 1024) :
    k0_pay5 (F := Ideal) x0 x1 (ix2 r q) = ((∑ d : Fin 768, A r d * B q d : ℝ) : EReal) := by
  rw [pay5_apply, LibFinite.coe_finset_sum]
  exact Finset.sum_congr rfl fun d _ => by rw [hA, hB, EReal.coe_mul]

/-- For real blocks the exponential block at (r, q) is the real exponential of twice the inner product. -/
theorem pay7_real (hA : ∀ r d, x0 (ix2 r d) = ((A r d : ℝ) : EReal)) (hB : ∀ q d, x1 (ix2 q d) = ((B q d : ℝ) : EReal))
    (r : Fin 512) (q : Fin 1024) :
    k0_pay7 (F := Ideal) x0 x1 (ix2 r q) = ((Real.exp ((∑ d : Fin 768, A r d * B q d) * 2) : ℝ) : EReal) := by
  have h5 := pay5_real x0 x1 A B hA hB r q
  rw [pay5_apply] at h5
  rw [pay7_apply, h5, Cert.Consts.ofBits_two, ← EReal.coe_mul, Ideal.exp_coe]

/-- The first stored value, for real data. -/
theorem pay8_real (hA : ∀ r d, x0 (ix2 r d) = ((A r d : ℝ) : EReal)) (hB : ∀ q d, x1 (ix2 q d) = ((B q d : ℝ) : EReal))
    (ha : ∀ r, acc (ix2 r 0) = ((a r : ℝ) : EReal)) (r : Fin 512) :
    k0_pay8 (F := Ideal) x0 x1 acc (ix2 r 0)
      = ((a r + ∑ q : Fin 1024, Real.exp ((∑ d : Fin 768, A r d * B q d) * 2) : ℝ) : EReal) := by
  rw [pay8_apply, ha, EReal.coe_add, LibFinite.coe_finset_sum]
  exact congrArg (((a r : ℝ) : EReal) + ·) (Finset.sum_congr rfl fun q _ => pay7_real x0 x1 A B hA hB r q)

/-- The second stored value, for real data. -/
theorem pay9_real (hA : ∀ r d, x0 (ix2 r d) = ((A r d : ℝ) : EReal)) (hB : ∀ q d, x1 (ix2 q d) = ((B q d : ℝ) : EReal))
    (ha : ∀ r, acc (ix2 r 0) = ((a r : ℝ) : EReal)) (r : Fin 512) :
    k0_pay9 (F := Ideal) x0 x1 x2 x3 acc (ix2 r 0)
      = ((a r + ∑ q : Fin 1024, if x2 (ix2 r 0) = x3 (ix2 0 q) then ∑ d : Fin 768, A r d * B q d else 0 : ℝ) : EReal) := by
  rw [pay9_apply, ha, EReal.coe_add, LibFinite.coe_finset_sum]
  refine congrArg (((a r : ℝ) : EReal) + ·) (Finset.sum_congr rfl fun q _ => ?_)
  rw [pay6_apply, select_cmpi_eq, pay5_real x0 x1 A B hA hB, Cert.Consts.ofBits_zero]
  split
  · rfl
  · exact EReal.coe_zero.symm

/-- The third stored value, for real data. -/
theorem pay1_real (hA : ∀ r d, x0 (ix2 r d) = ((A r d : ℝ) : EReal)) (hB : ∀ q d, x1 (ix2 q d) = ((B q d : ℝ) : EReal))
    (ha : ∀ r, acc (ix2 r 0) = ((a r : ℝ) : EReal)) (r : Fin 512) :
    k0_pay1 (F := Ideal) (k0_pay6 (F := Ideal) x2 x3) (k0_pay7 (F := Ideal) x0 x1) acc (ix2 r 0)
      = ((a r + ∑ q : Fin 1024, if x2 (ix2 r 0) = x3 (ix2 0 q) then 1
          else Real.exp ((∑ d : Fin 768, A r d * B q d) * 2) : ℝ) : EReal) := by
  rw [pay1_apply, ha, EReal.coe_add, LibFinite.coe_finset_sum]
  refine congrArg (((a r : ℝ) : EReal) + ·) (Finset.sum_congr rfl fun q _ => ?_)
  rw [pay6_apply, select_cmpi_eq, pay7_real x0 x1 A B hA hB, Cert.Consts.ofBits_one]
  split <;> rfl

end Real

/-! ## The first step's zeros -/

theorem pay2_apply (r : Fin 512) : k0_pay2 (F := Ideal) (ix2 r 0) = ((0 : ℝ) : EReal) := by
  unfold k0_pay2
  show Ideal.ofBits .f32 0x00000000#32 = _
  rw [Cert.Consts.ofBits_zero, EReal.coe_zero]

theorem pay3_apply (r : Fin 512) : k0_pay3 (F := Ideal) (ix2 r 0) = ((0 : ℝ) : EReal) := by
  unfold k0_pay3
  show Ideal.ofBits .f32 0x00000000#32 = _
  rw [Cert.Consts.ofBits_zero, EReal.coe_zero]

theorem pay4_apply (r : Fin 512) : k0_pay4 (F := Ideal) (ix2 r 0) = ((0 : ℝ) : EReal) := by
  unfold k0_pay4
  show Ideal.ofBits .f32 0x00000000#32 = _
  rw [Cert.Consts.ofBits_zero, EReal.coe_zero]

end Cert.KPay

end
-- ==== Proof.KValueB.lean ====
/-
  The blocks the kernel's windows show the body, read entry by entry off the arrays the region finds.

  The grid is 8 row blocks by 4 column blocks, the column index innermost: point `t` is row block `t / 4`, column
  block `t % 4`. The row window shows rows `512 (t / 4) + r` of the stacked embeddings and of the class column, the
  column window rows `1024 (t % 4) + q` of the stacked embeddings and entries `1024 (t % 4) + q` of the class row;
  an accumulator's block is rows `512 (t / 4) + r` of its array.
-/
import proofs.«106012_j6571299963520_2_alg».proof.Proof.KIFrameRuns
import Idealize.ShloMosaic.Lib.Pipeline.Value
import Idealize.ShloMosaic.Lib.ValueIdx

set_option maxRecDepth 16384

noncomputable section

namespace Cert.KValue

open Cert.KernelIdeal Cert.KernelIdeal.Gen Cert.KernelIdeal.Frm
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The printed index maps, decided over the grid. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = t.val / 4 ∧ win0_6.index t (1 : Fin 2) = 0 :=
  (by decide +kernel : ∀ t : Fin grid0.N, _)

/-- The row window's block of the stacked embeddings. -/
theorem iblk0_apply (c : Dev nD) (t : Fin cfg0.N) (r : Fin 512) (d : Fin 768) (p : Fin 4096)
    (hp : p.val = 512 * (t.val / 4) + r.val) :
    (iblk m c 0 t : Vec F S512x768 .bf16) (ValueIdx.ix2 r d) = V m c main_v11 (ValueIdx.ix2 p d) := by
  unfold iblk
  rw [View.read_apply]
  show V m c main_v11 _ = V m c main_v11 _
  congr 1
  funext a; apply Fin.ext
  match a with
  | ⟨0, _⟩ => show win0_0.index t (0 : Fin 2) * 512 + 1 * r.val = p.val; rw [(idx_facts t).1, hp]; omega
  | ⟨1, _⟩ => show win0_0.index t (1 : Fin 2) * 768 + 1 * d.val = d.val; rw [(idx_facts t).2.1]; omega

/-- The column window's block of the stacked embeddings. -/
theorem iblk1_apply (c : Dev nD) (t : Fin cfg0.N) (q : Fin 1024) (d : Fin 768) (p : Fin 4096)
    (hp : p.val = 1024 * (t.val % 4) + q.val) :
    (iblk m c 1 t : Vec F S1024x768 .bf16) (ValueIdx.ix2 q d) = V m c main_v11 (ValueIdx.ix2 p d) := by
  unfold iblk
  rw [View.read_apply]
  show V m c main_v11 _ = V m c main_v11 _
  congr 1
  funext a; apply Fin.ext
  match a with
  | ⟨0, _⟩ => show win0_1.index t (0 : Fin 2) * 1024 + 1 * q.val = p.val; rw [(idx_facts t).2.2.1, hp]; omega
  | ⟨1, _⟩ => show win0_1.index t (1 : Fin 2) * 768 + 1 * d.val = d.val; rw [(idx_facts t).2.2.2.1]; omega

/-- The row window's block of the class column. -/
theorem iblk2_apply (c : Dev nD) (t : Fin cfg0.N) (r : Fin 512) (p : Fin 4096)
    (hp : p.val = 512 * (t.val / 4) + r.val) :
    (iblk m c 2 t : Vec F S512x1 .i32) (ValueIdx.ix2 r 0) = V m c main_v13 (ValueIdx.ix2 p 0) := by
  unfold iblk
  rw [View.read_apply]
  show V m c main_v13 _ = V m c main_v13 _
  congr 1
  funext a; apply Fin.ext
  match a with
  | ⟨0, _⟩ => show win0_2.index t (0 : Fin 2) * 512 + 1 * r.val = p.val; rw [(idx_facts t).2.2.2.2.1, hp]; omega
  | ⟨1, _⟩ => show win0_2.index t (1 : Fin 2) * 1 + 1 * 0 = 0; rw [(idx_facts t).2.2.2.2.2.1]

/-- The column window's block of the class row. -/
theorem iblk3_apply (c : Dev nD) (t : Fin cfg0.N) (q : Fin 1024) (p : Fin 4096)
    (hp : p.val = 1024 * (t.val % 4) + q.val) :
    (iblk m c 3 t : Vec F S1x1024 .i32) (ValueIdx.ix2 0 q) = V m c main_v14 (ValueIdx.ix2 0 p) := by
  unfold iblk
  rw [View.read_apply]
  show V m c main_v14 _ = V m c main_v14 _
  congr 1
  funext a; apply Fin.ext
  match a with
  | ⟨0, _⟩ => show win0_3.index t (0 : Fin 2) * 1 + 1 * 0 = 0; rw [(idx_facts t).2.2.2.2.2.2.1]
  | ⟨1, _⟩ => show win0_3.index t (1 : Fin 2) * 1024 + 1 * q.val = p.val; rw [(idx_facts t).2.2.2.2.2.2.2.1, hp]; omega

end Cert.KValue

end
-- ==== Proof.LibBlockedSum.lean ====
/-
  General lemmas for a contraction that a kernel accumulates block by block along the contracted axis.

  Arrays are read at NATURAL coordinates (their entry inside the extents, zero outside), so that a block's offset
  arithmetic is plain arithmetic on naturals: at2 for a matrix, at1 for a vector, and at2_of_idx / at1_of_idx to pass
  from an entry at an index to the reading at the index's coordinates.

  A sum over 0 .. B n - 1 is the sum, over the n consecutive blocks, of each block's B terms (sum_range_blocks over
  ranges, sum_fin_blocks with the inner and the whole sum over finite index types). Only associativity and
  commutativity of + are used, so the lemmas hold in any commutative additive monoid, in particular on the extended
  reals without any finiteness assumption. blocked_contraction is the form a matrix product with a bias takes:
  accumulated from zero over n blocks of B along the contracted axis, then the bias added, against the whole
  contraction plus the bias.
-/
import Idealize.ShloMosaic.Lib.ValueIdx
import Idealize.ShloMosaic.PureOps.Ideal.Laws

noncomputable section

namespace Cert.BlockedSum

open Idealize.ShloMosaic Idealize.ShloMosaic.ValueIdx

/-- A matrix read at natural coordinates: its entry inside the extents, zero outside. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- A vector read at a natural coordinate: its entry inside the extent, zero outside. -/
def at1 {n : ℕ} (x : (⟨1, ![n]⟩ : Shape).Idx → EReal) (a : ℕ) : EReal :=
  if h : a < n then x (ix1 ⟨a, h⟩) else 0

/-- An entry of a matrix is its reading at the index's coordinates. -/
theorem at2_of_idx {n0 n1 : ℕ} (x : (⟨2, ![n0, n1]⟩ : Shape).Idx → EReal) (j : (⟨2, ![n0, n1]⟩ : Shape).Idx)
    (a b : ℕ) (ha : (j 0).val = a) (hb : (j 1).val = b) : x j = at2 x a b := by
  subst ha; subst hb
  unfold at2
  rw [dif_pos ⟨idx2_lt0 j, idx2_lt1 j⟩]
  exact congrArg x (eq_ix2 j)

/-- An entry of a vector is its reading at the index's coordinate. -/
theorem at1_of_idx {n : ℕ} (x : (⟨1, ![n]⟩ : Shape).Idx → EReal) (j : (⟨1, ![n]⟩ : Shape).Idx)
    (a : ℕ) (ha : (j 0).val = a) : x j = at1 x a := by
  subst ha
  unfold at1
  rw [dif_pos (show (j 0).val < n from (j 0).isLt)]
  exact congrArg x (eq_ix1 j)

/-- A sum over 0 .. B n - 1 is the sum over n consecutive blocks of B terms each. -/
theorem sum_range_blocks {β : Type*} [AddCommMonoid β] (f : ℕ → β) (B : ℕ) (n : ℕ) :
    ∑ s ∈ Finset.range n, ∑ k ∈ Finset.range B, f (B * s + k) = ∑ k ∈ Finset.range (B * n), f k := by
  induction n with
  | zero => simp
  | succ n ih => rw [Finset.sum_range_succ, ih, Nat.mul_succ, Finset.sum_range_add]

/-- The same with each block and the whole sum over finite index types: N = B n terms as n blocks of B. -/
theorem sum_fin_blocks {β : Type*} [AddCommMonoid β] (f : ℕ → β) (B n N : ℕ) (hN : N = B * n) :
    ∑ s ∈ Finset.range n, ∑ k : Fin B, f (B * s + k.val) = ∑ k : Fin N, f k.val := by
  subst hN
  rw [Fin.sum_univ_eq_sum_range (fun k => f k) (B * n), ← sum_range_blocks f B n]
  exact Finset.sum_congr rfl fun s _ => Fin.sum_univ_eq_sum_range (fun k => f (B * s + k)) B

/-- A contraction over N = B n terms, accumulated from zero in n blocks of B, then the bias added: the whole
    contraction plus the bias. -/
theorem blocked_contraction (X W : ℕ → ℕ → EReal) (b : ℕ → EReal) (p q : ℕ) (B n N : ℕ) (hN : N = B * n) :
    (0 + ∑ s ∈ Finset.range n, ∑ k : Fin B, X p (B * s + k.val) * W (B * s + k.val) q) + b q
      = (∑ k : Fin N, X p k.val * W k.val q) + b q := by
  rw [zero_add]
  exact congrArg (· + b q) (sum_fin_blocks (fun k => X p k * W k q) B n N hN)

end Cert.BlockedSum

end
-- ==== Proof.KValueSum.lean ====
/-
  The three row sums, cut into the four column blocks the kernel visits.

  A row's sum over the 4096 columns is accumulated in four steps of 1024 columns each. `part g n` is the sum of the
  terms `g p` over the first `n` blocks of 1024 columns (the columns read at natural positions, zero past the
  end); it starts at zero, grows by one block per step, and after four blocks is the whole sum. The three term
  functions are the exponential of twice the similarity, the similarity where the classes agree, and one where the
  classes agree against the exponential elsewhere.
-/
import proofs.«106012_j6571299963520_2_alg».proof.Proof.Spec
import proofs.«106012_j6571299963520_2_alg».proof.Proof.LibBlockedSum

noncomputable section

namespace Cert.KValue

/-- A row's term at a natural column position: the term inside the 4096 columns, zero outside. -/
def natTerm (g : Fin 4096 → ℝ) (p : ℕ) : ℝ := if h : p < 4096 then g ⟨p, h⟩ else 0

/-- The sum of a row's terms over the first `n` blocks of 1024 columns. -/
def part (g : Fin 4096 → ℝ) (n : ℕ) : ℝ := ∑ b ∈ Finset.range n, ∑ q : Fin 1024, natTerm g (1024 * b + q.val)

theorem part_zero (g : Fin 4096 → ℝ) : part g 0 = 0 := by
  unfold part; rw [Finset.range_zero, Finset.sum_empty]

theorem part_succ (g : Fin 4096 → ℝ) (n : ℕ) :
    part g (n + 1) = part g n + ∑ q : Fin 1024, natTerm g (1024 * n + q.val) := by
  unfold part; rw [Finset.sum_range_succ]

/-- Inside the four blocks the natural position is a column. -/
theorem natTerm_col (g : Fin 4096 → ℝ) (p : Fin 4096) (n : ℕ) (hp : p.val = n) : natTerm g n = g p := by
  subst hp
  unfold natTerm
  rw [dif_pos p.isLt]

/-- After four blocks: the whole row sum. -/
theorem part_four (g : Fin 4096 → ℝ) : part g 4 = ∑ p : Fin 4096, g p := by
  unfold part
  rw [Cert.BlockedSum.sum_fin_blocks (natTerm g) 1024 4 4096 rfl]
  exact Finset.sum_congr rfl fun p _ => natTerm_col g p p.val rfl

variable (R : Fin 4096 → Fin 768 → ℝ) (cls : Fin 4096 → BitVec 32)

/-- The exponential of twice the similarity. -/
def gE (k p : Fin 4096) : ℝ := Real.exp (Cert.Spec.sim R k p * 2)
/-- The similarity where the classes agree, zero elsewhere. -/
def gS (k p : Fin 4096) : ℝ := if cls k = cls p then Cert.Spec.sim R k p else 0
/-- One where the classes agree, the exponential of twice the similarity elsewhere. -/
def gD (k p : Fin 4096) : ℝ := if cls k = cls p then 1 else Real.exp (Cert.Spec.sim R k p * 2)

theorem part_four_E (k : Fin 4096) : part (gE R k) 4 = Cert.Spec.expsum R k := part_four _
theorem part_four_S (k : Fin 4096) : part (gS R cls k) 4 = Cert.Spec.samesim R cls k := part_four _
theorem part_four_D (k : Fin 4096) : part (gD R cls k) 4 = Cert.Spec.denv R cls k := part_four _

end Cert.KValue

end
-- ==== Proof.KValuePieces.lean ====
/-
  What the kernel body leaves in each accumulator's staging buffer, as a value.

  At a later column block each accumulator has one store covering its block: the payload of the four input blocks and of
  what the buffer held. At a first column block it has two: the zero block, then the same payload over that zero read
  back. The loads read whole buffers, so each stored value is the payload of the blocks themselves.
-/
import proofs.«106012_j6571299963520_2_alg».proof.Proof.KIFrame
import Idealize.ShloMosaic.Lib.Pipeline.Value
import Idealize.ShloMosaic.Lib.ValueIdx
import Idealize.ShloMosaic.Lib.Tactic

set_option maxRecDepth 16384

noncomputable section

namespace Cert.KValue

open Cert.KernelIdeal Cert.KernelIdeal.Gen Cert.KernelIdeal.Frm
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- At a later column block accumulator 0's one store is the payload of the blocks and of what the buffer held. -/
theorem out0_B_4_eq (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) :
    out0_B_4 c i arg2 harg2 arg3 harg3 arg4 harg4 arg5 harg5 arg6 harg6 arg7 harg7 arg8 harg8 hc0 x0 x1 x2 x3 xo4 xo5 xo6 = k0_pay8 x0 x1 xo4 := by
  unfold out0_B_4
  rw [View.read_writes_eq_canon _ _ _ (cover0_B_4 c i arg2 harg2 arg3 harg3 arg4 harg4 arg5 harg5 arg6 harg6 arg7 harg7 arg8 harg8 hc0 x0 x1 x2 x3 xo4 xo5 xo6)]
  unfold kernelRun0_B
  dsimp only
  rw [View.canon_unit_zero hz]
  simp only [View.readAt_eq_ld, harg2.read_unread, harg3.read_unread, harg4.read_unread, harg5.read_unread, harg6.read_unread,
    View.ld_unit_zero (S := S512x768) hz, View.ld_unit_zero (S := S1024x768) hz, View.ld_unit_zero (S := S512x1) hz,
    View.ld_unit_zero (S := S1x1024) hz]

/-- At a later column block accumulator 1's one store is the payload of the blocks and of what the buffer held. -/
theorem out0_B_5_eq (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) :
    out0_B_5 c i arg2 harg2 arg3 harg3 arg4 harg4 arg5 harg5 arg6 harg6 arg7 harg7 arg8 harg8 hc0 x0 x1 x2 x3 xo4 xo5 xo6 = k0_pay9 x0 x1 x2 x3 xo5 := by
  unfold out0_B_5
  rw [View.read_writes_eq_canon _ _ _ (cover0_B_5 c i arg2 harg2 arg3 harg3 arg4 harg4 arg5 harg5 arg6 harg6 arg7 harg7 arg8 harg8 hc0 x0 x1 x2 x3 xo4 xo5 xo6)]
  unfold kernelRun0_B
  dsimp only
  rw [View.canon_unit_zero hz]
  simp only [View.readAt_eq_ld, harg2.read_unread, harg3.read_unread, harg4.read_unread, harg5.read_unread, harg7.read_unread,
    View.ld_unit_zero (S := S512x768) hz, View.ld_unit_zero (S := S1024x768) hz, View.ld_unit_zero (S := S512x1) hz,
    View.ld_unit_zero (S := S1x1024) hz]

/-- At a later column block accumulator 2's one store is the payload of the blocks and of what the buffer held. -/
theorem out0_B_6_eq (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i)
    (x0 : Vec F S512x768 .bf16) (x1 : Vec F S1024x768 .bf16) (x2 : Vec F S512x1 .i32) (x3 : Vec F S1x1024 .i32) (xo4 xo5 xo6 : Vec F S512x1 .f32) :
    out0_B_6 c i arg2 harg2 arg3 harg3 arg4 harg4 arg5 harg5 arg6 harg6 arg7 harg7 arg8 harg8 hc0 x0 x1 x2 x3 xo4 xo5 xo6 = k0_pay1 (k0_pay6 x2 x3) (k0_pay7 x0 x1) xo6 := by
  unfold out0_B_6
  rw [View.read_writes_eq_canon _ _ _ (cover0_B_6 c i arg2 harg2 arg3 harg3 arg4 harg4 arg5 harg5 arg6 harg6 arg7 harg7 arg8 harg8 hc0 x0 x1 x2 x3 xo4 xo5 xo6)]
  unfold kernelRun0_B
  dsimp only
  rw [View.canon_unit_zero hz]
  simp only [View.readAt_eq_ld, harg2.read_unread, harg3.read_unread, harg4.read_unread, harg5.read_unread, harg8.read_unread,
    View.ld_unit_zero (S := S512x768) hz, View.ld_unit_zero (S := S1024x768) hz, View.ld_unit_zero (S := S512x1) hz,
    View.ld_unit_zero (S := S1x1024) hz]

/-- At a first column block accumulator 0's stores are the zero block, then the payload of the blocks over that zero. -/
theorem out0_A_4_eq (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) :
    out0_A_4 c i arg2 harg2 arg3 harg3 arg4 harg4 arg5 harg5 arg6 harg6 arg7 harg7 arg8 harg8 hc0 x0 x1 x2 x3 = k0_pay8 x0 x1 (k0_pay2 (F := F)) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread,
    View.ld_unit_zero (S := S512x768) hz, View.ld_unit_zero (S := S1024x768) hz, View.ld_unit_zero (S := S512x1) hz,
    View.ld_unit_zero (S := S1x1024) hz]

/-- At a first column block accumulator 1's stores are the zero block, then the payload of the blocks over that zero. -/
theorem out0_A_5_eq (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) :
    out0_A_5 c i arg2 harg2 arg3 harg3 arg4 harg4 arg5 harg5 arg6 harg6 arg7 harg7 arg8 harg8 hc0 x0 x1 x2 x3 = k0_pay9 x0 x1 x2 x3 (k0_pay3 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread,
    View.ld_unit_zero (S := S512x768) hz, View.ld_unit_zero (S := S1024x768) hz, View.ld_unit_zero (S := S512x1) hz,
    View.ld_unit_zero (S := S1x1024) hz]

/-- At a first column block accumulator 2's stores are the zero block, then the payload of the blocks over that zero. -/
theorem out0_A_6_eq (c : Dev nD) (i : grid0.Coords) (arg2 : Memref sig .tc .vmem S512x768 .bf16) (harg2 : arg2.IsWhole) (arg3 : Memref sig .tc .vmem S1024x768 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i)
    (x0 : Vec F S512x768 .bf16) (x1 : Vec F S1024x768 .bf16) (x2 : Vec F S512x1 .i32) (x3 : Vec F S1x1024 .i32) :
    out0_A_6 c i arg2 harg2 arg3 harg3 arg4 harg4 arg5 harg5 arg6 harg6 arg7 harg7 arg8 harg8 hc0 x0 x1 x2 x3 = k0_pay1 (k0_pay6 x2 x3) (k0_pay7 x0 x1) (k0_pay4 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread,
    View.ld_unit_zero (S := S512x768) hz, View.ld_unit_zero (S := S1024x768) hz, View.ld_unit_zero (S := S512x1) hz,
    View.ld_unit_zero (S := S1x1024) hz]

end Cert.KValue

end
-- ==== Proof.KValueAcc.lean ====
/-
  What the three accumulators hold after each grid point, as real numbers.

  Point `t` of the 8 × 4 grid works on rows `512 (t / 4) + r` and columns `1024 (t % 4) + q`. With the stacked
  embeddings equal to the reals `R` and the class column and row equal to `cls`, each accumulator holds after point
  `t`, at row `r`, the sum of its terms over the column blocks `0 … t % 4`: at a first column block it is reset to
  zero and the block's 1024 terms are added, at a later one the block's terms are added to what the point before left
  (the same row block, one column block less). After the fourth column block this is the whole row sum.
-/
import proofs.«106012_j6571299963520_2_alg».proof.Proof.KIFrame
import Idealize.ShloMosaic.Lib.Pipeline.Value
import Idealize.ShloMosaic.Lib.ValueIdx
import Idealize.ShloMosaic.Lib.Tactic
import proofs.«106012_j6571299963520_2_alg».proof.Proof.KPay
import proofs.«106012_j6571299963520_2_alg».proof.Proof.KValueB
import proofs.«106012_j6571299963520_2_alg».proof.Proof.KValueSum
import proofs.«106012_j6571299963520_2_alg».proof.Proof.KValuePieces

set_option maxRecDepth 16384

noncomputable section

namespace Cert.KValue

open Cert.KernelIdeal Cert.KernelIdeal.Gen Cert.KernelIdeal.Frm
open Idealize.ShloMosaic Idealize.ShloMosaic.TcCoe Idealize.SL.Sem
open Idealize.ShloMosaic.ValueIdx (ix2)

theorem N32 : cfg0.N = 32 := N_0

/-- The row of the stacked samples that row `r` of point `t`'s row block is. -/
def rowOf (t : Fin cfg0.N) (r : Fin 512) : Fin 4096 :=
  ⟨512 * (t.val / 4) + r.val, by have := t.isLt; have := N32; omega⟩
/-- The column of the stacked samples that column `q` of point `t`'s column block is. -/
def colOf (t : Fin cfg0.N) (q : Fin 1024) : Fin 4096 :=
  ⟨1024 * (t.val % 4) + q.val, by omega⟩

/-- One more column block: the partial sum grows by the block's 1024 terms. -/
theorem part_step (g : Fin 4096 → ℝ) (t : Fin cfg0.N) :
    part g (t.val % 4 + 1) = part g (t.val % 4) + ∑ q : Fin 1024, g (colOf t q) := by
  rw [part_succ]
  exact congrArg _ (Finset.sum_congr rfl fun q _ => natTerm_col g (colOf t q) _ rfl)

section
variable (m : (ℓ : Loc nD τ sig) → Buf (Elt Ideal) ℓ) (c : Dev nD)
  (R : Fin 4096 → Fin 768 → ℝ) (cls : Fin 4096 → BitVec 32)
  (h11 : ∀ (p : Fin 4096) (d : Fin 768), V m c main_v11 (ix2 p d) = ((R p d : ℝ) : EReal))
  (h13 : ∀ k : Fin 4096, V m c main_v13 (ix2 k 0) = cls k)
  (h14 : ∀ k : Fin 4096, V m c main_v14 (ix2 0 k) = cls k)

include h11 in
/-- The first accumulator's store at point `t`, over any real contents `a` of its buffer. -/
theorem step4 (t : Fin cfg0.N) (xo : Vec Ideal S512x1 .f32) (a : Fin 512 → ℝ)
    (ha : ∀ r, xo (ix2 r 0) = ((a r : ℝ) : EReal)) (r : Fin 512) :
    k0_pay8 (F := Ideal) (iblk m c 0 t) (iblk m c 1 t) xo (ix2 r 0)
      = ((a r + ∑ q : Fin 1024, gE R (rowOf t r) (colOf t q) : ℝ) : EReal) :=
  Cert.KPay.pay8_real (iblk m c 0 t) (iblk m c 1 t) xo (fun r d => R (rowOf t r) d) (fun q d => R (colOf t q) d) a
    (fun r d => (iblk0_apply m c t r d (rowOf t r) rfl).trans (h11 _ _))
    (fun q d => (iblk1_apply m c t q d (colOf t q) rfl).trans (h11 _ _)) ha r

include h11 h13 h14 in
/-- The second accumulator's store at point `t`. -/
theorem step5 (t : Fin cfg0.N) (xo : Vec Ideal S512x1 .f32) (a : Fin 512 → ℝ)
    (ha : ∀ r, xo (ix2 r 0) = ((a r : ℝ) : EReal)) (r : Fin 512) :
    k0_pay9 (F := Ideal) (iblk m c 0 t) (iblk m c 1 t) (iblk m c 2 t) (iblk m c 3 t) xo (ix2 r 0)
      = ((a r + ∑ q : Fin 1024, gS R cls (rowOf t r) (colOf t q) : ℝ) : EReal) := by
  rw [Cert.KPay.pay9_real (iblk m c 0 t) (iblk m c 1 t) (iblk m c 2 t) (iblk m c 3 t) xo
    (fun r d => R (rowOf t r) d) (fun q d => R (colOf t q) d) a
    (fun r d => (iblk0_apply m c t r d (rowOf t r) rfl).trans (h11 _ _))
    (fun q d => (iblk1_apply m c t q d (colOf t q) rfl).trans (h11 _ _)) ha r]
  have e2 : (iblk m c 2 t : Vec Ideal S512x1 .i32) (ix2 r 0) = cls (rowOf t r) :=
    (iblk2_apply m c t r (rowOf t r) rfl).trans (h13 _)
  have e3 : ∀ q : Fin 1024, (iblk m c 3 t : Vec Ideal S1x1024 .i32) (ix2 0 q) = cls (colOf t q) :=
    fun q => (iblk3_apply m c t q (colOf t q) rfl).trans (h14 _)
  refine congrArg (fun s : ℝ => ((a r + s : ℝ) : EReal)) (Finset.sum_congr rfl fun q _ => ?_)
  rw [e2, e3 q]
  rfl

include h11 h13 h14 in
/-- The third accumulator's store at point `t`. -/
theorem step6 (t : Fin cfg0.N) (xo : Vec Ideal S512x1 .f32) (a : Fin 512 → ℝ)
    (ha : ∀ r, xo (ix2 r 0) = ((a r : ℝ) : EReal)) (r : Fin 512) :
    k0_pay1 (F := Ideal) (k0_pay6 (F := Ideal) (iblk m c 2 t) (iblk m c 3 t)) (k0_pay7 (F := Ideal) (iblk m c 0 t) (iblk m c 1 t)) xo (ix2 r 0)
      = ((a r + ∑ q : Fin 1024, gD R cls (rowOf t r) (colOf t q) : ℝ) : EReal) := by
  rw [Cert.KPay.pay1_real (iblk m c 0 t) (iblk m c 1 t) (iblk m c 2 t) (iblk m c 3 t) xo
    (fun r d => R (rowOf t r) d) (fun q d => R (colOf t q) d) a
    (fun r d => (iblk0_apply m c t r d (rowOf t r) rfl).trans (h11 _ _))
    (fun q d => (iblk1_apply m c t q d (colOf t q) rfl).trans (h11 _ _)) ha r]
  have e2 : (iblk m c 2 t : Vec Ideal S512x1 .i32) (ix2 r 0) = cls (rowOf t r) :=
    (iblk2_apply m c t r (rowOf t r) rfl).trans (h13 _)
  have e3 : ∀ q : Fin 1024, (iblk m c 3 t : Vec Ideal S1x1024 .i32) (ix2 0 q) = cls (colOf t q) :=
    fun q => (iblk3_apply m c t q (colOf t q) rfl).trans (h14 _)
  refine congrArg (fun s : ℝ => ((a r + s : ℝ) : EReal)) (Finset.sum_congr rfl fun q _ => ?_)
  rw [e2, e3 q]
  rfl

/-- After point `n` each accumulator holds, at row `r`, its partial sum over the column blocks `0 … n % 4`. -/
def Inv (n : ℕ) (hn : n < cfg0.N) : Prop := ∀ r : Fin 512,
  (outsAt0 m c n hn).1 (ix2 r 0) = ((part (gE R (rowOf ⟨n, hn⟩ r)) (n % 4 + 1) : ℝ) : EReal)
  ∧ (outsAt0 m c n hn).2.1 (ix2 r 0) = ((part (gS R cls (rowOf ⟨n, hn⟩ r)) (n % 4 + 1) : ℝ) : EReal)
  ∧ (outsAt0 m c n hn).2.2 (ix2 r 0) = ((part (gD R cls (rowOf ⟨n, hn⟩ r)) (n % 4 + 1) : ℝ) : EReal)

include h11 h13 h14 in
/-- At a first column block: reset, then the block's terms. -/
theorem inv_first (t : Fin cfg0.N) (h0 : t.val % 4 = 0) : Inv m c R cls t.val t.isLt := by
  intro r
  have hz0 : ∀ g : Fin 4096 → ℝ, part g (t.val % 4) = 0 := fun g => by rw [h0, part_zero]
  rw [outsAt0_A m c t h0]
  dsimp only
  rw [out0_A_4_eq, out0_A_5_eq, out0_A_6_eq]
  refine ⟨?_, ?_, ?_⟩
  · rw [step4 m c R h11 t _ (fun _ => 0) (fun r => Cert.KPay.pay2_apply r) r, part_step, hz0]
  · rw [step5 m c R cls h11 h13 h14 t _ (fun _ => 0) (fun r => Cert.KPay.pay3_apply r) r, part_step, hz0]
  · rw [step6 m c R cls h11 h13 h14 t _ (fun _ => 0) (fun r => Cert.KPay.pay4_apply r) r, part_step, hz0]

include h11 h13 h14 in
/-- At a later column block: the block's terms added to what the point before left. -/
theorem inv_later (t : Fin cfg0.N) (h0 : ¬t.val % 4 = 0)
    (ih : Inv m c R cls (t.val - 1) (Nat.lt_of_le_of_lt (Nat.sub_le _ _) t.isLt)) : Inv m c R cls t.val t.isLt := by
  intro r
  have hrow : ∀ r : Fin 512, rowOf ⟨t.val - 1, Nat.lt_of_le_of_lt (Nat.sub_le _ _) t.isLt⟩ r = rowOf t r := fun r =>
    Fin.ext (by show 512 * ((t.val - 1) / 4) + r.val = 512 * (t.val / 4) + r.val; omega)
  have hj : (t.val - 1) % 4 + 1 = t.val % 4 := by omega
  have a4 : ∀ r : Fin 512, (outsAt0 m c (t.val - 1) (Nat.lt_of_le_of_lt (Nat.sub_le _ _) t.isLt)).1 (ix2 r 0)
      = ((part (gE R (rowOf t r)) (t.val % 4) : ℝ) : EReal) := fun r => by rw [(ih r).1, hrow r, hj]
  have a5 : ∀ r : Fin 512, (outsAt0 m c (t.val - 1) (Nat.lt_of_le_of_lt (Nat.sub_le _ _) t.isLt)).2.1 (ix2 r 0)
      = ((part (gS R cls (rowOf t r)) (t.val % 4) : ℝ) : EReal) := fun r => by rw [(ih r).2.1, hrow r, hj]
  have a6 : ∀ r : Fin 512, (outsAt0 m c (t.val - 1) (Nat.lt_of_le_of_lt (Nat.sub_le _ _) t.isLt)).2.2 (ix2 r 0)
      = ((part (gD R cls (rowOf t r)) (t.val % 4) : ℝ) : EReal) := fun r => by rw [(ih r).2.2, hrow r, hj]
  rw [outsAt0_B m c t h0]
  dsimp only
  rw [out0_B_4_eq, out0_B_5_eq, out0_B_6_eq]
  refine ⟨?_, ?_, ?_⟩
  · rw [step4 m c R h11 t _ _ a4 r, part_step]
  · rw [step5 m c R cls h11 h13 h14 t _ _ a5 r, part_step]
  · rw [step6 m c R cls h11 h13 h14 t _ _ a6 r, part_step]

include h11 h13 h14 in
/-- The accumulators after every point. -/
theorem inv_all : ∀ (n : ℕ) (hn : n < cfg0.N), Inv m c R cls n hn := by
  intro n
  induction n with
  | zero => intro hn; exact inv_first m c R cls h11 h13 h14 ⟨0, hn⟩ rfl
  | succ n ih =>
    intro hn
    by_cases h0 : (n + 1) % 4 = 0
    · exact inv_first m c R cls h11 h13 h14 ⟨n + 1, hn⟩ h0
    · exact inv_later m c R cls h11 h13 h14 ⟨n + 1, hn⟩ h0 (ih _)

include h11 h13 h14 in
/-- After the last column block of a row block each accumulator holds the whole row sums. -/
theorem acc_last (t : Fin cfg0.N) (h3 : t.val % 4 = 3) (r : Fin 512) :
    (outsAt0 m c t.val t.isLt).1 (ix2 r 0) = ((Cert.Spec.expsum R (rowOf t r) : ℝ) : EReal)
    ∧ (outsAt0 m c t.val t.isLt).2.1 (ix2 r 0) = ((Cert.Spec.samesim R cls (rowOf t r) : ℝ) : EReal)
    ∧ (outsAt0 m c t.val t.isLt).2.2 (ix2 r 0) = ((Cert.Spec.denv R cls (rowOf t r) : ℝ) : EReal) := by
  obtain ⟨e4, e5, e6⟩ := inv_all m c R cls h11 h13 h14 t.val t.isLt r
  rw [h3] at e4 e5 e6
  exact ⟨e4.trans (congrArg _ (part_four_E R _)), e5.trans (congrArg _ (part_four_S R cls _)),
    e6.trans (congrArg _ (part_four_D R cls _))⟩

end

end Cert.KValue

end
-- ==== Proof.KCover.lean ====
/-
  From the accumulators' blocks to their arrays.

  The grid is 8 row blocks by 4 column blocks, the column index innermost: point t is row block t / 4, column block
  t % 4. Each of the three accumulators is a [4096, 1] column seen through a [512, 1] window that moves with the row
  block only, and is written back at the last column block of each row block, the points with t % 4 = 3. If at
  every such point the accumulator's buffer holds, at row r, the value G (512 (t / 4) + r) of one function G of the
  array's row, then after the run the array holds G: row k lies in row block k / 512, whose last column block is
  the point 4 (k / 512) + 3.
-/
import proofs.«106012_j6571299963520_2_alg».proof.Proof.KIFrame
import Idealize.ShloMosaic.Lib.Pipeline.Value
import Idealize.ShloMosaic.Lib.ValueIdx

set_option maxRecDepth 16384

noncomputable section

namespace Cert.KCover

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The accumulator windows' index maps, decided over the grid: the row block, and zero across. -/
theorem idx_out : ∀ t : Fin cfg0.N,
    win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = t.val / 4 ∧ win0_6.index t (1 : Fin 2) = 0 :=
  (by decide +kernel : ∀ t : Fin grid0.N, _)

/-- Row r of the row block of point t is a row of the array. -/
theorem row_lt (t : Fin cfg0.N) (r : Fin 512) : 512 * (t.val / 4) + r.val < 4096 := by
  have hN : t.val < 32 := lt_of_lt_of_eq t.isLt (show cfg0.N = 32 from N_0)
  have := r.isLt
  omega

/-- The last column block of the row block of row k is a point of the grid. -/
theorem last_lt (k : Fin 4096) : 4 * (k.val / 512) + 3 < cfg0.N := by
  rw [show cfg0.N = 32 from N_0]
  have := k.isLt
  omega

/-- A function of the row as contents of a [4096, 1] column. -/
abbrev col (G : Fin 4096 → Elt F .f32) : S4096x1.Idx → Elt F .f32 := fun i => G ⟨(i 0).val, idx2_lt0 i⟩

/-! ## Accumulator 0 -/

/-- What a last column block writes back of accumulator 0 is its block of the column of G. -/
theorem flushed4_apply (c : Dev nD) (G : Fin 4096 → Elt F .f32)
    (hG : ∀ t : Fin cfg0.N, t.val % 4 = 3 → ∀ r : Fin 512,
      (outsAt0 m c t.val t.isLt).1 (ix2 r 0) = G ⟨512 * (t.val / 4) + r.val, row_lt t r⟩)
    (t : Fin cfg0.N) (hf : (cfg0.win 4).flush t = true) (j : S512x1.Idx) :
    ((dats m 0 c).flushed 4 t : Vec F S512x1 .f32) j
      = (((cfg0.win 4).blk t).view.read (Elt F) (col G) : Vec F S512x1 .f32) j := by
  have h3 := (flush0_4 t).mp hf
  show (cfg0.win 4).cut (grid0.coords t) ((dats m 0 c).after 4 t) j = _
  rw [after0_4, View.read_apply]
  obtain ⟨r, u, rfl⟩ : ∃ (r : Fin 512) (u : Fin 1), j = ix2 r u := ⟨j 0, j 1, eq_ix2 j⟩
  obtain rfl : u = 0 := Subsingleton.elim _ _
  show (outsAt0 m c t.val t.isLt).1 (ix2 r 0) = G _
  rw [hG t h3 r]
  refine congrArg G (Fin.ext ?_)
  show 512 * (t.val / 4) + r.val = win0_4.index t (0 : Fin 2) * 512 + 1 * r.val
  rw [(idx_out t).1]; omega

/-- An index of the array is in point t's block of accumulator 0 iff its row is in t's row block. -/
theorem mem_blk4 (t : Fin cfg0.N) (i : S4096x1.Idx) :
    i ∈ ((cfg0.win 4).blk t).view.set ↔ 512 * (t.val / 4) ≤ (i 0).val ∧ (i 0).val < 512 * (t.val / 4) + 512 := by
  show i ∈ ((View.whole main_v15_0).slice (win0_4.rect t)).set ↔ _
  rw [View.set_slice_whole, Rect.mem_set_unit]
  constructor
  · intro h
    have h0 : win0_4.index t (0 : Fin 2) * 512 ≤ (i 0).val ∧ (i 0).val < win0_4.index t (0 : Fin 2) * 512 + 512 := h 0
    rw [(idx_out t).1] at h0
    omega
  · intro h a
    match a with
    | ⟨0, _⟩ =>
      show win0_4.index t (0 : Fin 2) * 512 ≤ (i 0).val ∧ (i 0).val < win0_4.index t (0 : Fin 2) * 512 + 512
      rw [(idx_out t).1]; omega
    | ⟨1, _⟩ =>
      show win0_4.index t (1 : Fin 2) * 1 ≤ (i 1).val ∧ (i 1).val < win0_4.index t (1 : Fin 2) * 1 + 1
      rw [(idx_out t).2.1]
      have : (i 1).val < 1 := (i 1).isLt
      omega

/-- Accumulator 0's array after the run is the column of G: every row is in the block its row block's last
    column block writes back. -/
theorem final4 (c : Dev nD) (G : Fin 4096 → Elt F .f32)
    (hG : ∀ t : Fin cfg0.N, t.val % 4 = 3 → ∀ r : Fin 512,
      (outsAt0 m c t.val t.isLt).1 (ix2 r 0) = G ⟨512 * (t.val / 4) + r.val, row_lt t r⟩) :
    (dats m 0 c).arrAt 4 cfg0.N = col G :=
  (dats m 0 c).arrAt_eq_of_cover 4 (col G) (fun t hf => funext fun j => flushed4_apply m c G hG t hf j) fun i => by
    have hi : (i 0).val < 4096 := idx2_lt0 i
    refine ⟨⟨4 * ((i 0).val / 512) + 3, last_lt ⟨(i 0).val, hi⟩⟩, (flush0_4 _).mpr (by dsimp only; omega), ?_⟩
    rw [mem_blk4]
    dsimp only
    omega

/-- Accumulator 0's array after the run, row by row. -/
theorem arrAt4_apply (c : Dev nD) (G : Fin 4096 → Elt F .f32)
    (hG : ∀ t : Fin cfg0.N, t.val % 4 = 3 → ∀ r : Fin 512,
      (outsAt0 m c t.val t.isLt).1 (ix2 r 0) = G ⟨512 * (t.val / 4) + r.val, row_lt t r⟩) (k : Fin 4096) :
    ((dats m 0 c).arrAt 4 cfg0.N : S4096x1.Idx → Elt F .f32) (ix2 k 0) = G k :=
  congrFun (final4 m c G hG) (ix2 k 0)

/-! ## Accumulator 1 -/

/-- What a last column block writes back of accumulator 1 is its block of the column of G. -/
theorem flushed5_apply (c : Dev nD) (G : Fin 4096 → Elt F .f32)
    (hG : ∀ t : Fin cfg0.N, t.val % 4 = 3 → ∀ r : Fin 512,
      (outsAt0 m c t.val t.isLt).2.1 (ix2 r 0) = G ⟨512 * (t.val / 4) + r.val, row_lt t r⟩)
    (t : Fin cfg0.N) (hf : (cfg0.win 5).flush t = true) (j : S512x1.Idx) :
    ((dats m 0 c).flushed 5 t : Vec F S512x1 .f32) j
      = (((cfg0.win 5).blk t).view.read (Elt F) (col G) : Vec F S512x1 .f32) j := by
  have h3 := (flush0_5 t).mp hf
  show (cfg0.win 5).cut (grid0.coords t) ((dats m 0 c).after 5 t) j = _
  rw [after0_5, View.read_apply]
  obtain ⟨r, u, rfl⟩ : ∃ (r : Fin 512) (u : Fin 1), j = ix2 r u := ⟨j 0, j 1, eq_ix2 j⟩
  obtain rfl : u = 0 := Subsingleton.elim _ _
  show (outsAt0 m c t.val t.isLt).2.1 (ix2 r 0) = G _
  rw [hG t h3 r]
  refine congrArg G (Fin.ext ?_)
  show 512 * (t.val / 4) + r.val = win0_5.index t (0 : Fin 2) * 512 + 1 * r.val
  rw [(idx_out t).2.2.1]; omega

/-- An index of the array is in point t's block of accumulator 1 iff its row is in t's row block. -/
theorem mem_blk5 (t : Fin cfg0.N) (i : S4096x1.Idx) :
    i ∈ ((cfg0.win 5).blk t).view.set ↔ 512 * (t.val / 4) ≤ (i 0).val ∧ (i 0).val < 512 * (t.val / 4) + 512 := by
  show i ∈ ((View.whole main_v15_1).slice (win0_5.rect t)).set ↔ _
  rw [View.set_slice_whole, Rect.mem_set_unit]
  constructor
  · intro h
    have h0 : win0_5.index t (0 : Fin 2) * 512 ≤ (i 0).val ∧ (i 0).val < win0_5.index t (0 : Fin 2) * 512 + 512 := h 0
    rw [(idx_out t).2.2.1] at h0
    omega
  · intro h a
    match a with
    | ⟨0, _⟩ =>
      show win0_5.index t (0 : Fin 2) * 512 ≤ (i 0).val ∧ (i 0).val < win0_5.index t (0 : Fin 2) * 512 + 512
      rw [(idx_out t).2.2.1]; omega
    | ⟨1, _⟩ =>
      show win0_5.index t (1 : Fin 2) * 1 ≤ (i 1).val ∧ (i 1).val < win0_5.index t (1 : Fin 2) * 1 + 1
      rw [(idx_out t).2.2.2.1]
      have : (i 1).val < 1 := (i 1).isLt
      omega

/-- Accumulator 1's array after the run is the column of G: every row is in the block its row block's last
    column block writes back. -/
theorem final5 (c : Dev nD) (G : Fin 4096 → Elt F .f32)
    (hG : ∀ t : Fin cfg0.N, t.val % 4 = 3 → ∀ r : Fin 512,
      (outsAt0 m c t.val t.isLt).2.1 (ix2 r 0) = G ⟨512 * (t.val / 4) + r.val, row_lt t r⟩) :
    (dats m 0 c).arrAt 5 cfg0.N = col G :=
  (dats m 0 c).arrAt_eq_of_cover 5 (col G) (fun t hf => funext fun j => flushed5_apply m c G hG t hf j) fun i => by
    have hi : (i 0).val < 4096 := idx2_lt0 i
    refine ⟨⟨4 * ((i 0).val / 512) + 3, last_lt ⟨(i 0).val, hi⟩⟩, (flush0_5 _).mpr (by dsimp only; omega), ?_⟩
    rw [mem_blk5]
    dsimp only
    omega

/-- Accumulator 1's array after the run, row by row. -/
theorem arrAt5_apply (c : Dev nD) (G : Fin 4096 → Elt F .f32)
    (hG : ∀ t : Fin cfg0.N, t.val % 4 = 3 → ∀ r : Fin 512,
      (outsAt0 m c t.val t.isLt).2.1 (ix2 r 0) = G ⟨512 * (t.val / 4) + r.val, row_lt t r⟩) (k : Fin 4096) :
    ((dats m 0 c).arrAt 5 cfg0.N : S4096x1.Idx → Elt F .f32) (ix2 k 0) = G k :=
  congrFun (final5 m c G hG) (ix2 k 0)

/-! ## Accumulator 2 -/

/-- What a last column block writes back of accumulator 2 is its block of the column of G. -/
theorem flushed6_apply (c : Dev nD) (G : Fin 4096 → Elt F .f32)
    (hG : ∀ t : Fin cfg0.N, t.val % 4 = 3 → ∀ r : Fin 512,
      (outsAt0 m c t.val t.isLt).2.2 (ix2 r 0) = G ⟨512 * (t.val / 4) + r.val, row_lt t r⟩)
    (t : Fin cfg0.N) (hf : (cfg0.win 6).flush t = true) (j : S512x1.Idx) :
    ((dats m 0 c).flushed 6 t : Vec F S512x1 .f32) j
      = (((cfg0.win 6).blk t).view.read (Elt F) (col G) : Vec F S512x1 .f32) j := by
  have h3 := (flush0_6 t).mp hf
  show (cfg0.win 6).cut (grid0.coords t) ((dats m 0 c).after 6 t) j = _
  rw [after0_6, View.read_apply]
  obtain ⟨r, u, rfl⟩ : ∃ (r : Fin 512) (u : Fin 1), j = ix2 r u := ⟨j 0, j 1, eq_ix2 j⟩
  obtain rfl : u = 0 := Subsingleton.elim _ _
  show (outsAt0 m c t.val t.isLt).2.2 (ix2 r 0) = G _
  rw [hG t h3 r]
  refine congrArg G (Fin.ext ?_)
  show 512 * (t.val / 4) + r.val = win0_6.index t (0 : Fin 2) * 512 + 1 * r.val
  rw [(idx_out t).2.2.2.2.1]; omega

/-- An index of the array is in point t's block of accumulator 2 iff its row is in t's row block. -/
theorem mem_blk6 (t : Fin cfg0.N) (i : S4096x1.Idx) :
    i ∈ ((cfg0.win 6).blk t).view.set ↔ 512 * (t.val / 4) ≤ (i 0).val ∧ (i 0).val < 512 * (t.val / 4) + 512 := by
  show i ∈ ((View.whole main_v15_2).slice (win0_6.rect t)).set ↔ _
  rw [View.set_slice_whole, Rect.mem_set_unit]
  constructor
  · intro h
    have h0 : win0_6.index t (0 : Fin 2) * 512 ≤ (i 0).val ∧ (i 0).val < win0_6.index t (0 : Fin 2) * 512 + 512 := h 0
    rw [(idx_out t).2.2.2.2.1] at h0
    omega
  · intro h a
    match a with
    | ⟨0, _⟩ =>
      show win0_6.index t (0 : Fin 2) * 512 ≤ (i 0).val ∧ (i 0).val < win0_6.index t (0 : Fin 2) * 512 + 512
      rw [(idx_out t).2.2.2.2.1]; omega
    | ⟨1, _⟩ =>
      show win0_6.index t (1 : Fin 2) * 1 ≤ (i 1).val ∧ (i 1).val < win0_6.index t (1 : Fin 2) * 1 + 1
      rw [(idx_out t).2.2.2.2.2]
      have : (i 1).val < 1 := (i 1).isLt
      omega

/-- Accumulator 2's array after the run is the column of G: every row is in the block its row block's last
    column block writes back. -/
theorem final6 (c : Dev nD) (G : Fin 4096 → Elt F .f32)
    (hG : ∀ t : Fin cfg0.N, t.val % 4 = 3 → ∀ r : Fin 512,
      (outsAt0 m c t.val t.isLt).2.2 (ix2 r 0) = G ⟨512 * (t.val / 4) + r.val, row_lt t r⟩) :
    (dats m 0 c).arrAt 6 cfg0.N = col G :=
  (dats m 0 c).arrAt_eq_of_cover 6 (col G) (fun t hf => funext fun j => flushed6_apply m c G hG t hf j) fun i => by
    have hi : (i 0).val < 4096 := idx2_lt0 i
    refine ⟨⟨4 * ((i 0).val / 512) + 3, last_lt ⟨(i 0).val, hi⟩⟩, (flush0_6 _).mpr (by dsimp only; omega), ?_⟩
    rw [mem_blk6]
    dsimp only
    omega

/-- Accumulator 2's array after the run, row by row. -/
theorem arrAt6_apply (c : Dev nD) (G : Fin 4096 → Elt F .f32)
    (hG : ∀ t : Fin cfg0.N, t.val % 4 = 3 → ∀ r : Fin 512,
      (outsAt0 m c t.val t.isLt).2.2 (ix2 r 0) = G ⟨512 * (t.val / 4) + r.val, row_lt t r⟩) (k : Fin 4096) :
    ((dats m 0 c).arrAt 6 cfg0.N : S4096x1.Idx → Elt F .f32) (ix2 k 0) = G k :=
  congrFun (final6 m c G hG) (ix2 k 0)

end Cert.KCover

end
-- ==== Proof.KValue.lean ====
/-
  The kernel's three output arrays after the region, as real numbers.

  With the stacked embeddings equal to the reals `R` and the class column and row equal to `cls` when the region is
  entered, row `k` of the three result arrays holds the three row sums of sample `k` over all 4096 columns: of the
  exponential of twice the similarity, of the similarity over the same-class columns, and of that exponential with the
  same-class columns counted as one. Each row block is written back after its fourth column block, where the
  accumulators hold the whole row sums.
-/
import proofs.«106012_j6571299963520_2_alg».proof.Proof.KIFrame
import Idealize.ShloMosaic.Lib.Pipeline.Value
import Idealize.ShloMosaic.Lib.ValueIdx
import Idealize.ShloMosaic.Lib.Tactic
import proofs.«106012_j6571299963520_2_alg».proof.Proof.KValueAcc
import proofs.«106012_j6571299963520_2_alg».proof.Proof.KCover

set_option maxRecDepth 16384

noncomputable section

namespace Cert.KValue

open Cert.KernelIdeal Cert.KernelIdeal.Gen Cert.KernelIdeal.Frm
open Idealize.ShloMosaic Idealize.ShloMosaic.TcCoe Idealize.SL.Sem
open Idealize.ShloMosaic.ValueIdx (ix2)

section
variable (m : (ℓ : Loc nD τ sig) → Buf (Elt Ideal) ℓ) (c : Dev nD)
  (R : Fin 4096 → Fin 768 → ℝ) (cls : Fin 4096 → BitVec 32)
  (h11 : ∀ (p : Fin 4096) (d : Fin 768), V m c main_v11 (ix2 p d) = ((R p d : ℝ) : EReal))
  (h13 : ∀ k : Fin 4096, V m c main_v13 (ix2 k 0) = cls k)
  (h14 : ∀ k : Fin 4096, V m c main_v14 (ix2 0 k) = cls k)
include h11 h13 h14

/-- The first result array: the row sums of the exponential of twice the similarity. -/
theorem arr4_apply (k : Fin 4096) :
    ((dats m 0 c).arrAt 4 cfg0.N : S4096x1.Idx → Elt Ideal .f32) (ix2 k 0) = ((Cert.Spec.expsum R k : ℝ) : EReal) :=
  Cert.KCover.arrAt4_apply m c (fun k => ((Cert.Spec.expsum R k : ℝ) : EReal))
    (fun t h3 r => (acc_last m c R cls h11 h13 h14 t h3 r).1) k

/-- The second result array: the row sums of the similarity over the same-class columns. -/
theorem arr5_apply (k : Fin 4096) :
    ((dats m 0 c).arrAt 5 cfg0.N : S4096x1.Idx → Elt Ideal .f32) (ix2 k 0) = ((Cert.Spec.samesim R cls k : ℝ) : EReal) :=
  Cert.KCover.arrAt5_apply m c (fun k => ((Cert.Spec.samesim R cls k : ℝ) : EReal))
    (fun t h3 r => (acc_last m c R cls h11 h13 h14 t h3 r).2.1) k

/-- The third result array: the row sums of the exponential with the same-class columns counted as one. -/
theorem arr6_apply (k : Fin 4096) :
    ((dats m 0 c).arrAt 6 cfg0.N : S4096x1.Idx → Elt Ideal .f32) (ix2 k 0) = ((Cert.Spec.denv R cls k : ℝ) : EReal) :=
  Cert.KCover.arrAt6_apply m c (fun k => ((Cert.Spec.denv R cls k : ℝ) : EReal))
    (fun t h3 r => (acc_last m c R cls h11 h13 h14 t h3 r).2.2) k

end

end Cert.KValue

end
-- ==== Proof.KTailReads.lean ====
import proofs.«106012_j6571299963520_2_alg».proof.Proof.Gen.KernelIdeal.Launch
import proofs.«106012_j6571299963520_2_alg».proof.Proof.LibHostRead

/-!
  The lines assembling the loss after the similarity region, read buffer by buffer. The 45 lines are in
  single-assignment form, so at the end each result buffer holds its own line's function of the final contents of
  that line's operands, and the four buffers the lines only read (the stacked embeddings and the region's three
  column outputs) hold what they held before. One equation per buffer, for every float instance.
-/

noncomputable section

namespace Cert.KTail

open Cert.KernelIdeal Cert.KernelIdeal.Gen Idealize.ShloMosaic Idealize.ShloMosaic.StableHlo LibHostRead

variable {F : FTy → Type} [FloatOps F]

/-- The buffers the 45 lines write, in order: one each. -/
abbrev W : List (Ref sig .tc) := [main_v16, main_v17, main_v18, main_v19, main_v20, main_cst_1, main_v21, main_v22, main_v23, main_v24, main_cst_2, main_v25, main_v26, main_cst_3, main_v27, main_v28, main_v29, main_v30, main_v31, main_cst_4, main_v32, main_v33, main_v34, main_v35, main_v36, main_cst_5, main_v37, main_cst_6, main_v38, main_cst_7, main_v39, main_v40, main_v41, main_v42, main_cst_8, main_v43, main_v44, main_v45, main_cst_9, main_v46, main_cst_10, main_v47, main_cst_11, main_v48, main_v49]

/-- Line number `k` writes exactly the `k`-th of these buffers. -/
theorem aligned : Aligned (hostOps1 : List (HloOp τ sig (Elt F))) W :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

variable (Wv : Valuation τ sig (Elt F))

/-- What a buffer holds once the 45 lines have run from the contents `Wv`. -/
abbrev fin (r : Ref sig .tc) : r.ty.Contents (Elt F) := after (hostOps1 (F := F)) Wv (Proc.devRef .tc r)

/-! ### One equation per buffer, in program order; then the four buffers only read -/

/-- Line 0: the buffer holds its operand re-laid in row-major order. -/
theorem r_main_v16 : fin Wv main_v16 = shapeCast S4096 (fin Wv main_v15_0) shapeCasts_S4096x1_S4096 :=
  after_reshape_fix aligned 0 rfl (by decide) (by decide) (by decide) Wv
/-- Line 1: the buffer holds its operand re-laid in row-major order. -/
theorem r_main_v17 : fin Wv main_v17 = shapeCast S4096 (fin Wv main_v15_1) shapeCasts_S4096x1_S4096 :=
  after_reshape_fix aligned 1 rfl (by decide) (by decide) (by decide) Wv
/-- Line 2: the buffer holds its operand re-laid in row-major order. -/
theorem r_main_v18 : fin Wv main_v18 = shapeCast S4096 (fin Wv main_v15_2) shapeCasts_S4096x1_S4096 :=
  after_reshape_fix aligned 2 rfl (by decide) (by decide) (by decide) Wv
/-- Line 3: the buffer holds the line's function of its operand's final contents. -/
theorem r_main_v19 : fin Wv main_v19 = extf .f32 (fin Wv main_v11) bitsLt_bf16_f32 :=
  after_unary_fix aligned 3 rfl (by decide) (by decide) (by decide) Wv
/-- Line 4: the buffer holds the line's function of its two operands' final contents. -/
theorem r_main_v20 : fin Wv main_v20 = mulf (fin Wv main_v19) (fin Wv main_v19) :=
  after_binary_fix aligned 4 rfl (by decide) (by decide) (by decide) (by decide) (by decide) Wv
/-- Line 5: the buffer holds the constant. -/
theorem r_main_cst_1 : fin Wv main_cst_1 = constant S_ .f32 0x00000000#32 :=
  after_nullary_fix aligned 5 rfl (by decide) Wv
/-- Line 6: the buffer holds the line's function of its two operands' final contents. -/
theorem r_main_v21 : fin Wv main_v21 = Host.reduceAdd (fin Wv main_v20) (fin Wv main_cst_1) reducesTo_S4096x768_S4096_d1 h_S_ :=
  after_binary_fix aligned 6 rfl (by decide) (by decide) (by decide) (by decide) (by decide) Wv
/-- Line 7: the buffer holds the line's function of its operand's final contents. -/
theorem r_main_v22 : fin Wv main_v22 = extractStridedSlice S2048x768 ![0, 0] (fin Wv main_v19) slices_S4096x768_S2048x768_0_0 :=
  after_unary_fix aligned 7 rfl (by decide) (by decide) (by decide) Wv
/-- Line 8: the buffer holds the line's function of its operand's final contents. -/
theorem r_main_v23 : fin Wv main_v23 = extractStridedSlice S2048x768 ![2048, 0] (fin Wv main_v19) slices_S4096x768_S2048x768_2048_0 :=
  after_unary_fix aligned 8 rfl (by decide) (by decide) (by decide) Wv
/-- Line 9: the buffer holds the line's function of its two operands' final contents. -/
theorem r_main_v24 : fin Wv main_v24 = mulf (fin Wv main_v22) (fin Wv main_v23) :=
  after_binary_fix aligned 9 rfl (by decide) (by decide) (by decide) (by decide) (by decide) Wv
/-- Line 10: the buffer holds the constant. -/
theorem r_main_cst_2 : fin Wv main_cst_2 = constant S_ .f32 0x00000000#32 :=
  after_nullary_fix aligned 10 rfl (by decide) Wv
/-- Line 11: the buffer holds the line's function of its two operands' final contents. -/
theorem r_main_v25 : fin Wv main_v25 = Host.reduceAdd (fin Wv main_v24) (fin Wv main_cst_2) reducesTo_S2048x768_S2048_d1 h_S_ :=
  after_binary_fix aligned 11 rfl (by decide) (by decide) (by decide) (by decide) (by decide) Wv
/-- Line 12: the buffer holds the line's function of its two operands' final contents. -/
theorem r_main_v26 : fin Wv main_v26 = concatenate S4096 0 [⟨S2048, (fin Wv main_v25)⟩, ⟨S2048, (fin Wv main_v25)⟩] concatenates_S2048_S2048_S4096_d0 :=
  after_binary_fix aligned 12 rfl (by decide) (by decide) (by decide) (by decide) (by decide) Wv
/-- Line 13: the buffer holds the constant. -/
theorem r_main_cst_3 : fin Wv main_cst_3 = constant S_ .f32 0x3F000000#32 :=
  after_nullary_fix aligned 13 rfl (by decide) Wv
/-- Line 14: the buffer holds the line's function of its operand's final contents. -/
theorem r_main_v27 : fin Wv main_v27 = broadcastInDim S4096 ![] bcast_S_S4096 (fin Wv main_cst_3) :=
  after_unary_fix aligned 14 rfl (by decide) (by decide) (by decide) Wv
/-- Line 15: the buffer holds the line's function of its two operands' final contents. -/
theorem r_main_v28 : fin Wv main_v28 = Host.divf (fin Wv main_v21) (fin Wv main_v27) :=
  after_binary_fix aligned 15 rfl (by decide) (by decide) (by decide) (by decide) (by decide) Wv
/-- Line 16: the buffer holds the line's function of its operand's final contents. -/
theorem r_main_v29 : fin Wv main_v29 = Host.exp (fin Wv main_v28) :=
  after_unary_fix aligned 16 rfl (by decide) (by decide) (by decide) Wv
/-- Line 17: the buffer holds the line's function of its two operands' final contents. -/
theorem r_main_v30 : fin Wv main_v30 = subf (fin Wv main_v16) (fin Wv main_v29) :=
  after_binary_fix aligned 17 rfl (by decide) (by decide) (by decide) (by decide) (by decide) Wv
/-- Line 18: the buffer holds the line's function of its two operands' final contents. -/
theorem r_main_v31 : fin Wv main_v31 = subf (fin Wv main_v17) (fin Wv main_v21) :=
  after_binary_fix aligned 18 rfl (by decide) (by decide) (by decide) (by decide) (by decide) Wv
/-- Line 19: the buffer holds the constant. -/
theorem r_main_cst_4 : fin Wv main_cst_4 = constant S_ .f32 0x3F000000#32 :=
  after_nullary_fix aligned 19 rfl (by decide) Wv
/-- Line 20: the buffer holds the line's function of its operand's final contents. -/
theorem r_main_v32 : fin Wv main_v32 = broadcastInDim S4096 ![] bcast_S_S4096 (fin Wv main_cst_4) :=
  after_unary_fix aligned 20 rfl (by decide) (by decide) (by decide) Wv
/-- Line 21: the buffer holds the line's function of its two operands' final contents. -/
theorem r_main_v33 : fin Wv main_v33 = Host.divf (fin Wv main_v26) (fin Wv main_v32) :=
  after_binary_fix aligned 21 rfl (by decide) (by decide) (by decide) (by decide) (by decide) Wv
/-- Line 22: the buffer holds the line's function of its operand's final contents. -/
theorem r_main_v34 : fin Wv main_v34 = Host.negf (fin Wv main_v33) :=
  after_unary_fix aligned 22 rfl (by decide) (by decide) (by decide) Wv
/-- Line 23: the buffer holds the line's function of its operand's final contents. -/
theorem r_main_v35 : fin Wv main_v35 = Host.log (fin Wv main_v30) :=
  after_unary_fix aligned 23 rfl (by decide) (by decide) (by decide) Wv
/-- Line 24: the buffer holds the line's function of its two operands' final contents. -/
theorem r_main_v36 : fin Wv main_v36 = addf (fin Wv main_v34) (fin Wv main_v35) :=
  after_binary_fix aligned 24 rfl (by decide) (by decide) (by decide) (by decide) (by decide) Wv
/-- Line 25: the buffer holds the constant. -/
theorem r_main_cst_5 : fin Wv main_cst_5 = constant S_ .f32 0x00000000#32 :=
  after_nullary_fix aligned 25 rfl (by decide) Wv
/-- Line 26: the buffer holds the line's function of its two operands' final contents. -/
theorem r_main_v37 : fin Wv main_v37 = Host.reduceAdd (fin Wv main_v36) (fin Wv main_cst_5) reducesTo_S4096_S_d0 h_S_ :=
  after_binary_fix aligned 26 rfl (by decide) (by decide) (by decide) (by decide) (by decide) Wv
/-- Line 27: the buffer holds the constant. -/
theorem r_main_cst_6 : fin Wv main_cst_6 = constant S_ .f32 0x46000000#32 :=
  after_nullary_fix aligned 27 rfl (by decide) Wv
/-- Line 28: the buffer holds the line's function of its two operands' final contents. -/
theorem r_main_v38 : fin Wv main_v38 = Host.divf (fin Wv main_v37) (fin Wv main_cst_6) :=
  after_binary_fix aligned 28 rfl (by decide) (by decide) (by decide) (by decide) (by decide) Wv
/-- Line 29: the buffer holds the constant. -/
theorem r_main_cst_7 : fin Wv main_cst_7 = constant S_ .f32 0x3F000000#32 :=
  after_nullary_fix aligned 29 rfl (by decide) Wv
/-- Line 30: the buffer holds the line's function of its operand's final contents. -/
theorem r_main_v39 : fin Wv main_v39 = broadcastInDim S4096 ![] bcast_S_S4096 (fin Wv main_cst_7) :=
  after_unary_fix aligned 30 rfl (by decide) (by decide) (by decide) Wv
/-- Line 31: the buffer holds the line's function of its two operands' final contents. -/
theorem r_main_v40 : fin Wv main_v40 = Host.divf (fin Wv main_v31) (fin Wv main_v39) :=
  after_binary_fix aligned 31 rfl (by decide) (by decide) (by decide) (by decide) (by decide) Wv
/-- Line 32: the buffer holds the line's function of its operand's final contents. -/
theorem r_main_v41 : fin Wv main_v41 = Host.negf (fin Wv main_v40) :=
  after_unary_fix aligned 32 rfl (by decide) (by decide) (by decide) Wv
/-- Line 33: the buffer holds the line's function of its operand's final contents. -/
theorem r_main_v42 : fin Wv main_v42 = Host.log (fin Wv main_v18) :=
  after_unary_fix aligned 33 rfl (by decide) (by decide) (by decide) Wv
/-- Line 34: the buffer holds the constant. -/
theorem r_main_cst_8 : fin Wv main_cst_8 = constant S_ .f32 0x45800000#32 :=
  after_nullary_fix aligned 34 rfl (by decide) Wv
/-- Line 35: the buffer holds the line's function of its operand's final contents. -/
theorem r_main_v43 : fin Wv main_v43 = broadcastInDim S4096 ![] bcast_S_S4096 (fin Wv main_cst_8) :=
  after_unary_fix aligned 35 rfl (by decide) (by decide) (by decide) Wv
/-- Line 36: the buffer holds the line's function of its two operands' final contents. -/
theorem r_main_v44 : fin Wv main_v44 = mulf (fin Wv main_v43) (fin Wv main_v42) :=
  after_binary_fix aligned 36 rfl (by decide) (by decide) (by decide) (by decide) (by decide) Wv
/-- Line 37: the buffer holds the line's function of its two operands' final contents. -/
theorem r_main_v45 : fin Wv main_v45 = addf (fin Wv main_v41) (fin Wv main_v44) :=
  after_binary_fix aligned 37 rfl (by decide) (by decide) (by decide) (by decide) (by decide) Wv
/-- Line 38: the buffer holds the constant. -/
theorem r_main_cst_9 : fin Wv main_cst_9 = constant S_ .f32 0x00000000#32 :=
  after_nullary_fix aligned 38 rfl (by decide) Wv
/-- Line 39: the buffer holds the line's function of its two operands' final contents. -/
theorem r_main_v46 : fin Wv main_v46 = Host.reduceAdd (fin Wv main_v45) (fin Wv main_cst_9) reducesTo_S4096_S_d0 h_S_ :=
  after_binary_fix aligned 39 rfl (by decide) (by decide) (by decide) (by decide) (by decide) Wv
/-- Line 40: the buffer holds the constant. -/
theorem r_main_cst_10 : fin Wv main_cst_10 = constant S_ .f32 0x46000000#32 :=
  after_nullary_fix aligned 40 rfl (by decide) Wv
/-- Line 41: the buffer holds the line's function of its two operands' final contents. -/
theorem r_main_v47 : fin Wv main_v47 = Host.divf (fin Wv main_v46) (fin Wv main_cst_10) :=
  after_binary_fix aligned 41 rfl (by decide) (by decide) (by decide) (by decide) (by decide) Wv
/-- Line 42: the buffer holds the constant. -/
theorem r_main_cst_11 : fin Wv main_cst_11 = constant S_ .f32 0x3C23D70A#32 :=
  after_nullary_fix aligned 42 rfl (by decide) Wv
/-- Line 43: the buffer holds the line's function of its two operands' final contents. -/
theorem r_main_v48 : fin Wv main_v48 = mulf (fin Wv main_cst_11) (fin Wv main_v47) :=
  after_binary_fix aligned 43 rfl (by decide) (by decide) (by decide) (by decide) (by decide) Wv
/-- Line 44: the buffer holds the line's function of its two operands' final contents. -/
theorem r_main_v49 : fin Wv main_v49 = addf (fin Wv main_v38) (fin Wv main_v48) :=
  after_binary_fix aligned 44 rfl (by decide) (by decide) (by decide) (by decide) (by decide) Wv
/-- No line writes this buffer: it holds what it held. -/
theorem r_main_v11 : fin Wv main_v11 = Wv (Proc.devRef .tc main_v11) :=
  after_of_not_written aligned (by decide) Wv
/-- No line writes this buffer: it holds what it held. -/
theorem r_main_v15_0 : fin Wv main_v15_0 = Wv (Proc.devRef .tc main_v15_0) :=
  after_of_not_written aligned (by decide) Wv
/-- No line writes this buffer: it holds what it held. -/
theorem r_main_v15_1 : fin Wv main_v15_1 = Wv (Proc.devRef .tc main_v15_1) :=
  after_of_not_written aligned (by decide) Wv
/-- No line writes this buffer: it holds what it held. -/
theorem r_main_v15_2 : fin Wv main_v15_2 = Wv (Proc.devRef .tc main_v15_2) :=
  after_of_not_written aligned (by decide) Wv

end Cert.KTail

end
-- ==== Proof.SpecEq.lean ====
import proofs.«106012_j6571299963520_2_alg».proof.Proof.Spec

/-!
  The running-sums arrangement of the loss equals the whole-matrix arrangement, as an identity of
  real numbers: the similarity is symmetric, the mask `1 - eye` removes exactly the diagonal term,
  the mask `1 - same` turns the same-class terms into `exp 0 = 1`, and `-log (eᵃ / d) = -a + log d`
  for a positive denominator `d`.
-/

namespace Cert.Spec

section generic

variable {ι : Type*} [Fintype ι] [DecidableEq ι]

/-- Dividing by one half is doubling. -/
theorem div_half (x : ℝ) : x / (1 / 2) = x * 2 := by ring

/-- Masking out the diagonal: `∑ j, (1 - [k = j]) * f j = (∑ j, f j) - f k`. -/
theorem sum_offdiag_mul (f : ι → ℝ) (k : ι) :
    ∑ j, (1 - (if k = j then (1 : ℝ) else 0)) * f j = (∑ j, f j) - f k := by
  simp [sub_mul, Finset.sum_sub_distrib]

/-- An off-diagonal sum of positive terms is positive as soon as some index differs from `k`. -/
theorem sum_offdiag_mul_pos (f : ι → ℝ) (hf : ∀ j, 0 < f j) (k : ι) (hk : ∃ j, j ≠ k) :
    0 < ∑ j, (1 - (if k = j then (1 : ℝ) else 0)) * f j := by
  obtain ⟨j0, hj0⟩ := hk
  apply Finset.sum_pos'
  · intro j _
    split_ifs <;> simp [(hf j).le]
  · refine ⟨j0, Finset.mem_univ _, ?_⟩
    rw [if_neg (Ne.symm hj0)]
    simpa using hf j0

/-- `-log (eᵃ / d) = -a + log d` for `d > 0`. -/
theorem neg_log_exp_div (a d : ℝ) (hd : 0 < d) :
    -Real.log (Real.exp a / d) = -a + Real.log d := by
  rw [Real.log_div (Real.exp_pos a).ne' hd.ne', Real.log_exp]; ring

/-- Summing `-log (e^{a j} / d)` over a finite index set gives `-(∑ a) + card * log d`. -/
theorem sum_neg_log_exp_div (a : ι → ℝ) (d : ℝ) (hd : 0 < d) :
    ∑ j, -Real.log (Real.exp (a j) / d) = -(∑ j, a j) + (Fintype.card ι : ℝ) * Real.log d := by
  simp only [neg_log_exp_div _ _ hd, Finset.sum_add_distrib, Finset.sum_neg_distrib,
    Finset.sum_const, Finset.card_univ, nsmul_eq_mul]

/-- The mask `[p j] - [k = j]` against `s`: the sum of `s` over `p`, minus the `k`-th term. -/
theorem sum_ind_sub_eye_mul (p : ι → Prop) [DecidablePred p] (s : ι → ℝ) (k : ι) :
    ∑ j, ((if p j then (1 : ℝ) else 0) - (if k = j then (1 : ℝ) else 0)) * s j
      = (∑ j, if p j then s j else 0) - s k := by
  simp [sub_mul, Finset.sum_sub_distrib]

end generic

variable (R : Fin 4096 → Fin 768 → ℝ) (cls : Fin 4096 → BitVec 32) (c : ℝ)

/-- The similarity is symmetric. -/
theorem sim_comm (i j : Fin 4096) : sim R i j = sim R j i := by
  unfold sim
  exact Finset.sum_congr rfl (fun d _ => mul_comm _ _)

/-- Both arrangements read the same positive-pair similarity, by symmetry. -/
theorem posK_eq_posR (k : Fin 4096) : posK R k = posR R k := by
  unfold posK posR
  split_ifs
  · rfl
  · exact sim_comm R _ _

/-- The masked denominator is the full exponential sum minus its diagonal term. -/
theorem denomR_eq (k : Fin 4096) :
    denomR R k = expsum R k - Real.exp (sim R k k / (1 / 2)) := by
  unfold denomR expsum eye
  rw [sum_offdiag_mul (fun j => Real.exp (sim R k j / (1 / 2))) k]
  simp only [div_half]

/-- The masked denominator is a sum of positive terms over `j ≠ k`, hence positive. -/
theorem denomR_pos (k : Fin 4096) : 0 < denomR R k := by
  unfold denomR eye
  exact sum_offdiag_mul_pos (fun j => Real.exp (sim R k j / (1 / 2)))
    (fun j => Real.exp_pos _) k (exists_ne k)

/-- Row `k` of the first loss term agrees in the two arrangements. -/
theorem row1_eq (k : Fin 4096) :
    -(posK R k / (1 / 2)) + Real.log (expsum R k - Real.exp (sim R k k / (1 / 2)))
      = -Real.log (Real.exp (posR R k / (1 / 2)) / denomR R k) := by
  rw [neg_log_exp_div _ _ (denomR_pos R k), posK_eq_posR, denomR_eq]

/-- The first loss term agrees in the two arrangements. -/
theorem kLoss1_eq_rLoss1 : kLoss1 R = rLoss1 R := by
  unfold kLoss1 rLoss1
  congr 1
  exact Finset.sum_congr rfl (fun k _ => row1_eq R k)

/-- Term by term: a same-class column contributes `exp 0 = 1`, any other `exp (2·sim)`. -/
theorem denv_eq_denVR (k : Fin 4096) : denv R cls k = denVR R cls k := by
  unfold denv denVR sameF
  refine Finset.sum_congr rfl (fun j _ => ?_)
  split_ifs
  · simp
  · rw [sub_zero, one_mul, div_half]

/-- A nonempty sum of exponentials is positive. -/
theorem denVR_pos (k : Fin 4096) : 0 < denVR R cls k := by
  unfold denVR
  exact Finset.sum_pos (fun j _ => Real.exp_pos _) Finset.univ_nonempty

/-- The masked similarity sum of row `k` is the same-class sum minus the diagonal term. -/
theorem sum_mask_sim (k : Fin 4096) :
    ∑ j : Fin 4096, (sameF cls k j - eye k j) * sim R k j / (1 / 2)
      = (samesim R cls k - sim R k k) / (1 / 2) := by
  rw [← Finset.sum_div]
  congr 1
  unfold samesim sameF eye
  exact sum_ind_sub_eye_mul (fun j => cls k = cls j) (fun j => sim R k j) k

/-- Row `k` of the second loss term agrees in the two arrangements. -/
theorem row2_eq (k : Fin 4096) :
    -((samesim R cls k - sim R k k) / (1 / 2)) + 4096 * Real.log (denv R cls k)
      = ∑ j : Fin 4096,
          -Real.log (Real.exp ((sameF cls k j - eye k j) * sim R k j / (1 / 2)) / denVR R cls k) := by
  rw [sum_neg_log_exp_div _ _ (denVR_pos R cls k), sum_mask_sim, denv_eq_denVR, Fintype.card_fin]
  norm_num

/-- The second loss term agrees in the two arrangements. -/
theorem kLoss2_eq_rLoss2 : kLoss2 R cls = rLoss2 R cls := by
  unfold kLoss2 rLoss2
  congr 1
  exact Finset.sum_congr rfl (fun k _ => row2_eq R cls k)

/-- The running-sums arrangement of the loss equals the whole-matrix arrangement. -/
theorem kLoss_eq_rLoss : kLoss R cls c = rLoss R cls c := by
  unfold kLoss rLoss
  rw [kLoss1_eq_rLoss1, kLoss2_eq_rLoss2]

end Cert.Spec
-- ==== Proof.KTail.lean ====
import proofs.«106012_j6571299963520_2_alg».proof.Proof.KTailReads
import proofs.«106012_j6571299963520_2_alg».proof.Proof.SpecEq
import proofs.«106012_j6571299963520_2_alg».proof.Proof.Consts
import proofs.«106012_j6571299963520_2_alg».proof.Proof.LibFiniteOps
import Idealize.ShloMosaic.Lib.Pipeline.Value
import Idealize.ShloMosaic.Lib.ValueIdx
import Idealize.ShloMosaic.PureOps.Ideal.Laws

/-!
  The lines assembling the loss after the similarity region, at the exact instance, as real numbers.

  Given that the stacked embeddings are the reals `R` and that the region's three column outputs are, row by row,
  the sum of `exp (2·sim)`, the sum of `sim` over the same-class columns, and the sum of `exp (2·sim)` with the
  same-class columns counted as 1, each buffer the lines write is read index by index: the diagonal similarity
  `sim k k` (a row's sum of squares), the positive-pair similarity (the row sums of the product of the two halves,
  stacked on itself), the two per-row terms, their sums over the 4096 rows divided by 8192, and the final
  combination — which is the running-sums arrangement `kLoss` of the loss.
-/

noncomputable section

namespace Cert.KTail

open Cert.KernelIdeal Cert.KernelIdeal.Gen Idealize.ShloMosaic Idealize.ShloMosaic.StableHlo
open Idealize.ShloMosaic.ValueIdx LibFinite

/-! ### Reading the shape operations at an index -/

section Helpers

variable {α : Type}

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The exact sum of an `[a, b]` array along its rows, from `init`: at `p`, `init` plus the sum of row `p`. -/
theorem hostReduceAdd_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (funext fun ax => Fin.ext (by match ax with | ⟨0, _⟩ => rfl | ⟨1, _⟩ => rfl))

/-- The exact sum of an `[n]` vector into a scalar, from `init`: `init` plus the sum of the entries. -/
theorem hostReduceAdd_vec {n : ℕ} {φ : FTy} {u t : Shape} (x : FVec Ideal ⟨1, ![n]⟩ φ) (init : u.Idx → Ideal φ)
    (h' : Shape.ReducesTo ⟨1, ![n]⟩ [0] t) (ht : ∀ b, t.size b = 1) (hu : 0 < u.numel) (j : t.Idx) :
    Host.reduceAdd x init h' hu j = init (Shape.Idx.first hu) + ∑ k : Fin n, x (ix1 k) := by
  simp only [Host.reduceAdd, Ideal.hostReduceAdd_def]
  rw [Ideal.hostReduceAdd_total h' ht, sum_idx1]

/-- An `[a, 1]` column re-laid as an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The first 2048 rows of a `[4096, 768]` array: row `a` of the slice is row `a`. -/
theorem slice_lo_apply (x : (⟨2, ![4096, 768]⟩ : Shape).Idx → α)
    (h : (⟨2, ![4096, 768]⟩ : Shape).Slices ![0, 0] ⟨2, ![2048, 768]⟩) (a : Fin 2048) (d : Fin 768) :
    extractStridedSlice ⟨2, ![2048, 768]⟩ ![0, 0] x h (ix2 a d) = x (ix2 (Spec.lo a) d) :=
  extractStridedSlice_apply _ x h _ _ (fun ax => by
    match ax with
    | ⟨0, _⟩ => show a.val = 0 + a.val; omega
    | ⟨1, _⟩ => show d.val = 0 + d.val; omega)

/-- The last 2048 rows of a `[4096, 768]` array: row `a` of the slice is row `a + 2048`. -/
theorem slice_hi_apply (x : (⟨2, ![4096, 768]⟩ : Shape).Idx → α)
    (h : (⟨2, ![4096, 768]⟩ : Shape).Slices ![2048, 0] ⟨2, ![2048, 768]⟩) (a : Fin 2048) (d : Fin 768) :
    extractStridedSlice ⟨2, ![2048, 768]⟩ ![2048, 0] x h (ix2 a d) = x (ix2 (Spec.hi a) d) :=
  extractStridedSlice_apply _ x h _ _ (fun ax => by
    match ax with
    | ⟨0, _⟩ => show a.val + 2048 = 2048 + a.val; omega
    | ⟨1, _⟩ => show d.val = 0 + d.val; omega)

/-- A `[2048]` vector stacked on itself: entry `k` of the `[4096]` result is entry `k mod 2048`. -/
theorem concat_self_apply (x : (⟨1, ![2048]⟩ : Shape).Idx → α)
    (h : Shape.Concatenates [(⟨1, ![2048]⟩ : Shape), ⟨1, ![2048]⟩] ⟨1, ![4096]⟩ 0) (k : Fin 4096) :
    concatenate ⟨1, ![4096]⟩ 0 [⟨⟨1, ![2048]⟩, x⟩, ⟨⟨1, ![2048]⟩, x⟩] h (ix1 k) = x (ix1 (Spec.fold k)) := by
  by_cases hk : k.val < 2048
  · refine concatenate_pair_apply_left 0 x x h (ix1 k) rfl (ix1 (Spec.fold k)) (fun b => ?_)
    match b with
    | ⟨0, _⟩ => show k.val % 2048 = k.val; exact Nat.mod_eq_of_lt hk
  · refine concatenate_pair_apply_right 0 x x h (ix1 k) rfl rfl (ix1 (Spec.fold k)) (fun b hb => ?_) ?_
    · exact absurd (Subsingleton.elim _ _) hb
    · show k.val % 2048 + 2048 = k.val
      have := k.isLt; omega

/-- An entry of a vector of ideal values, as the extended real it is. -/
abbrev rd (s : Shape) (φ : FTy) (v : FVec Ideal s φ) (i : s.Idx) : EReal := v i

/-- The exact quotient, entry by entry. -/
theorem hostDivf_rd {s : Shape} {φ : FTy} (a b : FVec Ideal s φ) (i : s.Idx) :
    rd s φ (Host.divf a b) i = Ideal.div (rd s φ a i) (rd s φ b i) := rfl

/-- The exact exponential, entry by entry. -/
theorem hostExp_rd {s : Shape} {φ : FTy} (a : FVec Ideal s φ) (i : s.Idx) :
    rd s φ (Host.exp a) i = Ideal.exp (rd s φ a i) := rfl

/-- The exact logarithm, entry by entry. -/
theorem hostLog_rd {s : Shape} {φ : FTy} (a : FVec Ideal s φ) (i : s.Idx) :
    rd s φ (Host.log a) i = Ideal.log (rd s φ a i) := rfl

/-- The negative, entry by entry. -/
theorem hostNegf_rd {s : Shape} {φ : FTy} (a : FVec Ideal s φ) (i : s.Idx) :
    rd s φ (Host.negf a) i = -(rd s φ a i) := rfl

/-- The product, entry by entry. -/
theorem mulf_rd {s : Shape} {φ : FTy} (a b : FVec Ideal s φ) (i : s.Idx) :
    rd s φ (mulf a b) i = rd s φ a i * rd s φ b i := rfl

/-- The sum, entry by entry. -/
theorem addf_rd {s : Shape} {φ : FTy} (a b : FVec Ideal s φ) (i : s.Idx) :
    rd s φ (addf a b) i = rd s φ a i + rd s φ b i := rfl

/-- The difference, entry by entry. -/
theorem subf_rd {s : Shape} {φ : FTy} (a b : FVec Ideal s φ) (i : s.Idx) :
    rd s φ (subf a b) i = rd s φ a i - rd s φ b i := rfl

end Helpers

variable (Wv : Valuation τ sig (Elt Ideal)) (R : Fin 4096 → Fin 768 → ℝ) (cls : Fin 4096 → BitVec 32)

/-! ### The constants -/

/-- The first zero a sum starts from. -/
theorem at_cst_1 (i : S_.Idx) : rd S_ .f32 (fin Wv main_cst_1) i = 0 := by
  rw [r_main_cst_1]
  exact Consts.ofBits_zero

/-- The second zero a sum starts from. -/
theorem at_cst_2 (i : S_.Idx) : rd S_ .f32 (fin Wv main_cst_2) i = 0 := by
  rw [r_main_cst_2]
  exact Consts.ofBits_zero

/-- The third zero a sum starts from. -/
theorem at_cst_5 (i : S_.Idx) : rd S_ .f32 (fin Wv main_cst_5) i = 0 := by
  rw [r_main_cst_5]
  exact Consts.ofBits_zero

/-- The fourth zero a sum starts from. -/
theorem at_cst_9 (i : S_.Idx) : rd S_ .f32 (fin Wv main_cst_9) i = 0 := by
  rw [r_main_cst_9]
  exact Consts.ofBits_zero

/-- The divisor 8192 of the first mean. -/
theorem at_cst_6 (i : S_.Idx) : rd S_ .f32 (fin Wv main_cst_6) i = ((8192 : ℝ) : EReal) := by
  rw [r_main_cst_6]
  exact Consts.ofBits_8192

/-- The divisor 8192 of the second mean. -/
theorem at_cst_10 (i : S_.Idx) : rd S_ .f32 (fin Wv main_cst_10) i = ((8192 : ℝ) : EReal) := by
  rw [r_main_cst_10]
  exact Consts.ofBits_8192

/-- The balance coefficient. -/
theorem at_cst_11 (i : S_.Idx) : rd S_ .f32 (fin Wv main_cst_11) i = ((Consts.c01 : ℝ) : EReal) := by
  rw [r_main_cst_11]
  exact Consts.ofBits_c01

/-- One half, repeated along the rows (first copy). -/
theorem at_v27 (i : S4096.Idx) : rd S4096 .f32 (fin Wv main_v27) i = (((1 / 2 : ℝ)) : EReal) := by
  rw [r_main_v27, r_main_cst_3]
  exact Consts.ofBits_half

/-- One half, repeated along the rows (second copy). -/
theorem at_v32 (i : S4096.Idx) : rd S4096 .f32 (fin Wv main_v32) i = (((1 / 2 : ℝ)) : EReal) := by
  rw [r_main_v32, r_main_cst_4]
  exact Consts.ofBits_half

/-- One half, repeated along the rows (third copy). -/
theorem at_v39 (i : S4096.Idx) : rd S4096 .f32 (fin Wv main_v39) i = (((1 / 2 : ℝ)) : EReal) := by
  rw [r_main_v39, r_main_cst_7]
  exact Consts.ofBits_half

/-- The count 4096, repeated along the rows. -/
theorem at_v43 (i : S4096.Idx) : rd S4096 .f32 (fin Wv main_v43) i = ((4096 : ℝ) : EReal) := by
  rw [r_main_v43, r_main_cst_8]
  exact Consts.ofBits_4096

/-! ### The embeddings, the diagonal similarity and the positive-pair similarity -/

section Emb

variable (h11 : ∀ (p : Fin 4096) (d : Fin 768), (Wv (Proc.devRef .tc main_v11) : FVec Ideal S4096x768 .bf16) (ix2 p d) = ((R p d : ℝ) : EReal))
include h11

/-- The stacked embeddings widened back (a change of format is the identity): the reals `R`. -/
theorem at_v19 (p : Fin 4096) (d : Fin 768) : rd S4096x768 .f32 (fin Wv main_v19) (ix2 p d) = ((R p d : ℝ) : EReal) := by
  rw [r_main_v19, r_main_v11]
  exact h11 p d

/-- Their squares. -/
theorem at_v20 (p : Fin 4096) (d : Fin 768) : rd S4096x768 .f32 (fin Wv main_v20) (ix2 p d) = ((R p d * R p d : ℝ) : EReal) := by
  rw [r_main_v20]
  refine (mulf_rd (s := S4096x768) (φ := .f32) (fin Wv main_v19) (fin Wv main_v19) (ix2 p d)).trans ?_
  rw [at_v19 Wv R h11 p d, EReal.coe_mul]

/-- The diagonal similarity: a row's sum of squares is `sim k k`. -/
theorem at_v21 (k : Fin 4096) : rd S4096 .f32 (fin Wv main_v21) (ix1 k) = ((Spec.sim R k k : ℝ) : EReal) := by
  rw [r_main_v21]
  refine (hostReduceAdd_row (a := 4096) (b := 768) (u := S_) (fin Wv main_v20) (fin Wv main_cst_1)
    reducesTo_S4096x768_S4096_d1 (by decide) h_S_ k).trans ?_
  show rd S_ .f32 (fin Wv main_cst_1) (Shape.Idx.first h_S_) + ∑ d : Fin 768, rd S4096x768 .f32 (fin Wv main_v20) (ix2 k d) = _
  rw [at_cst_1 Wv, zero_add, Finset.sum_congr rfl (fun d _ => at_v20 Wv R h11 k d), ← coe_finset_sum]
  rfl

/-- The first view's rows. -/
theorem at_v22 (a : Fin 2048) (d : Fin 768) : rd S2048x768 .f32 (fin Wv main_v22) (ix2 a d) = ((R (Spec.lo a) d : ℝ) : EReal) := by
  rw [r_main_v22]
  refine (slice_lo_apply (fin Wv main_v19) slices_S4096x768_S2048x768_0_0 a d).trans ?_
  exact at_v19 Wv R h11 (Spec.lo a) d

/-- The second view's rows. -/
theorem at_v23 (a : Fin 2048) (d : Fin 768) : rd S2048x768 .f32 (fin Wv main_v23) (ix2 a d) = ((R (Spec.hi a) d : ℝ) : EReal) := by
  rw [r_main_v23]
  refine (slice_hi_apply (fin Wv main_v19) slices_S4096x768_S2048x768_2048_0 a d).trans ?_
  exact at_v19 Wv R h11 (Spec.hi a) d

/-- The products of the two views' rows, entry by entry. -/
theorem at_v24 (a : Fin 2048) (d : Fin 768) : rd S2048x768 .f32 (fin Wv main_v24) (ix2 a d) = ((R (Spec.lo a) d * R (Spec.hi a) d : ℝ) : EReal) := by
  rw [r_main_v24]
  refine (mulf_rd (s := S2048x768) (φ := .f32) (fin Wv main_v22) (fin Wv main_v23) (ix2 a d)).trans ?_
  rw [at_v22 Wv R h11 a d, at_v23 Wv R h11 a d, EReal.coe_mul]

/-- The positive-pair similarity of pair `a`. -/
theorem at_v25 (a : Fin 2048) : rd S2048 .f32 (fin Wv main_v25) (ix1 a) = ((Spec.sim R (Spec.lo a) (Spec.hi a) : ℝ) : EReal) := by
  rw [r_main_v25]
  refine (hostReduceAdd_row (a := 2048) (b := 768) (u := S_) (fin Wv main_v24) (fin Wv main_cst_2)
    reducesTo_S2048x768_S2048_d1 (by decide) h_S_ a).trans ?_
  show rd S_ .f32 (fin Wv main_cst_2) (Shape.Idx.first h_S_) + ∑ d : Fin 768, rd S2048x768 .f32 (fin Wv main_v24) (ix2 a d) = _
  rw [at_cst_2 Wv, zero_add, Finset.sum_congr rfl (fun d _ => at_v24 Wv R h11 a d), ← coe_finset_sum]
  rfl

/-- …used for both members of the pair: the positive-pair similarity of sample `k`. -/
theorem at_v26 (k : Fin 4096) : rd S4096 .f32 (fin Wv main_v26) (ix1 k) = ((Spec.posK R k : ℝ) : EReal) := by
  rw [r_main_v26]
  refine (concat_self_apply (fin Wv main_v25) concatenates_S2048_S2048_S4096_d0 k).trans ?_
  exact at_v25 Wv R h11 (Spec.fold k)

/-- `sim k k / (1/2)`. -/
theorem at_v28 (k : Fin 4096) : rd S4096 .f32 (fin Wv main_v28) (ix1 k) = ((Spec.sim R k k / (1 / 2) : ℝ) : EReal) := by
  rw [r_main_v28]
  refine (hostDivf_rd (s := S4096) (φ := .f32) (fin Wv main_v21) (fin Wv main_v27) (ix1 k)).trans ?_
  rw [at_v21 Wv R h11 k, at_v27 Wv (ix1 k)]
  exact div_coe_coe _ (by norm_num)

/-- Its exponential: the diagonal term of the row's exponential sum. -/
theorem at_v29 (k : Fin 4096) : rd S4096 .f32 (fin Wv main_v29) (ix1 k) = ((Real.exp (Spec.sim R k k / (1 / 2)) : ℝ) : EReal) := by
  rw [r_main_v29]
  refine (hostExp_rd (s := S4096) (φ := .f32) (fin Wv main_v28) (ix1 k)).trans ?_
  rw [at_v28 Wv R h11 k, Ideal.exp_coe]

/-- `posK k / (1/2)`. -/
theorem at_v33 (k : Fin 4096) : rd S4096 .f32 (fin Wv main_v33) (ix1 k) = ((Spec.posK R k / (1 / 2) : ℝ) : EReal) := by
  rw [r_main_v33]
  refine (hostDivf_rd (s := S4096) (φ := .f32) (fin Wv main_v26) (fin Wv main_v32) (ix1 k)).trans ?_
  rw [at_v26 Wv R h11 k, at_v32 Wv (ix1 k)]
  exact div_coe_coe _ (by norm_num)

/-- Its negative. -/
theorem at_v34 (k : Fin 4096) : rd S4096 .f32 (fin Wv main_v34) (ix1 k) = ((-(Spec.posK R k / (1 / 2)) : ℝ) : EReal) := by
  rw [r_main_v34]
  refine (hostNegf_rd (s := S4096) (φ := .f32) (fin Wv main_v33) (ix1 k)).trans ?_
  rw [at_v33 Wv R h11 k]
  exact (EReal.coe_neg _).symm

/-! ### The first loss term -/

section First

variable (hE : ∀ k : Fin 4096, (Wv (Proc.devRef .tc main_v15_0) : FVec Ideal S4096x1 .f32) (ix2 k 0) = ((Spec.expsum R k : ℝ) : EReal))
include hE

/-- The region's first output, as a vector: the row's sum of `exp (2·sim)`. -/
theorem at_v16 (k : Fin 4096) : rd S4096 .f32 (fin Wv main_v16) (ix1 k) = ((Spec.expsum R k : ℝ) : EReal) := by
  rw [r_main_v16]
  refine (shapeCast_a1_a_apply (a := 4096) (fin Wv main_v15_0) shapeCasts_S4096x1_S4096 k).trans ?_
  rw [r_main_v15_0]
  exact hE k

/-- The exponential sum without its diagonal term. -/
theorem at_v30 (k : Fin 4096) : rd S4096 .f32 (fin Wv main_v30) (ix1 k) = ((Spec.expsum R k - Real.exp (Spec.sim R k k / (1 / 2)) : ℝ) : EReal) := by
  rw [r_main_v30]
  refine (subf_rd (s := S4096) (φ := .f32) (fin Wv main_v16) (fin Wv main_v29) (ix1 k)).trans ?_
  rw [at_v16 Wv R h11 hE k, at_v29 Wv R h11 k]
  exact (EReal.coe_sub _ _).symm

/-- Its logarithm: it is positive, being the sum of the off-diagonal exponentials. -/
theorem at_v35 (k : Fin 4096) : rd S4096 .f32 (fin Wv main_v35) (ix1 k) = ((Real.log (Spec.expsum R k - Real.exp (Spec.sim R k k / (1 / 2))) : ℝ) : EReal) := by
  have hpos : 0 < Spec.expsum R k - Real.exp (Spec.sim R k k / (1 / 2)) := by
    rw [← Spec.denomR_eq]; exact Spec.denomR_pos R k
  rw [r_main_v35]
  refine (hostLog_rd (s := S4096) (φ := .f32) (fin Wv main_v30) (ix1 k)).trans ?_
  rw [at_v30 Wv R h11 hE k, Ideal.log_coe, if_neg (not_le.mpr hpos)]

/-- Row `k`'s term of the first loss. -/
theorem at_v36 (k : Fin 4096) : rd S4096 .f32 (fin Wv main_v36) (ix1 k) = ((-(Spec.posK R k / (1 / 2)) + Real.log (Spec.expsum R k - Real.exp (Spec.sim R k k / (1 / 2))) : ℝ) : EReal) := by
  rw [r_main_v36]
  refine (addf_rd (s := S4096) (φ := .f32) (fin Wv main_v34) (fin Wv main_v35) (ix1 k)).trans ?_
  rw [at_v34 Wv R h11 k, at_v35 Wv R h11 hE k]
  exact (EReal.coe_add _ _).symm

/-- The sum of the 4096 rows' terms. -/
theorem at_v37 (j : S_.Idx) : rd S_ .f32 (fin Wv main_v37) j = ((∑ k : Fin 4096, (-(Spec.posK R k / (1 / 2)) + Real.log (Spec.expsum R k - Real.exp (Spec.sim R k k / (1 / 2)))) : ℝ) : EReal) := by
  rw [r_main_v37]
  refine (hostReduceAdd_vec (n := 4096) (u := S_) (t := S_) (fin Wv main_v36) (fin Wv main_cst_5)
    reducesTo_S4096_S_d0 (fun b => b.elim0) h_S_ j).trans ?_
  show rd S_ .f32 (fin Wv main_cst_5) (Shape.Idx.first h_S_) + ∑ k : Fin 4096, rd S4096 .f32 (fin Wv main_v36) (ix1 k) = _
  rw [at_cst_5 Wv, zero_add, Finset.sum_congr rfl (fun k _ => at_v36 Wv R h11 hE k), ← coe_finset_sum]

/-- Divided by 8192: the first loss term. -/
theorem at_v38 (j : S_.Idx) : rd S_ .f32 (fin Wv main_v38) j = ((Spec.kLoss1 R : ℝ) : EReal) := by
  rw [r_main_v38]
  refine (hostDivf_rd (s := S_) (φ := .f32) (fin Wv main_v37) (fin Wv main_cst_6) j).trans ?_
  rw [at_v37 Wv R h11 hE j, at_cst_6 Wv j]
  exact div_coe_coe _ (by norm_num)

end First

/-! ### The second loss term -/

section Second

variable (hS : ∀ k : Fin 4096, (Wv (Proc.devRef .tc main_v15_1) : FVec Ideal S4096x1 .f32) (ix2 k 0) = ((Spec.samesim R cls k : ℝ) : EReal)) (hD : ∀ k : Fin 4096, (Wv (Proc.devRef .tc main_v15_2) : FVec Ideal S4096x1 .f32) (ix2 k 0) = ((Spec.denv R cls k : ℝ) : EReal))

section
include hS

/-- The region's second output, as a vector: the row's sum of `sim` over the same-class columns. -/
theorem at_v17 (k : Fin 4096) : rd S4096 .f32 (fin Wv main_v17) (ix1 k) = ((Spec.samesim R cls k : ℝ) : EReal) := by
  rw [r_main_v17]
  refine (shapeCast_a1_a_apply (a := 4096) (fin Wv main_v15_1) shapeCasts_S4096x1_S4096 k).trans ?_
  rw [r_main_v15_1]
  exact hS k

/-- The same-class sum without the diagonal term. -/
theorem at_v31 (k : Fin 4096) : rd S4096 .f32 (fin Wv main_v31) (ix1 k) = ((Spec.samesim R cls k - Spec.sim R k k : ℝ) : EReal) := by
  rw [r_main_v31]
  refine (subf_rd (s := S4096) (φ := .f32) (fin Wv main_v17) (fin Wv main_v21) (ix1 k)).trans ?_
  rw [at_v17 Wv R cls h11 hS k, at_v21 Wv R h11 k]
  exact (EReal.coe_sub _ _).symm

/-- Divided by one half. -/
theorem at_v40 (k : Fin 4096) : rd S4096 .f32 (fin Wv main_v40) (ix1 k) = (((Spec.samesim R cls k - Spec.sim R k k) / (1 / 2) : ℝ) : EReal) := by
  rw [r_main_v40]
  refine (hostDivf_rd (s := S4096) (φ := .f32) (fin Wv main_v31) (fin Wv main_v39) (ix1 k)).trans ?_
  rw [at_v31 Wv R cls h11 hS k, at_v39 Wv (ix1 k)]
  exact div_coe_coe _ (by norm_num)

/-- Its negative. -/
theorem at_v41 (k : Fin 4096) : rd S4096 .f32 (fin Wv main_v41) (ix1 k) = ((-((Spec.samesim R cls k - Spec.sim R k k) / (1 / 2)) : ℝ) : EReal) := by
  rw [r_main_v41]
  refine (hostNegf_rd (s := S4096) (φ := .f32) (fin Wv main_v40) (ix1 k)).trans ?_
  rw [at_v40 Wv R cls h11 hS k]
  exact (EReal.coe_neg _).symm

end

section
include hD

/-- The region's third output, as a vector: the row's sum with the same-class columns counted as 1. -/
theorem at_v18 (k : Fin 4096) : rd S4096 .f32 (fin Wv main_v18) (ix1 k) = ((Spec.denv R cls k : ℝ) : EReal) := by
  rw [r_main_v18]
  refine (shapeCast_a1_a_apply (a := 4096) (fin Wv main_v15_2) shapeCasts_S4096x1_S4096 k).trans ?_
  rw [r_main_v15_2]
  exact hD k

/-- Its logarithm: it is a nonempty sum of ones and exponentials, hence positive. -/
theorem at_v42 (k : Fin 4096) : rd S4096 .f32 (fin Wv main_v42) (ix1 k) = ((Real.log (Spec.denv R cls k) : ℝ) : EReal) := by
  have hpos : 0 < Spec.denv R cls k := by
    rw [Spec.denv_eq_denVR]; exact Spec.denVR_pos R cls k
  rw [r_main_v42]
  refine (hostLog_rd (s := S4096) (φ := .f32) (fin Wv main_v18) (ix1 k)).trans ?_
  rw [at_v18 Wv R cls h11 hD k, Ideal.log_coe, if_neg (not_le.mpr hpos)]

/-- 4096 times it. -/
theorem at_v44 (k : Fin 4096) : rd S4096 .f32 (fin Wv main_v44) (ix1 k) = ((4096 * Real.log (Spec.denv R cls k) : ℝ) : EReal) := by
  rw [r_main_v44]
  refine (mulf_rd (s := S4096) (φ := .f32) (fin Wv main_v43) (fin Wv main_v42) (ix1 k)).trans ?_
  rw [at_v43 Wv (ix1 k), at_v42 Wv R cls h11 hD k]
  exact (EReal.coe_mul _ _).symm

end

include hS hD

/-- Row `k`'s term of the second loss. -/
theorem at_v45 (k : Fin 4096) : rd S4096 .f32 (fin Wv main_v45) (ix1 k) = ((-((Spec.samesim R cls k - Spec.sim R k k) / (1 / 2)) + 4096 * Real.log (Spec.denv R cls k) : ℝ) : EReal) := by
  rw [r_main_v45]
  refine (addf_rd (s := S4096) (φ := .f32) (fin Wv main_v41) (fin Wv main_v44) (ix1 k)).trans ?_
  rw [at_v41 Wv R cls h11 hS k, at_v44 Wv R cls h11 hD k]
  exact (EReal.coe_add _ _).symm

/-- The sum of the 4096 rows' terms. -/
theorem at_v46 (j : S_.Idx) : rd S_ .f32 (fin Wv main_v46) j = ((∑ k : Fin 4096, (-((Spec.samesim R cls k - Spec.sim R k k) / (1 / 2)) + 4096 * Real.log (Spec.denv R cls k)) : ℝ) : EReal) := by
  rw [r_main_v46]
  refine (hostReduceAdd_vec (n := 4096) (u := S_) (t := S_) (fin Wv main_v45) (fin Wv main_cst_9)
    reducesTo_S4096_S_d0 (fun b => b.elim0) h_S_ j).trans ?_
  show rd S_ .f32 (fin Wv main_cst_9) (Shape.Idx.first h_S_) + ∑ k : Fin 4096, rd S4096 .f32 (fin Wv main_v45) (ix1 k) = _
  rw [at_cst_9 Wv, zero_add, Finset.sum_congr rfl (fun k _ => at_v45 Wv R cls h11 hS hD k), ← coe_finset_sum]

/-- Divided by 8192: the second loss term. -/
theorem at_v47 (j : S_.Idx) : rd S_ .f32 (fin Wv main_v47) j = ((Spec.kLoss2 R cls : ℝ) : EReal) := by
  rw [r_main_v47]
  refine (hostDivf_rd (s := S_) (φ := .f32) (fin Wv main_v46) (fin Wv main_cst_10) j).trans ?_
  rw [at_v46 Wv R cls h11 hS hD j, at_cst_10 Wv j]
  exact div_coe_coe _ (by norm_num)

/-- Weighted by the balance coefficient. -/
theorem at_v48 (j : S_.Idx) : rd S_ .f32 (fin Wv main_v48) j = ((Consts.c01 * Spec.kLoss2 R cls : ℝ) : EReal) := by
  rw [r_main_v48]
  refine (mulf_rd (s := S_) (φ := .f32) (fin Wv main_cst_11) (fin Wv main_v47) j).trans ?_
  rw [at_cst_11 Wv j, at_v47 Wv R cls h11 hS hD j]
  exact (EReal.coe_mul _ _).symm

end Second

end Emb

/-! ### The loss -/

/-- The lines after the region leave, in the result buffer, the running-sums arrangement of the loss. -/
theorem tail_eq (h11 : ∀ (p : Fin 4096) (d : Fin 768), (Wv (Proc.devRef .tc main_v11) : FVec Ideal S4096x768 .bf16) (ix2 p d) = ((R p d : ℝ) : EReal))
    (hE : ∀ k : Fin 4096, (Wv (Proc.devRef .tc main_v15_0) : FVec Ideal S4096x1 .f32) (ix2 k 0) = ((Spec.expsum R k : ℝ) : EReal))
    (hS : ∀ k : Fin 4096, (Wv (Proc.devRef .tc main_v15_1) : FVec Ideal S4096x1 .f32) (ix2 k 0) = ((Spec.samesim R cls k : ℝ) : EReal))
    (hD : ∀ k : Fin 4096, (Wv (Proc.devRef .tc main_v15_2) : FVec Ideal S4096x1 .f32) (ix2 k 0) = ((Spec.denv R cls k : ℝ) : EReal)) :
    StableHlo.after (hostOps1 (F := Ideal)) Wv (Proc.devRef .tc main_v49)
      = fun _ => ((Spec.kLoss R cls Consts.c01 : ℝ) : EReal) := by
  funext j
  show rd S_ .f32 (fin Wv main_v49) j = _
  rw [r_main_v49]
  refine (addf_rd (s := S_) (φ := .f32) (fin Wv main_v38) (fin Wv main_v48) j).trans ?_
  rw [at_v38 Wv R h11 hE j, at_v48 Wv R cls h11 hS hD j]
  exact (EReal.coe_add _ _).symm

end Cert.KTail

end
-- ==== Proof.RefValueC.lean ====
/-
  The two off-diagonals of the similarity matrix.

  The reference reads the diagonal at offset 2048 as the entries `(i, i + 2048)` and the one at offset -2048 as the
  entries `(i + 2048, i)`, `i < 2048`, by a gather whose index vectors are built from counting words: the row and
  column numbers are small non-negative words, so the "negative index: add the extent" adjustment never applies and the
  clamping into the matrix changes nothing. Laid end to end, the two diagonals give for sample `k` the similarity of
  `k` with its other view.
-/
import proofs.«106012_j6571299963520_2_alg».proof.Proof.Gen.ReferenceIdeal.Read
import proofs.«106012_j6571299963520_2_alg».proof.Proof.Spec
import proofs.«106012_j6571299963520_2_alg».proof.Proof.Consts
import proofs.«106012_j6571299963520_2_alg».proof.Proof.LibFinite
import proofs.«106012_j6571299963520_2_alg».proof.Proof.LibFiniteOps
import proofs.«106012_j6571299963520_2_alg».proof.Proof.RefValueA

noncomputable section

namespace Cert.RefValue

open Cert.ReferenceIdeal Cert.ReferenceIdeal.Read Idealize.ShloMosaic

/-- A small counting word read as a signed integer is the number. -/
theorem toInt_ofNat32_small {n : Nat} (hn : n < 8192) : (BitVec.ofNat 32 n).toInt = (n : Int) := by
  have h : (BitVec.ofNat 32 n).toNat = n := by
    rw [BitVec.toNat_ofNat]; omega
  rw [BitVec.toInt_eq_toNat_of_lt (by rw [h]; omega), h]

/-- A select on "a small counting word is negative" takes its second operand. -/
theorem select_neg_small {n : Nat} (hn : n < 8192) (a b : BitVec 32) :
    Scalar.select (IntOp.cmpi .slt (BitVec.ofNat 32 n) 0#32) a b = b := by
  have h : IntOp.cmpi .slt (BitVec.ofNat 32 n) 0#32 = 0#1 := by
    refine ValueIdx.eq_zero_of_ne_one fun h1 => ?_
    have := IntOp.cmpi_slt.mp h1
    rw [toInt_ofNat32_small hn] at this
    simp at this
    omega
  rw [h]; exact ValueIdx.select_zero a b

/-- The gather of single entries of a square matrix at index vectors `(p, q)` that lie inside it reads entry `(p, q)`. -/
theorem gather_entry_apply (x : S4096x4096.Idx → EReal) (idx : S2048x2.Idx → BitVec 32) (i : Fin 2048) (p q : Fin 4096)
    (hp : (idx (ValueIdx.ix2 i 0)).toInt = (p.val : Int)) (hq : (idx (ValueIdx.ix2 i 1)).toInt = (q.val : Int)) :
    Host.gather gather_S4096x4096_S2048x2_S2048_n_01_n_n_01_1_11 x idx (ValueIdx.ix1 i) = x (ValueIdx.ix2 p q) := by
  unfold Host.gather
  congr 1
  funext a
  refine Fin.ext ?_
  show gather_S4096x4096_S2048x2_S2048_n_01_n_n_01_1_11.start (ValueIdx.ix1 i) idx a
    + gather_S4096x4096_S2048x2_S2048_n_01_n_n_01_1_11.batchCoord (ValueIdx.ix1 i) a
    + gather_S4096x4096_S2048x2_S2048_n_01_n_n_01_1_11.offCoord (ValueIdx.ix1 i) a = _
  rw [GatherDims.batchCoord_eq_zero _ _ _ List.not_mem_nil]
  have ha : a = 0 ∨ a = 1 := by
    rcases a with ⟨v, hv⟩
    have hv2 : v < 2 := hv
    rcases v with _ | _ | v
    · left; rfl
    · right; rfl
    · omega
  rcases ha with rfl | rfl
  · rw [GatherDims.offCoord_eq_zero _ _ _ (fun h => ((GatherDims.mem_sKept _ _).mp h).1 (by decide))]
    simp only [Nat.add_zero]
    unfold GatherDims.start
    rw [dif_pos (show (0 : Fin 2) ∈ gather_S4096x4096_S2048x2_S2048_n_01_n_n_01_1_11.startIndexMap by decide)]
    have hsi : gather_S4096x4096_S2048x2_S2048_n_01_n_n_01_1_11.siIdx (ValueIdx.ix1 i)
        ⟨List.idxOf (0 : Fin 2) gather_S4096x4096_S2048x2_S2048_n_01_n_n_01_1_11.startIndexMap,
          List.idxOf_lt_length_iff.2 (by decide)⟩ = ValueIdx.ix2 i 0 := by
      funext b; refine Fin.ext ?_
      match b with
      | ⟨0, _⟩ => rfl
      | ⟨1, _⟩ => rfl
    rw [hsi, hp]
    show min (Int.toNat (p.val : Int)) (4096 - 1) = p.val
    have := p.isLt; omega
  · rw [GatherDims.offCoord_eq_zero _ _ _ (fun h => ((GatherDims.mem_sKept _ _).mp h).1 (by decide))]
    simp only [Nat.add_zero]
    unfold GatherDims.start
    rw [dif_pos (show (1 : Fin 2) ∈ gather_S4096x4096_S2048x2_S2048_n_01_n_n_01_1_11.startIndexMap by decide)]
    have hsi : gather_S4096x4096_S2048x2_S2048_n_01_n_n_01_1_11.siIdx (ValueIdx.ix1 i)
        ⟨List.idxOf (1 : Fin 2) gather_S4096x4096_S2048x2_S2048_n_01_n_n_01_1_11.startIndexMap,
          List.idxOf_lt_length_iff.2 (by decide)⟩ = ValueIdx.ix2 i 1 := by
      funext b; refine Fin.ext ?_
      match b with
      | ⟨0, _⟩ => rfl
      | ⟨1, _⟩ => rfl
    rw [hsi, hq]
    show min (Int.toNat (q.val : Int)) (4096 - 1) = q.val
    have := q.isLt; omega

/-- The row numbers of the first gather: the counting word of `i`. -/
theorem idxA_0 (i : Fin 2048) :
    (val_main_call2_v16 (F := Ideal) (ValueIdx.ix2 i 0)).toInt = ((Cert.Spec.lo i).val : Int) := by
  have e : val_main_call2_v16 (F := Ideal) (ValueIdx.ix2 i 0) = val_main_call2_v14 (F := Ideal) (ValueIdx.ix2 i 0) := by
    unfold val_main_call2_v16
    refine concatenate_pair_apply_left 1 (val_main_call2_v14 (F := Ideal)) (val_main_call2_v15 (F := Ideal))
      Gen.concatenates_S2048x1_S2048x1_S2048x2_d1
      (ValueIdx.ix2 i 0) rfl (ValueIdx.ix2 i 0) (fun b => ?_)
    match b with
    | ⟨0, _⟩ => rfl
    | ⟨1, _⟩ => rfl
  rw [e, val_main_call2_v14_apply, val_main_call2_v8_apply, val_main_call2_v5_apply, val_main_call2_v0_apply]
  show (Scalar.select (IntOp.cmpi .slt (BitVec.ofNat 32 i.val) _) _ (BitVec.ofNat 32 i.val)).toInt = _
  rw [val_main_call2_v4_apply, val_main_call2_c_0_apply, select_neg_small (by omega), toInt_ofNat32_small (by omega)]
  rfl

/-- The column numbers of the first gather: the counting word of `i + 2048`. -/
theorem idxA_1 (i : Fin 2048) :
    (val_main_call2_v16 (F := Ideal) (ValueIdx.ix2 i 1)).toInt = ((Cert.Spec.hi i).val : Int) := by
  have e : val_main_call2_v16 (F := Ideal) (ValueIdx.ix2 i 1) = val_main_call2_v15 (F := Ideal) (ValueIdx.ix2 i 0) := by
    unfold val_main_call2_v16
    refine concatenate_pair_apply_right 1 (val_main_call2_v14 (F := Ideal)) (val_main_call2_v15 (F := Ideal))
      Gen.concatenates_S2048x1_S2048x1_S2048x2_d1
      (ValueIdx.ix2 i 1) rfl rfl (ValueIdx.ix2 i 0) (fun b hb => ?_) rfl
    match b with
    | ⟨0, _⟩ => rfl
    | ⟨1, _⟩ => exact absurd rfl hb
  rw [e, val_main_call2_v15_apply, val_main_call2_v13_apply, val_main_call2_v10_apply, val_main_call2_v3_apply,
    val_main_call2_v2_apply, val_main_call2_c_apply, val_main_call2_v1_apply]
  show (Scalar.select (IntOp.cmpi .slt (2048#32 + BitVec.ofNat 32 i.val) _) _ (2048#32 + BitVec.ofNat 32 i.val)).toInt = _
  have h : (2048#32 + BitVec.ofNat 32 i.val) = BitVec.ofNat 32 (2048 + i.val) := (BitVec.ofNat_add 2048 i.val).symm
  rw [h, val_main_call2_v9_apply, val_main_call2_c_2_apply, select_neg_small (by omega), toInt_ofNat32_small (by omega)]
  show ((2048 + i.val : Nat) : Int) = ((i.val + 2048 : Nat) : Int)
  omega

/-- The row numbers of the second gather: the counting word of `i + 2048`. -/
theorem idxB_0 (i : Fin 2048) :
    (val_main_call3_v16 (F := Ideal) (ValueIdx.ix2 i 0)).toInt = ((Cert.Spec.hi i).val : Int) := by
  have e : val_main_call3_v16 (F := Ideal) (ValueIdx.ix2 i 0) = val_main_call3_v14 (F := Ideal) (ValueIdx.ix2 i 0) := by
    unfold val_main_call3_v16
    refine concatenate_pair_apply_left 1 (val_main_call3_v14 (F := Ideal)) (val_main_call3_v15 (F := Ideal))
      Gen.concatenates_S2048x1_S2048x1_S2048x2_d1
      (ValueIdx.ix2 i 0) rfl (ValueIdx.ix2 i 0) (fun b => ?_)
    match b with
    | ⟨0, _⟩ => rfl
    | ⟨1, _⟩ => rfl
  rw [e, val_main_call3_v14_apply, val_main_call3_v8_apply, val_main_call3_v5_apply, val_main_call3_v3_apply,
    val_main_call3_v2_apply, val_main_call3_c_apply, val_main_call3_v1_apply]
  show (Scalar.select (IntOp.cmpi .slt (2048#32 + BitVec.ofNat 32 i.val) _) _ (2048#32 + BitVec.ofNat 32 i.val)).toInt = _
  have h : (2048#32 + BitVec.ofNat 32 i.val) = BitVec.ofNat 32 (2048 + i.val) := (BitVec.ofNat_add 2048 i.val).symm
  rw [h, val_main_call3_v4_apply, val_main_call3_c_0_apply, select_neg_small (by omega), toInt_ofNat32_small (by omega)]
  show ((2048 + i.val : Nat) : Int) = ((i.val + 2048 : Nat) : Int)
  omega

/-- The column numbers of the second gather: the counting word of `i`. -/
theorem idxB_1 (i : Fin 2048) :
    (val_main_call3_v16 (F := Ideal) (ValueIdx.ix2 i 1)).toInt = ((Cert.Spec.lo i).val : Int) := by
  have e : val_main_call3_v16 (F := Ideal) (ValueIdx.ix2 i 1) = val_main_call3_v15 (F := Ideal) (ValueIdx.ix2 i 0) := by
    unfold val_main_call3_v16
    refine concatenate_pair_apply_right 1 (val_main_call3_v14 (F := Ideal)) (val_main_call3_v15 (F := Ideal))
      Gen.concatenates_S2048x1_S2048x1_S2048x2_d1
      (ValueIdx.ix2 i 1) rfl rfl (ValueIdx.ix2 i 0) (fun b hb => ?_) rfl
    match b with
    | ⟨0, _⟩ => rfl
    | ⟨1, _⟩ => exact absurd rfl hb
  rw [e, val_main_call3_v15_apply, val_main_call3_v13_apply, val_main_call3_v10_apply, val_main_call3_v0_apply]
  show (Scalar.select (IntOp.cmpi .slt (BitVec.ofNat 32 i.val) _) _ (BitVec.ofNat 32 i.val)).toInt = _
  rw [val_main_call3_v9_apply, val_main_call3_c_2_apply, select_neg_small (by omega), toInt_ofNat32_small (by omega)]
  rfl

/-- The diagonal at offset 2048: entry `i` is the similarity of sample `i` of the first view with sample `i` of the second. -/
theorem diagA_apply (x0 x1 : (⟨S2048x768, .f32⟩ : BufTy).Contents (Elt Ideal)) (i : Fin 2048) :
    val_main_v19 (F := Ideal) x0 x1 (ValueIdx.ix1 i)
      = val_main_v12 (F := Ideal) x0 x1 (ValueIdx.ix2 (Cert.Spec.lo i) (Cert.Spec.hi i)) := by
  unfold val_main_v19
  exact gather_entry_apply _ _ i _ _ (idxA_0 i) (idxA_1 i)

/-- The diagonal at offset -2048: entry `i` is the similarity of sample `i` of the second view with sample `i` of the first. -/
theorem diagB_apply (x0 x1 : (⟨S2048x768, .f32⟩ : BufTy).Contents (Elt Ideal)) (i : Fin 2048) :
    val_main_v20 (F := Ideal) x0 x1 (ValueIdx.ix1 i)
      = val_main_v12 (F := Ideal) x0 x1 (ValueIdx.ix2 (Cert.Spec.hi i) (Cert.Spec.lo i)) := by
  unfold val_main_v20
  exact gather_entry_apply _ _ i _ _ (idxB_0 i) (idxB_1 i)

/-- The two diagonals laid end to end: entry `k` is the similarity of sample `k` with its other view. -/
theorem pos_apply (x0 x1 : (⟨S2048x768, .f32⟩ : BufTy).Contents (Elt Ideal)) (R : Fin 4096 → Fin 768 → ℝ)
    (hR : ∀ (p : Fin 4096) (d : Fin 768), val_main_v10 (F := Ideal) x0 x1 (ValueIdx.ix2 p d) = ((R p d : ℝ) : EReal))
    (k : Fin 4096) :
    val_main_v21 (F := Ideal) x0 x1 (ValueIdx.ix1 k) = ((Cert.Spec.posR R k : ℝ) : EReal) := by
  unfold Cert.Spec.posR
  by_cases hk : k.val < 2048
  · rw [if_pos hk, ← sim_apply x0 x1 R hR, ← diagA_apply]
    unfold val_main_v21
    refine concatenate_pair_apply_left 0 (val_main_v19 (F := Ideal) x0 x1) (val_main_v20 (F := Ideal) x0 x1)
      Gen.concatenates_S2048_S2048_S4096_d0
      (ValueIdx.ix1 k) rfl (ValueIdx.ix1 (Cert.Spec.fold k)) (fun b => ?_)
    match b with
    | ⟨0, _⟩ => show k.val % 2048 = k.val; omega
  · rw [if_neg hk, ← sim_apply x0 x1 R hR, ← diagB_apply]
    unfold val_main_v21
    refine concatenate_pair_apply_right 0 (val_main_v19 (F := Ideal) x0 x1) (val_main_v20 (F := Ideal) x0 x1)
      Gen.concatenates_S2048_S2048_S4096_d0
      (ValueIdx.ix1 k) rfl rfl (ValueIdx.ix1 (Cert.Spec.fold k)) (fun b hb => ?_) ?_
    · match b with
      | ⟨0, _⟩ => exact absurd rfl hb
    · show k.val % 2048 + 2048 = k.val
      have := k.isLt; omega

end Cert.RefValue

end
-- ==== Proof.RefValueD.lean ====
/-
  The first loss, read as a real number.

  For sample `k`: the positive-pair similarity divided by the temperature one half, its exponential; the masked row sum
  `∑ j, (1 - eye k j) * exp (sim k j / (1/2))`, which is positive because every term is non-negative and a column other
  than `k` contributes a positive one; the quotient of the two, a positive real; minus its logarithm. The loss is the
  sum of these over the 4096 samples divided by 8192.
-/
import proofs.«106012_j6571299963520_2_alg».proof.Proof.Gen.ReferenceIdeal.Read
import proofs.«106012_j6571299963520_2_alg».proof.Proof.Spec
import proofs.«106012_j6571299963520_2_alg».proof.Proof.Consts
import proofs.«106012_j6571299963520_2_alg».proof.Proof.LibFinite
import proofs.«106012_j6571299963520_2_alg».proof.Proof.LibFiniteOps
import proofs.«106012_j6571299963520_2_alg».proof.Proof.RefValueA
import proofs.«106012_j6571299963520_2_alg».proof.Proof.RefValueC

noncomputable section

namespace Cert.RefValue

open Cert.ReferenceIdeal Cert.ReferenceIdeal.Read Idealize.ShloMosaic

theorem half_ne : ((1 : ℝ) / 2) ≠ 0 := by norm_num
theorem c8192_ne : (8192 : ℝ) ≠ 0 := by norm_num

/-- A rank-1 index set is its coordinate range … -/
def idxEquiv1 {n : Nat} : (⟨1, ![n]⟩ : Shape).Idx ≃ Fin n where
  toFun j := j 0
  invFun a := ValueIdx.ix1 a
  left_inv j := (ValueIdx.eq_ix1 j).symm
  right_inv _ := rfl
/-- … so a sum over it is the sum over the coordinate. -/
theorem sum_idx1 {M : Type*} [AddCommMonoid M] {n : Nat} (f : (⟨1, ![n]⟩ : Shape).Idx → M) :
    ∑ j, f j = ∑ a : Fin n, f (ValueIdx.ix1 a) := by
  rw [← Equiv.sum_comp (idxEquiv1 (n := n)).symm f]
  rfl

/-- The masked row sum of the first loss is positive. -/
theorem denomR_pos (R : Fin 4096 → Fin 768 → ℝ) (k : Fin 4096) : 0 < Cert.Spec.denomR R k := by
  unfold Cert.Spec.denomR
  obtain ⟨j, hj⟩ : ∃ j : Fin 4096, k ≠ j := by
    by_cases h : k = 0
    · exact ⟨1, by rw [h]; decide⟩
    · exact ⟨0, h⟩
  refine Finset.sum_pos' (fun i _ => mul_nonneg ?_ (Real.exp_pos _).le)
    ⟨j, Finset.mem_univ _, mul_pos ?_ (Real.exp_pos _)⟩
  · unfold Cert.Spec.eye; split_ifs <;> norm_num
  · unfold Cert.Spec.eye; rw [if_neg hj]; norm_num

section
variable (x0 x1 : (⟨S2048x768, .f32⟩ : BufTy).Contents (Elt Ideal)) (R : Fin 4096 → Fin 768 → ℝ)
  (hR : ∀ (p : Fin 4096) (d : Fin 768), val_main_v10 (F := Ideal) x0 x1 (ValueIdx.ix2 p d) = ((R p d : ℝ) : EReal))
include hR

/-- The exponential of the positive-pair similarity over the temperature. -/
theorem num1_apply (k : Fin 4096) :
    val_main_v24 (F := Ideal) x0 x1 (ValueIdx.ix1 k) = ((Real.exp (Cert.Spec.posR R k / (1/2)) : ℝ) : EReal) := by
  rw [val_main_v24_apply, val_main_v23_apply, pos_apply x0 x1 R hR, val_main_v22_apply, val_main_cst_1_apply]
  simp only [Ideal.hostDivf_def, Ideal.ofBits_def, Ideal.hostUnary_exp_def]
  rw [Cert.Consts.ofBits_half, LibFinite.div_coe_coe _ half_ne, Ideal.exp_coe]

/-- One term of the masked row sum. -/
theorem term1_apply (k j : Fin 4096) :
    val_main_v30 (F := Ideal) x0 x1 (ValueIdx.ix2 k j)
      = (((1 - Cert.Spec.eye k j) * Real.exp (Cert.Spec.sim R k j / (1/2)) : ℝ) : EReal) := by
  rw [val_main_v30_apply, val_main_v26_apply, val_main_v25_apply, val_main_cst_2_apply, eye_apply, val_main_v29_apply,
    val_main_v28_apply, sim_apply x0 x1 R hR, val_main_v27_apply, val_main_cst_3_apply]
  simp only [Ideal.hostDivf_def, Ideal.ofBits_def, Ideal.mulf_def, Ideal.subf_def, Ideal.hostUnary_exp_def]
  rw [Cert.Consts.ofBits_half, Cert.Consts.ofBits_one, LibFinite.div_coe_coe _ half_ne, Ideal.exp_coe, ← EReal.coe_sub,
    ← EReal.coe_mul]

/-- The masked row sum. -/
theorem denom1_apply (k : Fin 4096) :
    val_main_v31 (F := Ideal) x0 x1 (ValueIdx.ix1 k) = ((Cert.Spec.denomR R k : ℝ) : EReal) := by
  rw [val_main_v31_apply, val_main_cst_4_apply]
  simp only [Ideal.ofBits_def]
  rw [Ideal.ofBits_zero_f32, zero_add]
  unfold Cert.Spec.denomR
  rw [LibFinite.coe_finset_sum]
  refine Finset.sum_congr rfl fun j _ => ?_
  have e : idx_main_v31 (ValueIdx.ix1 k) j = ValueIdx.ix2 k j :=
    funext fun a => Fin.ext (by match a with | ⟨0, _⟩ => rfl | ⟨1, _⟩ => rfl)
  rw [e, term1_apply x0 x1 R hR]

/-- Minus the logarithm of the quotient, for sample `k`. -/
theorem nll1_apply (k : Fin 4096) :
    val_main_v34 (F := Ideal) x0 x1 (ValueIdx.ix1 k)
      = ((-Real.log (Real.exp (Cert.Spec.posR R k / (1/2)) / Cert.Spec.denomR R k) : ℝ) : EReal) := by
  rw [val_main_v34_apply, val_main_v33_apply, val_main_v32_apply, num1_apply x0 x1 R hR, denom1_apply x0 x1 R hR]
  simp only [Ideal.hostDivf_def, Ideal.hostUnary_log_def, Ideal.hostNegf_def, Ideal.negf_def]
  rw [LibFinite.div_coe_coe _ (denomR_pos R k).ne', Ideal.log_coe,
    if_neg (not_le.mpr (div_pos (Real.exp_pos _) (denomR_pos R k))), ← EReal.coe_neg]

/-- The first loss. -/
theorem loss1_apply (i : S_.Idx) :
    val_main_v36 (F := Ideal) x0 x1 i = ((Cert.Spec.rLoss1 R : ℝ) : EReal) := by
  rw [val_main_v36_apply, val_main_v35_apply, val_main_cst_5_apply, val_main_cst_6_apply]
  simp only [Ideal.hostDivf_def, Ideal.ofBits_def]
  rw [Ideal.ofBits_zero_f32, zero_add, Cert.Consts.ofBits_8192, sum_idx1]
  have hs : ∑ a : Fin 4096, val_main_v34 (F := Ideal) x0 x1 (ValueIdx.ix1 a)
      = ((∑ k : Fin 4096, -Real.log (Real.exp (Cert.Spec.posR R k / (1/2)) / Cert.Spec.denomR R k) : ℝ) : EReal) := by
    rw [LibFinite.coe_finset_sum]
    exact Finset.sum_congr rfl fun k _ => nll1_apply x0 x1 R hR k
  rw [hs, LibFinite.div_coe_coe _ c8192_ne]
  rfl

end

end Cert.RefValue

end
-- ==== Proof.RefValue.lean ====
/-
  The second loss and the result, read as real numbers.

  For samples `k`, `j`: the similarity masked by "same class, other sample" over the temperature one half, its
  exponential; the row sum `∑ j, exp ((1 - same k j) * sim k j / (1/2))`, positive as a sum of exponentials; the
  quotient, a positive real; minus its logarithm. The second loss is the sum of these over all pairs divided by 8192, and
  the result is the first loss plus the balance coefficient times the second.
-/
import proofs.«106012_j6571299963520_2_alg».proof.Proof.Gen.ReferenceIdeal.Read
import proofs.«106012_j6571299963520_2_alg».proof.Proof.Spec
import proofs.«106012_j6571299963520_2_alg».proof.Proof.Consts
import proofs.«106012_j6571299963520_2_alg».proof.Proof.LibFinite
import proofs.«106012_j6571299963520_2_alg».proof.Proof.LibFiniteOps
import proofs.«106012_j6571299963520_2_alg».proof.Proof.RefValueA
import proofs.«106012_j6571299963520_2_alg».proof.Proof.RefValueB
import proofs.«106012_j6571299963520_2_alg».proof.Proof.RefValueD

noncomputable section

namespace Cert.RefValue

open Cert.ReferenceIdeal Cert.ReferenceIdeal.Read Idealize.ShloMosaic

/-- The row sum of the second loss is positive. -/
theorem denVR_pos (R : Fin 4096 → Fin 768 → ℝ) (c : Fin 4096 → BitVec 32) (k : Fin 4096) : 0 < Cert.Spec.denVR R c k := by
  unfold Cert.Spec.denVR
  exact Finset.sum_pos (fun j _ => Real.exp_pos _) ⟨k, Finset.mem_univ _⟩

section
variable (x0 x1 : (⟨S2048x768, .f32⟩ : BufTy).Contents (Elt Ideal)) (x2 : (⟨S2048, .i32⟩ : BufTy).Contents (Elt Ideal))
  (R : Fin 4096 → Fin 768 → ℝ)
  (hR : ∀ (p : Fin 4096) (d : Fin 768), val_main_v10 (F := Ideal) x0 x1 (ValueIdx.ix2 p d) = ((R p d : ℝ) : EReal))
include hR

/-- The exponential of the same-class, other-sample similarity over the temperature. -/
theorem num2_apply (k j : Fin 4096) :
    val_main_v51 (F := Ideal) x0 x1 x2 (ValueIdx.ix2 k j)
      = ((Real.exp ((Cert.Spec.sameF (cls x2) k j - Cert.Spec.eye k j) * Cert.Spec.sim R k j / (1/2)) : ℝ) : EReal) := by
  rw [val_main_v51_apply, val_main_v50_apply, val_main_v45_apply, val_main_v44_apply, same_apply, eye_apply,
    sim_apply x0 x1 R hR, val_main_v49_apply, val_main_cst_8_apply]
  simp only [Ideal.hostDivf_def, Ideal.ofBits_def, Ideal.mulf_def, Ideal.subf_def, Ideal.hostUnary_exp_def]
  rw [Cert.Consts.ofBits_half, ← EReal.coe_sub, ← EReal.coe_mul, LibFinite.div_coe_coe _ half_ne, Ideal.exp_coe]

/-- One term of the row sum. -/
theorem term2_apply (k j : Fin 4096) :
    val_main_v54 (F := Ideal) x0 x1 x2 (ValueIdx.ix2 k j)
      = ((Real.exp ((1 - Cert.Spec.sameF (cls x2) k j) * Cert.Spec.sim R k j / (1/2)) : ℝ) : EReal) := by
  rw [val_main_v54_apply, val_main_v53_apply, val_main_v48_apply, val_main_v47_apply, val_main_v46_apply,
    val_main_cst_7_apply, same_apply, sim_apply x0 x1 R hR, val_main_v52_apply, val_main_cst_9_apply]
  simp only [Ideal.hostDivf_def, Ideal.ofBits_def, Ideal.mulf_def, Ideal.subf_def, Ideal.hostUnary_exp_def]
  rw [Cert.Consts.ofBits_half, Cert.Consts.ofBits_one, ← EReal.coe_sub, ← EReal.coe_mul,
    LibFinite.div_coe_coe _ half_ne, Ideal.exp_coe]

/-- The row sum. -/
theorem denom2_apply (k : Fin 4096) :
    val_main_v55 (F := Ideal) x0 x1 x2 (ValueIdx.ix1 k) = ((Cert.Spec.denVR R (cls x2) k : ℝ) : EReal) := by
  rw [val_main_v55_apply, val_main_cst_10_apply]
  simp only [Ideal.ofBits_def]
  rw [Ideal.ofBits_zero_f32, zero_add]
  unfold Cert.Spec.denVR
  rw [LibFinite.coe_finset_sum]
  refine Finset.sum_congr rfl fun j _ => ?_
  have e : idx_main_v55 (ValueIdx.ix1 k) j = ValueIdx.ix2 k j :=
    funext fun a => Fin.ext (by match a with | ⟨0, _⟩ => rfl | ⟨1, _⟩ => rfl)
  rw [e, term2_apply x0 x1 x2 R hR]

/-- Minus the logarithm of the quotient, for the pair `(k, j)`. -/
theorem nll2_apply (k j : Fin 4096) :
    val_main_v60 (F := Ideal) x0 x1 x2 (ValueIdx.ix2 k j)
      = ((-Real.log (Real.exp ((Cert.Spec.sameF (cls x2) k j - Cert.Spec.eye k j) * Cert.Spec.sim R k j / (1/2))
          / Cert.Spec.denVR R (cls x2) k) : ℝ) : EReal) := by
  have e : idx_main_v56 (idx_main_v57 (ValueIdx.ix2 k j)) = ValueIdx.ix1 k :=
    funext fun a => Fin.ext (by match a with | ⟨0, _⟩ => rfl)
  rw [val_main_v60_apply, val_main_v59_apply, val_main_v58_apply, num2_apply x0 x1 x2 R hR, val_main_v57_apply,
    val_main_v56_apply, e, denom2_apply x0 x1 x2 R hR]
  simp only [Ideal.hostDivf_def, Ideal.hostUnary_log_def, Ideal.hostNegf_def, Ideal.negf_def]
  rw [LibFinite.div_coe_coe _ (denVR_pos R (cls x2) k).ne', Ideal.log_coe,
    if_neg (not_le.mpr (div_pos (Real.exp_pos _) (denVR_pos R (cls x2) k))), ← EReal.coe_neg]

/-- The second loss. -/
theorem loss2_apply (i : S_.Idx) :
    val_main_v62 (F := Ideal) x0 x1 x2 i = ((Cert.Spec.rLoss2 R (cls x2) : ℝ) : EReal) := by
  rw [val_main_v62_apply, val_main_v61_apply, val_main_cst_11_apply, val_main_cst_12_apply]
  simp only [Ideal.hostDivf_def, Ideal.ofBits_def]
  rw [Ideal.ofBits_zero_f32, zero_add, Cert.Consts.ofBits_8192, ValueIdx.sum_idx2]
  have hs : ∑ a : Fin 4096, ∑ b : Fin 4096, val_main_v60 (F := Ideal) x0 x1 x2 (ValueIdx.ix2 a b)
      = ((∑ k : Fin 4096, ∑ j : Fin 4096,
          -Real.log (Real.exp ((Cert.Spec.sameF (cls x2) k j - Cert.Spec.eye k j) * Cert.Spec.sim R k j / (1/2))
            / Cert.Spec.denVR R (cls x2) k) : ℝ) : EReal) := by
    rw [LibFinite.coe_finset_sum]
    refine Finset.sum_congr rfl fun k _ => ?_
    rw [LibFinite.coe_finset_sum]
    exact Finset.sum_congr rfl fun j _ => nll2_apply x0 x1 x2 R hR k j
  rw [hs, LibFinite.div_coe_coe _ c8192_ne]
  rfl

/-- The reference's result is the real `rLoss` of the normalised embeddings, the doubled class vector and the balance
    coefficient. -/
theorem result_eq :
    val_main_v64 (F := Ideal) x0 x1 x2
      = fun _ => ((Cert.Spec.rLoss R (fun k => x2 (ValueIdx.ix1 (Cert.Spec.fold k))) Cert.Consts.c01 : ℝ) : EReal) := by
  funext i
  rw [val_main_v64_apply, val_main_v63_apply, loss1_apply x0 x1 R hR, loss2_apply x0 x1 x2 R hR, val_main_cst_13_apply]
  simp only [Ideal.addf_def, Ideal.mulf_def, Ideal.ofBits_def]
  rw [Cert.Consts.ofBits_c01, ← EReal.coe_mul, ← EReal.coe_add]
  rfl

end

end Cert.RefValue

end
-- ==== Proof.RepsReal.lean ====
import proofs.«106012_j6571299963520_2_alg».proof.Proof.Gen.ReferenceIdeal.Read
import proofs.«106012_j6571299963520_2_alg».proof.Proof.Gen.Pre_finite_inputs
import proofs.«106012_j6571299963520_2_alg».proof.Proof.LibFiniteOps
import proofs.«106012_j6571299963520_2_alg».proof.Proof.Consts
import Idealize.ShloMosaic.Lib.ReduceAll

/-!
  The normalised embeddings are real numbers. Under the precondition every entry of the two inputs has an
  absolute value below `+∞`, hence is a real. Each row's sum of squares is then a nonnegative real, its square
  root a real, the maximum of that with the positive floor a positive real, and the quotient of a real by a
  nonzero real is a real. The stacked array takes each of its entries from one of the two normalised arrays.
-/

open Idealize.ShloMosaic LibFinite

namespace Cert.RepsReal

open Cert.ReferenceIdeal Cert.ReferenceIdeal.Read

/-! ### Small facts on extended reals -/

/-- A truth value printed as the one-bit word `1` is `true`. -/
theorem eq_true_of_ofBool {b : Bool} (h : BitVec.ofBool b = 1#1) : b = true := by
  cases b
  · exact absurd h (by decide)
  · rfl

/-- The single-precision pattern `0x7F800000` denotes `+∞`. -/
theorem ofBits_inf : Ideal.ofBits .f32 0x7F800000#32 = ⊤ := by
  simp [Ideal.ofBits, Ideal.ieee]

/-- An extended real whose absolute value `max x (-x)` is below `+∞` is a real number. -/
theorem isReal_of_abs_lt_top {x : EReal} (h : max x (-x) < ⊤) : IsReal x := by
  induction x using EReal.rec with
  | bot => exact absurd h (by simp)
  | top => exact absurd h (by simp)
  | coe r => exact ⟨r, rfl⟩

/-- The square of a real is a nonnegative extended real. -/
theorem mul_self_nonneg_of_isReal {x : EReal} (hx : IsReal x) : 0 ≤ x * x := by
  obtain ⟨r, rfl⟩ := hx
  rw [← EReal.coe_mul]
  exact EReal.coe_nonneg.mpr (mul_self_nonneg r)

/-- The square root of a nonnegative real is a real. -/
theorem isReal_sqrt {y : EReal} (hy : IsReal y) (h0 : 0 ≤ y) : IsReal (Ideal.sqrt y) := by
  obtain ⟨r, rfl⟩ := hy
  have hr : 0 ≤ r := EReal.coe_nonneg.mp h0
  rw [Ideal.sqrt_coe, if_neg (not_lt.mpr hr)]
  exact ⟨_, rfl⟩

/-- The maximum of a real with the positive floor is a real and is not zero. -/
theorem max_eps_spec {y : EReal} (hy : IsReal y) :
    IsReal (max y ((Cert.Consts.eps : ℝ) : EReal)) ∧ max y ((Cert.Consts.eps : ℝ) : EReal) ≠ 0 :=
  ⟨hy.max (isReal_coe _),
   (lt_of_lt_of_le (EReal.coe_pos.mpr Cert.Consts.eps_pos) (le_max_right _ _)).ne'⟩

/-! ### The precondition: every input entry is a real -/

instance : Subsingleton Cert.Pre_finite_inputs.S_.Idx := ⟨fun a b => funext fun d => d.elim0⟩

/-- One entry: the comparison `|x| < +∞` came out true, so `x` is a real. -/
theorem isReal_of_cmp {x : EReal}
    (e : Ideal.cmp .olt (max x (-x)) (Ideal.ofBits .f32 0x7F800000#32) = 1#1) : IsReal x := by
  rw [ofBits_inf] at e
  exact isReal_of_abs_lt_top (of_decide_eq_true (eq_true_of_ofBool e))

/-- Under the precondition both inputs have only real entries. -/
theorem inputs_real [Cert.Pre_finite_inputs.Facts]
    (x0 x1 : FVec Ideal Cert.Pre_finite_inputs.S2048x768 .f32) (x2 : IVec Cert.Pre_finite_inputs.S2048 32)
    (hpre : Cert.Pre_finite_inputs.fn (F := Ideal) x0 x1 x2 = fun _ => 1#1) :
    AllReal x0 ∧ AllReal x1 := by
  have h := congrFun hpre ValueIdx.ix0
  dsimp only [Cert.Pre_finite_inputs.fn] at h
  obtain ⟨h0, h1⟩ := IntOp.andi_eq_one.1 h
  refine ⟨fun i => ?_, fun i => ?_⟩
  · exact isReal_of_cmp (Host.reduce_andi_all _ _ _ _ _ h0 i)
  · exact isReal_of_cmp (Host.reduce_andi_all _ _ _ _ _ h1 i)

/-! ### Finiteness through the normalisation -/

/-- The zero the row sums start from is a real. -/
theorem cst0_real (k : S_.Idx) : IsReal (val_main_call0_cst (F := Ideal) k) := by
  rw [val_main_call0_cst_apply]
  show IsReal (Ideal.ofBits .f32 0x00000000#32)
  rw [Cert.Consts.ofBits_zero]
  exact isReal_zero

/-- Each row's sum of squares is a real. -/
theorem sumsq_real {x : FVec Ideal S2048x768 .f32} (hx : AllReal x) :
    AllReal (val_main_call0_v1 (F := Ideal) x) := by
  unfold val_main_call0_v1
  exact allReal_hostReduceAdd (allReal_mulf hx hx) cst0_real _ _

/-- Each row's sum of squares is nonnegative. -/
theorem sumsq_nonneg {x : FVec Ideal S2048x768 .f32} (hx : AllReal x) (i : S2048.Idx) :
    0 ≤ val_main_call0_v1 (F := Ideal) x i := by
  rw [val_main_call0_v1_apply, val_main_call0_cst_apply]
  show 0 ≤ Ideal.ofBits .f32 0x00000000#32 + _
  rw [Cert.Consts.ofBits_zero, zero_add]
  refine Finset.sum_nonneg fun k _ => ?_
  rw [val_main_call0_v0_apply]
  exact mul_self_nonneg_of_isReal (hx _)

/-- The divisor — the row norm, floored — is a real and is not zero. -/
theorem divisor_spec {x : FVec Ideal S2048x768 .f32} (hx : AllReal x) (i : S2048x768.Idx) :
    IsReal (val_main_v3 (F := Ideal) x i) ∧ val_main_v3 (F := Ideal) x i ≠ 0 := by
  rw [val_main_v3_apply, val_main_v2_apply, val_main_v1_apply, val_main_cst_apply, val_main_v0_apply,
    val_main_call0_v2_apply]
  show IsReal (max (Ideal.sqrt _) (Ideal.ofBits .f32 0x2B8CBCCC#32)) ∧
    max (Ideal.sqrt _) (Ideal.ofBits .f32 0x2B8CBCCC#32) ≠ 0
  rw [Cert.Consts.ofBits_eps]
  exact max_eps_spec (isReal_sqrt (sumsq_real hx _) (sumsq_nonneg hx _))

/-- A normalised array of real entries has real entries. -/
theorem normed_real {x : FVec Ideal S2048x768 .f32} (hx : AllReal x) :
    AllReal (val_main_v4 (F := Ideal) x) := by
  unfold val_main_v4
  exact allReal_hostDivf hx (fun i => (divisor_spec hx i).1) (fun i => (divisor_spec hx i).2)

/-- The second view is normalised by the same operations as the first. -/
theorem v9_eq_v4 (x : FVec Ideal S2048x768 .f32) :
    val_main_v9 (F := Ideal) x = val_main_v4 (F := Ideal) x := rfl

/-! ### The stacked array -/

/-- Every entry of a concatenation is an entry of one of its pieces: a property all entries of all
    pieces have, every entry of the concatenation has. -/
theorem concatenate_forall {α : Type} (P : α → Prop) (t : Shape) (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- The stacked normalised array has real entries when both inputs do. -/
theorem stacked_real {x0 x1 : FVec Ideal S2048x768 .f32} (h0 : AllReal x0) (h1 : AllReal x1) :
    AllReal (val_main_v10 (F := Ideal) x0 x1) := by
  intro j
  unfold val_main_v10
  refine concatenate_forall IsReal _ _ _ _ (fun p hp i => ?_) j
  simp only [List.mem_cons, List.not_mem_nil, or_false] at hp
  rcases hp with rfl | rfl
  · exact normed_real h0 i
  · rw [v9_eq_v4]; exact normed_real h1 i

/-- Under the precondition the normalised embeddings are an array of real numbers. -/
theorem reps_real [Cert.Pre_finite_inputs.Facts]
    (x0 x1 : (⟨S2048x768, .f32⟩ : BufTy).Contents (Elt Ideal)) (x2 : (⟨S2048, .i32⟩ : BufTy).Contents (Elt Ideal))
    (hpre : Cert.Pre_finite_inputs.fn (F := Ideal) x0 x1 x2 = fun _ => 1#1) :
    ∃ R : Fin 4096 → Fin 768 → ℝ, ∀ (p : Fin 4096) (d : Fin 768),
      val_main_v10 (F := Ideal) x0 x1 (ValueIdx.ix2 p d) = ((R p d : ℝ) : EReal) := by
  obtain ⟨h0, h1⟩ := inputs_real x0 x1 x2 hpre
  have hall := stacked_real h0 h1
  exact ⟨fun p d => (val_main_v10 (F := Ideal) x0 x1 (ValueIdx.ix2 p d)).toReal,
    fun p d => ((hall (ValueIdx.ix2 p d)).coe_toReal).symm⟩

end Cert.RepsReal
-- ==== Proof.lean ====
/-
  A contrastive loss over 4096 stacked samples (two augmented views of 2048 embeddings, 768 features), computed two
  ways. Both programs normalise each embedding to unit length (with a floor on the norm) and stack the two views.

  The reference forms the whole 4096 × 4096 matrix of cosine similarities and applies, entry by entry, the masks
  `1 - eye`, `same - eye`, `1 - same` (`same`: equal predicted class), exponentials at temperature 1/2, row sums,
  and `-log (eᵃ / d)`.

  The kernel never forms the matrix: over an 8 × 4 grid of (512 rows) × (1024 columns) tiles it keeps, per row, three
  running sums over all columns — of `exp (2·sim)`, of `sim` over same-class columns, of `exp (2·sim)` with same-class
  columns counted as 1 — reset at the first column tile and added to at the later ones; afterwards the diagonal term
  and the positive pair are corrected from 768-long dot products, and `-log (eᵃ / d)` is used as `-a + log d`.

  With every input finite the normalised embeddings are real numbers, every sum is a sum of reals, every logarithm is
  of a positive real, and the two arrangements are the same real number: the diagonal term leaves a sum of positive
  exponentials, the masked exponentials are 1 exactly on same-class columns, and a sum of 4096 equal logarithms is
  4096 times one.
-/
import proofs.«106012_j6571299963520_2_alg».proof.Defs
import proofs.«106012_j6571299963520_2_alg».proof.Proof.Gen.Kernel
import proofs.«106012_j6571299963520_2_alg».proof.Proof.Gen.KernelIdeal
import proofs.«106012_j6571299963520_2_alg».proof.Proof.Gen.ReferenceIdeal
import proofs.«106012_j6571299963520_2_alg».proof.Proof.Gen.Pre_finite_inputs
import proofs.«106012_j6571299963520_2_alg».proof.Proof.Gen.ReferenceIdeal.Run
import proofs.«106012_j6571299963520_2_alg».proof.Proof.Gen.ReferenceIdeal.Read
import proofs.«106012_j6571299963520_2_alg».proof.Proof.KBFrame
import proofs.«106012_j6571299963520_2_alg».proof.Proof.KIFrame
import proofs.«106012_j6571299963520_2_alg».proof.Proof.KPrefix
import proofs.«106012_j6571299963520_2_alg».proof.Proof.KValue
import proofs.«106012_j6571299963520_2_alg».proof.Proof.KTail
import proofs.«106012_j6571299963520_2_alg».proof.Proof.RefValue
import proofs.«106012_j6571299963520_2_alg».proof.Proof.RepsReal
import proofs.«106012_j6571299963520_2_alg».proof.Proof.SpecEq
import proofs.«106012_j6571299963520_2_alg».proof.Proof.LibHostRead

noncomputable section

namespace Cert.Proof

open Idealize.ShloMosaic Idealize.SL.Sem

/-- The word-level kernel program runs to the end and leaves its three arguments as they were. -/
theorem frame_k : Cert.frame_Kernel := fun m ρ _ => Cert.Kernel.Frm.frame (F := Bits) m ρ
/-- So does the idealized kernel program. -/
theorem frame_ki : Cert.frame_KernelIdeal := fun m ρ _ => Cert.KernelIdeal.Frm.frame (F := Ideal) m ρ
/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- At the ideal instance, from memories that agree on the three arguments, both programs end with the same loss:
    the kernel program's three accumulated row sums are `expsum`, `samesim`, `denv` of the real normalised embeddings
    and its closing lines assemble the running-sums arrangement; the reference computes the whole-matrix arrangement;
    the two arrangements are one real number. -/
theorem algebraic : Cert.algebraic_KernelIdeal_ReferenceIdeal := by
  intro m ρ m' ρ' hpre hagree
  choose R hR using fun c : Dev Cert.KernelIdeal.nD =>
    Cert.RepsReal.reps_real (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (hpre c)
  refine ⟨fun c _ => ((Cert.Spec.kLoss (R c) (Cert.RefValue.cls (m ((c.tc : Thread Cert.KernelIdeal.nD Cert.KernelIdeal.τ).loc Cert.KernelIdeal.main_arg2))) Cert.Consts.c01 : ℝ) : EReal), ?_, ?_⟩
  · -- the kernel program: the frame run, the three output arrays, the closing lines
    refine (θ_run Cert.KernelIdeal.defs _ _).mono (fun r h c => ?_) (Cert.KernelIdeal.Frm.run_main (F := Ideal) m ρ)
    have hk : ∀ b : Ref Cert.KernelIdeal.sig .tc, b ∈ Pipeline.restRefs Cert.KernelIdeal.sig Cert.KernelIdeal.spec0 → b ∉ Cert.KernelIdeal.Frm.tailW →
        StableHlo.after (List.flatten [Cert.KernelIdeal.Gen.hostOps1 (F := Ideal)]) (Cert.KernelIdeal.Frm.Wx m c) (Proc.devRef .tc b) = Cert.KernelIdeal.Frm.V m c b := fun b hb hw => by
      rw [show List.flatten [Cert.KernelIdeal.Gen.hostOps1 (F := Ideal)] = Cert.KernelIdeal.Gen.hostOps1 from by simp only [List.flatten_cons, List.flatten_nil, List.append_nil],
        LibHostRead.after_of_not_written Cert.KernelIdeal.Frm.tail_aligned hw, Cert.KernelIdeal.Frm.Wx_rest m c b hb]
    refine ⟨?_, ((h c).2 Cert.KernelIdeal.main_arg0 (by decide)).trans ((hk _ (by decide) (by decide)).trans (Cert.KernelIdeal.Frm.V_main_arg0 m c)),
      ((h c).2 Cert.KernelIdeal.main_arg1 (by decide)).trans ((hk _ (by decide) (by decide)).trans (Cert.KernelIdeal.Frm.V_main_arg1 m c)),
      ((h c).2 Cert.KernelIdeal.main_arg2 (by decide)).trans ((hk _ (by decide) (by decide)).trans (Cert.KernelIdeal.Frm.V_main_arg2 m c))⟩
    refine ((h c).2 Cert.KernelIdeal.main_v49 (by decide)).trans ?_
    rw [show List.flatten [Cert.KernelIdeal.Gen.hostOps1 (F := Ideal)] = Cert.KernelIdeal.Gen.hostOps1 from by simp only [List.flatten_cons, List.flatten_nil, List.append_nil]]
    have h11 : ∀ (p : Fin 4096) (d : Fin 768), (Cert.KernelIdeal.Frm.V (F := Ideal) m c Cert.KernelIdeal.main_v11 : Cert.KernelIdeal.S4096x768.Idx → EReal) (ValueIdx.ix2 p d) = ((R c p d : ℝ) : EReal) :=
      fun p d => (congrFun (Cert.KPrefix.V_v11 m c) _).trans (hR c p d)
    exact Cert.KTail.tail_eq (Cert.KernelIdeal.Frm.Wx m c) (R c) _
      (fun p d => (congrFun ((Cert.KernelIdeal.Frm.Wx_arr m c 0).trans (Cert.KernelIdeal.Frm.arrAt_in0 m c _)) _).trans (h11 p d))
      (fun k => (congrFun (Cert.KernelIdeal.Frm.Wx_arr m c 4) _).trans (Cert.KValue.arr4_apply m c (R c) _ h11 (fun k => Cert.KPrefix.V_v13_apply m c k) (fun k => Cert.KPrefix.V_v14_apply m c k) k))
      (fun k => (congrFun (Cert.KernelIdeal.Frm.Wx_arr m c 5) _).trans (Cert.KValue.arr5_apply m c (R c) _ h11 (fun k => Cert.KPrefix.V_v13_apply m c k) (fun k => Cert.KPrefix.V_v14_apply m c k) k))
      (fun k => (congrFun (Cert.KernelIdeal.Frm.Wx_arr m c 6) _).trans (Cert.KValue.arr6_apply m c (R c) _ h11 (fun k => Cert.KPrefix.V_v13_apply m c k) (fun k => Cert.KPrefix.V_v14_apply m c k) k))
  · -- the reference: its generated run, read as the whole-matrix arrangement, which is the running-sums one
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v64_eq, (hagree c).1, (hagree c).2.1, (hagree c).2.2,
      Cert.RefValue.result_eq _ _ _ (R c) (hR c)]
    exact funext fun _ => congrArg (fun x : ℝ => (x : EReal)) (Cert.Spec.kLoss_eq_rLoss (R c) _ Cert.Consts.c01).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
